-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x3 : Shape := ⟨4, ![16, 512, 512, 3]⟩
abbrev S_ : Shape := ⟨0, ![]⟩

class Facts : Prop where
  bcast_S_S16x512x512x3 : S_.BroadcastsInDim S16x512x512x3 (![] : Fin 0 → Fin S16x512x512x3.rank)
  reducesTo_S16x512x512x3_S_d0_1_2_3 : S16x512x512x3.ReducesTo [0, 1, 2, 3] S_
  h_S_ : 0 < S_.numel

variable [Facts]

def fn {F : FTy → Type} [FloatOps F] (main_arg0 : FVec F S16x512x512x3 .f32) : IVec S_ 1 :=
  let main_v0 : FVec F S16x512x512x3 .f32 := Host.absf main_arg0
  let main_cst : FVec F S_ .f32 := constant S_ .f32 0x7F800000#32
  let main_v1 : FVec F S16x512x512x3 .f32 := broadcastInDim S16x512x512x3 ![] bcast_S_S16x512x512x3 main_cst
  let main_v2 : IVec S16x512x512x3 1 := cmpf .olt main_v0 main_v1
  let main_c : IVec S_ 1 := constantI S_ 1 1#1
  let main_v3 : IVec S_ 1 := (fun x v => Host.reduce IntOp.andi x v reducesTo_S16x512x512x3_S_d0_1_2_3 h_S_) main_v2 main_c
  main_v3
-- ==== Kernel.lean ====
abbrev S16x512x512x3 : Shape := ⟨4, ![16, 512, 512, 3]⟩
abbrev S_ : Shape := ⟨0, ![]⟩
abbrev S16x516x516x3 : Shape := ⟨4, ![16, 516, 516, 3]⟩
abbrev S16x3x516x516 : Shape := ⟨4, ![16, 3, 516, 516]⟩
abbrev S16x3x512x512 : Shape := ⟨4, ![16, 3, 512, 512]⟩
abbrev S1x3x516x516 : Shape := ⟨4, ![1, 3, 516, 516]⟩
abbrev S1x3x512x512 : Shape := ⟨4, ![1, 3, 512, 512]⟩
abbrev S3x512x512 : Shape := ⟨3, ![3, 512, 512]⟩
abbrev S1x512x512 : Shape := ⟨3, ![1, 512, 512]⟩
abbrev S512x512 : Shape := ⟨2, ![512, 512]⟩

abbrev nBuf : Space → Nat
  | .hbm => 7
  | .vmem => 4
  | .smem => 0
  | _ => 0

abbrev bufTy : (tb : Table) → Fin (tcTables nBuf tb) → BufTy
  | .hbm, ⟨0, _⟩ => ⟨S16x512x512x3, .f32⟩
  | .hbm, ⟨1, _⟩ => ⟨S_, .i32⟩
  | .hbm, ⟨2, _⟩ => ⟨S_, .f32⟩
  | .hbm, ⟨3, _⟩ => ⟨S16x516x516x3, .f32⟩
  | .hbm, ⟨4, _⟩ => ⟨S16x3x516x516, .f32⟩
  | .hbm, ⟨5, _⟩ => ⟨S16x3x512x512, .f32⟩
  | .hbm, ⟨6, _⟩ => ⟨S16x512x512x3, .f32⟩
  | .local _ .vmem, ⟨0, _⟩ => ⟨S1x3x516x516, .f32⟩
  | .local _ .vmem, ⟨1, _⟩ => ⟨S1x3x516x516, .f32⟩
  | .local _ .vmem, ⟨2, _⟩ => ⟨S1x3x512x512, .f32⟩
  | .local _ .vmem, ⟨3, _⟩ => ⟨S1x3x512x512, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x516x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x512x512x3_S16x516x516x3_000_220_220_000 : S16x512x512x3.Pads (![0, 2, 2, 0] : Fin 4 → Nat) ![0, 2, 2, 0] ![0, 0, 0, 0] S16x516x516x3
  h_S_ : 0 < S_.numel
  transposes_S16x516x516x3_S16x3x516x516_0_3_1_2 : S16x516x516x3.Transposes [0, 3, 1, 2] S16x3x516x516
  inb_S1x3x516x516_S1x3x512x512_0_0_2_2 : ∀ a, (![0, 0, 2, 2] : Fin 4 → Nat) a + S1x3x512x512.size a ≤ S1x3x516x516.size a
  h_S1x3x512x512 : 0 < S1x3x512x512.numel
  shapeCasts_S1x3x512x512_S3x512x512 : S1x3x512x512.ShapeCasts S3x512x512
  inb_S1x3x516x516_S1x3x512x512_0_0_0_0 : ∀ a, (![0, 0, 0, 0] : Fin 4 → Nat) a + S1x3x512x512.size a ≤ S1x3x516x516.size a
  reduces_S3x512x512_S512x512 : S3x512x512.Reduces [0] S512x512
  shapeCasts_S512x512_S1x512x512 : S512x512.ShapeCasts S1x512x512
  broadcasts_S1x512x512_S3x512x512 : S1x512x512.Broadcasts S3x512x512
  inb_S1x3x516x516_S1x3x512x512_0_0_0_1 : ∀ a, (![0, 0, 0, 1] : Fin 4 → Nat) a + S1x3x512x512.size a ≤ S1x3x516x516.size a
  inb_S1x3x516x516_S1x3x512x512_0_0_0_2 : ∀ a, (![0, 0, 0, 2] : Fin 4 → Nat) a + S1x3x512x512.size a ≤ S1x3x516x516.size a
  inb_S1x3x516x516_S1x3x512x512_0_0_0_3 : ∀ a, (![0, 0, 0, 3] : Fin 4 → Nat) a + S1x3x512x512.size a ≤ S1x3x516x516.size a
  inb_S1x3x516x516_S1x3x512x512_0_0_0_4 : ∀ a, (![0, 0, 0, 4] : Fin 4 → Nat) a + S1x3x512x512.size a ≤ S1x3x516x516.size a
  inb_S1x3x516x516_S1x3x512x512_0_0_1_0 : ∀ a, (![0, 0, 1, 0] : Fin 4 → Nat) a + S1x3x512x512.size a ≤ S1x3x516x516.size a
  inb_S1x3x516x516_S1x3x512x512_0_0_1_1 : ∀ a, (![0, 0, 1, 1] : Fin 4 → Nat) a + S1x3x512x512.size a ≤ S1x3x516x516.size a
  inb_S1x3x516x516_S1x3x512x512_0_0_1_2 : ∀ a, (![0, 0, 1, 2] : Fin 4 → Nat) a + S1x3x512x512.size a ≤ S1x3x516x516.size a
  inb_S1x3x516x516_S1x3x512x512_0_0_1_3 : ∀ a, (![0, 0, 1, 3] : Fin 4 → Nat) a + S1x3x512x512.size a ≤ S1x3x516x516.size a
  inb_S1x3x516x516_S1x3x512x512_0_0_1_4 : ∀ a, (![0, 0, 1, 4] : Fin 4 → Nat) a + S1x3x512x512.size a ≤ S1x3x516x516.size a
  inb_S1x3x516x516_S1x3x512x512_0_0_2_0 : ∀ a, (![0, 0, 2, 0] : Fin 4 → Nat) a + S1x3x512x512.size a ≤ S1x3x516x516.size a
  inb_S1x3x516x516_S1x3x512x512_0_0_2_1 : ∀ a, (![0, 0, 2, 1] : Fin 4 → Nat) a + S1x3x512x512.size a ≤ S1x3x516x516.size a
  inb_S1x3x516x516_S1x3x512x512_0_0_2_3 : ∀ a, (![0, 0, 2, 3] : Fin 4 → Nat) a + S1x3x512x512.size a ≤ S1x3x516x516.size a
  inb_S1x3x516x516_S1x3x512x512_0_0_2_4 : ∀ a, (![0, 0, 2, 4] : Fin 4 → Nat) a + S1x3x512x512.size a ≤ S1x3x516x516.size a
  inb_S1x3x516x516_S1x3x512x512_0_0_3_0 : ∀ a, (![0, 0, 3, 0] : Fin 4 → Nat) a + S1x3x512x512.size a ≤ S1x3x516x516.size a
  inb_S1x3x516x516_S1x3x512x512_0_0_3_1 : ∀ a, (![0, 0, 3, 1] : Fin 4 → Nat) a + S1x3x512x512.size a ≤ S1x3x516x516.size a
  inb_S1x3x516x516_S1x3x512x512_0_0_3_2 : ∀ a, (![0, 0, 3, 2] : Fin 4 → Nat) a + S1x3x512x512.size a ≤ S1x3x516x516.size a
  inb_S1x3x516x516_S1x3x512x512_0_0_3_3 : ∀ a, (![0, 0, 3, 3] : Fin 4 → Nat) a + S1x3x512x512.size a ≤ S1x3x516x516.size a
  inb_S1x3x516x516_S1x3x512x512_0_0_3_4 : ∀ a, (![0, 0, 3, 4] : Fin 4 → Nat) a + S1x3x512x512.size a ≤ S1x3x516x516.size a
  inb_S1x3x516x516_S1x3x512x512_0_0_4_0 : ∀ a, (![0, 0, 4, 0] : Fin 4 → Nat) a + S1x3x512x512.size a ≤ S1x3x516x516.size a
  inb_S1x3x516x516_S1x3x512x512_0_0_4_1 : ∀ a, (![0, 0, 4, 1] : Fin 4 → Nat) a + S1x3x512x512.size a ≤ S1x3x516x516.size a
  inb_S1x3x516x516_S1x3x512x512_0_0_4_2 : ∀ a, (![0, 0, 4, 2] : Fin 4 → Nat) a + S1x3x512x512.size a ≤ S1x3x516x516.size a
  inb_S1x3x516x516_S1x3x512x512_0_0_4_3 : ∀ a, (![0, 0, 4, 3] : Fin 4 → Nat) a + S1x3x512x512.size a ≤ S1x3x516x516.size a
  inb_S1x3x516x516_S1x3x512x512_0_0_4_4 : ∀ a, (![0, 0, 4, 4] : Fin 4 → Nat) a + S1x3x512x512.size a ≤ S1x3x516x516.size a
  inb_S1x3x512x512_S1x3x512x512_0_0_0_0 : ∀ a, (![0, 0, 0, 0] : Fin 4 → Nat) a + S1x3x512x512.size a ≤ S1x3x512x512.size a
  shapeCasts_S3x512x512_S1x3x512x512 : S3x512x512.ShapeCasts S1x3x512x512
  transposes_S16x3x512x512_S16x512x512x3_0_2_3_1 : S16x3x512x512.Transposes [0, 2, 3, 1] S16x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x516x516.size a ≤ S16x3x516x516.size a
  hwx0_0 : ∀ i : grid0.Coords, EltTy.bits .f32 = 32 ∨ (Rect.block (s := S16x3x516x516) S1x3x516x516.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)

variable [Facts₀]

abbrev win0_0 : Pipeline.Window sig grid0 :=
  Pipeline.Window.ofSpec (Memref.whole main_v1) S1x3x516x516.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x512x3 : Shape := ⟨4, ![16, 512, 512, 3]⟩
abbrev S_ : Shape := ⟨0, ![]⟩
abbrev S16x516x516x3 : Shape := ⟨4, ![16, 516, 516, 3]⟩
abbrev S16x512x512 : Shape := ⟨3, ![16, 512, 512]⟩
abbrev S16x512x512x1 : Shape := ⟨4, ![16, 512, 512, 1]⟩

abbrev nBuf : Space → Nat
  | .hbm => 611
  | .vmem => 0
  | .smem => 0
  | _ => 0

abbrev hbmTy0_0 (i : Nat) : BufTy := match i % 128 with
  | 0 => ⟨S16x512x512x3, .f32⟩
  | 1 => ⟨S_, .i32⟩
  | 2 => ⟨S_, .f32⟩
  | 3 => ⟨S16x516x516x3, .f32⟩
  | 4 => ⟨S_, .f32⟩
  | 5 => ⟨S16x512x512x3, .f32⟩
  | 6 => ⟨S_, .f32⟩
  | 7 => ⟨S16x512x512, .f32⟩
  | 8 => ⟨S_, .i32⟩
  | 9 => ⟨S_, .i32⟩
  | 10 => ⟨S_, .i32⟩
  | 11 => ⟨S_, .i32⟩
  | 12 => ⟨S16x512x512x3, .f32⟩
  | 13 => ⟨S16x512x512x3, .f32⟩
  | 14 => ⟨S16x512x512x3, .f32⟩
  | 15 => ⟨S_, .f32⟩
  | 16 => ⟨S16x512x512, .f32⟩
  | 17 => ⟨S_, .f32⟩
  | 18 => ⟨S16x512x512, .f32⟩
  | 19 => ⟨S16x512x512, .f32⟩
  | 20 => ⟨S_, .f32⟩
  | 21 => ⟨S16x512x512, .f32⟩
  | 22 => ⟨S16x512x512, .f32⟩
  | 23 => ⟨S_, .f32⟩
  | 24 => ⟨S16x512x512, .f32⟩
  | 25 => ⟨S16x512x512, .f32⟩
  | 26 => ⟨S16x512x512, .f32⟩
  | 27 => ⟨S16x512x512x1, .f32⟩
  | 28 => ⟨S16x512x512x3, .f32⟩
  | 29 => ⟨S16x512x512x3, .f32⟩
  | 30 => ⟨S16x512x512x3, .f32⟩
  | 31 => ⟨S16x512x512, .f32⟩
  | 32 => ⟨S_, .i32⟩
  | 33 => ⟨S_, .i32⟩
  | 34 => ⟨S_, .i32⟩
  | 35 => ⟨S_, .i32⟩
  | 36 => ⟨S16x512x512x3, .f32⟩
  | 37 => ⟨S16x512x512x3, .f32⟩
  | 38 => ⟨S16x512x512x3, .f32⟩
  | 39 => ⟨S_, .f32⟩
  | 40 => ⟨S16x512x512, .f32⟩
  | 41 => ⟨S_, .f32⟩
  | 42 => ⟨S16x512x512, .f32⟩
  | 43 => ⟨S16x512x512, .f32⟩
  | 44 => ⟨S_, .f32⟩
  | 45 => ⟨S16x512x512, .f32⟩
  | 46 => ⟨S16x512x512, .f32⟩
  | 47 => ⟨S_, .f32⟩
  | 48 => ⟨S16x512x512, .f32⟩
  | 49 => ⟨S16x512x512, .f32⟩
  | 50 => ⟨S16x512x512, .f32⟩
  | 51 => ⟨S16x512x512x1, .f32⟩
  | 52 => ⟨S16x512x512x3, .f32⟩
  | 53 => ⟨S16x512x512x3, .f32⟩
  | 54 => ⟨S16x512x512x3, .f32⟩
  | 55 => ⟨S16x512x512, .f32⟩
  | 56 => ⟨S_, .i32⟩
  | 57 => ⟨S_, .i32⟩
  | 58 => ⟨S_, .i32⟩
  | 59 => ⟨S_, .i32⟩
  | 60 => ⟨S16x512x512x3, .f32⟩
  | 61 => ⟨S16x512x512x3, .f32⟩
  | 62 => ⟨S16x512x512x3, .f32⟩
  | 63 => ⟨S_, .f32⟩
  | 64 => ⟨S16x512x512, .f32⟩
  | 65 => ⟨S_, .f32⟩
  | 66 => ⟨S16x512x512, .f32⟩
  | 67 => ⟨S16x512x512, .f32⟩
  | 68 => ⟨S_, .f32⟩
  | 69 => ⟨S16x512x512, .f32⟩
  | 70 => ⟨S16x512x512, .f32⟩
  | 71 => ⟨S_, .f32⟩
  | 72 => ⟨S16x512x512, .f32⟩
  | 73 => ⟨S16x512x512, .f32⟩
  | 74 => ⟨S16x512x512, .f32⟩
  | 75 => ⟨S16x512x512x1, .f32⟩
  | 76 => ⟨S16x512x512x3, .f32⟩
  | 77 => ⟨S16x512x512x3, .f32⟩
  | 78 => ⟨S16x512x512x3, .f32⟩
  | 79 => ⟨S16x512x512, .f32⟩
  | 80 => ⟨S_, .i32⟩
  | 81 => ⟨S_, .i32⟩
  | 82 => ⟨S_, .i32⟩
  | 83 => ⟨S_, .i32⟩
  | 84 => ⟨S16x512x512x3, .f32⟩
  | 85 => ⟨S16x512x512x3, .f32⟩
  | 86 => ⟨S16x512x512x3, .f32⟩
  | 87 => ⟨S_, .f32⟩
  | 88 => ⟨S16x512x512, .f32⟩
  | 89 => ⟨S_, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S16x512x512, .f32⟩
  | 97 => ⟨S16x512x512, .f32⟩
  | 98 => ⟨S16x512x512, .f32⟩
  | 99 => ⟨S16x512x512x1, .f32⟩
  | 100 => ⟨S16x512x512x3, .f32⟩
  | 101 => ⟨S16x512x512x3, .f32⟩
  | 102 => ⟨S16x512x512x3, .f32⟩
  | 103 => ⟨S16x512x512, .f32⟩
  | 104 => ⟨S_, .i32⟩
  | 105 => ⟨S_, .i32⟩
  | 106 => ⟨S_, .i32⟩
  | 107 => ⟨S_, .i32⟩
  | 108 => ⟨S16x512x512x3, .f32⟩
  | 109 => ⟨S16x512x512x3, .f32⟩
  | 110 => ⟨S16x512x512x3, .f32⟩
  | 111 => ⟨S_, .f32⟩
  | 112 => ⟨S16x512x512, .f32⟩
  | 113 => ⟨S_, .f32⟩
  | 114 => ⟨S16x512x512, .f32⟩
  | 115 => ⟨S16x512x512, .f32⟩
  | 116 => ⟨S_, .f32⟩
  | 117 => ⟨S16x512x512, .f32⟩
  | 118 => ⟨S16x512x512, .f32⟩
  | 119 => ⟨S_, .f32⟩
  | 120 => ⟨S16x512x512, .f32⟩
  | 121 => ⟨S16x512x512, .f32⟩
  | 122 => ⟨S16x512x512, .f32⟩
  | 123 => ⟨S16x512x512x1, .f32⟩
  | 124 => ⟨S16x512x512x3, .f32⟩
  | 125 => ⟨S16x512x512x3, .f32⟩
  | 126 => ⟨S16x512x512x3, .f32⟩
  | 127 => ⟨S16x512x512, .f32⟩
  | _ => ⟨S16x512x512x3, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S16x512x512x3, .f32⟩
  | 5 => ⟨S16x512x512x3, .f32⟩
  | 6 => ⟨S16x512x512x3, .f32⟩
  | 7 => ⟨S_, .f32⟩
  | 8 => ⟨S16x512x512, .f32⟩
  | 9 => ⟨S_, .f32⟩
  | 10 => ⟨S16x512x512, .f32⟩
  | 11 => ⟨S16x512x512, .f32⟩
  | 12 => ⟨S_, .f32⟩
  | 13 => ⟨S16x512x512, .f32⟩
  | 14 => ⟨S16x512x512, .f32⟩
  | 15 => ⟨S_, .f32⟩
  | 16 => ⟨S16x512x512, .f32⟩
  | 17 => ⟨S16x512x512, .f32⟩
  | 18 => ⟨S16x512x512, .f32⟩
  | 19 => ⟨S16x512x512x1, .f32⟩
  | 20 => ⟨S16x512x512x3, .f32⟩
  | 21 => ⟨S16x512x512x3, .f32⟩
  | 22 => ⟨S16x512x512x3, .f32⟩
  | 23 => ⟨S16x512x512, .f32⟩
  | 24 => ⟨S_, .i32⟩
  | 25 => ⟨S_, .i32⟩
  | 26 => ⟨S_, .i32⟩
  | 27 => ⟨S_, .i32⟩
  | 28 => ⟨S16x512x512x3, .f32⟩
  | 29 => ⟨S16x512x512x3, .f32⟩
  | 30 => ⟨S16x512x512x3, .f32⟩
  | 31 => ⟨S_, .f32⟩
  | 32 => ⟨S16x512x512, .f32⟩
  | 33 => ⟨S_, .f32⟩
  | 34 => ⟨S16x512x512, .f32⟩
  | 35 => ⟨S16x512x512, .f32⟩
  | 36 => ⟨S_, .f32⟩
  | 37 => ⟨S16x512x512, .f32⟩
  | 38 => ⟨S16x512x512, .f32⟩
  | 39 => ⟨S_, .f32⟩
  | 40 => ⟨S16x512x512, .f32⟩
  | 41 => ⟨S16x512x512, .f32⟩
  | 42 => ⟨S16x512x512, .f32⟩
  | 43 => ⟨S16x512x512x1, .f32⟩
  | 44 => ⟨S16x512x512x3, .f32⟩
  | 45 => ⟨S16x512x512x3, .f32⟩
  | 46 => ⟨S16x512x512x3, .f32⟩
  | 47 => ⟨S16x512x512, .f32⟩
  | 48 => ⟨S_, .i32⟩
  | 49 => ⟨S_, .i32⟩
  | 50 => ⟨S_, .i32⟩
  | 51 => ⟨S_, .i32⟩
  | 52 => ⟨S16x512x512x3, .f32⟩
  | 53 => ⟨S16x512x512x3, .f32⟩
  | 54 => ⟨S16x512x512x3, .f32⟩
  | 55 => ⟨S_, .f32⟩
  | 56 => ⟨S16x512x512, .f32⟩
  | 57 => ⟨S_, .f32⟩
  | 58 => ⟨S16x512x512, .f32⟩
  | 59 => ⟨S16x512x512, .f32⟩
  | 60 => ⟨S_, .f32⟩
  | 61 => ⟨S16x512x512, .f32⟩
  | 62 => ⟨S16x512x512, .f32⟩
  | 63 => ⟨S_, .f32⟩
  | 64 => ⟨S16x512x512, .f32⟩
  | 65 => ⟨S16x512x512, .f32⟩
  | 66 => ⟨S16x512x512, .f32⟩
  | 67 => ⟨S16x512x512x1, .f32⟩
  | 68 => ⟨S16x512x512x3, .f32⟩
  | 69 => ⟨S16x512x512x3, .f32⟩
  | 70 => ⟨S16x512x512x3, .f32⟩
  | 71 => ⟨S16x512x512, .f32⟩
  | 72 => ⟨S_, .i32⟩
  | 73 => ⟨S_, .i32⟩
  | 74 => ⟨S_, .i32⟩
  | 75 => ⟨S_, .i32⟩
  | 76 => ⟨S16x512x512x3, .f32⟩
  | 77 => ⟨S16x512x512x3, .f32⟩
  | 78 => ⟨S16x512x512x3, .f32⟩
  | 79 => ⟨S_, .f32⟩
  | 80 => ⟨S16x512x512, .f32⟩
  | 81 => ⟨S_, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512x512, .f32⟩
  | 89 => ⟨S16x512x512, .f32⟩
  | 90 => ⟨S16x512x512, .f32⟩
  | 91 => ⟨S16x512x512x1, .f32⟩
  | 92 => ⟨S16x512x512x3, .f32⟩
  | 93 => ⟨S16x512x512x3, .f32⟩
  | 94 => ⟨S16x512x512x3, .f32⟩
  | 95 => ⟨S16x512x512, .f32⟩
  | 96 => ⟨S_, .i32⟩
  | 97 => ⟨S_, .i32⟩
  | 98 => ⟨S_, .i32⟩
  | 99 => ⟨S_, .i32⟩
  | 100 => ⟨S16x512x512x3, .f32⟩
  | 101 => ⟨S16x512x512x3, .f32⟩
  | 102 => ⟨S16x512x512x3, .f32⟩
  | 103 => ⟨S_, .f32⟩
  | 104 => ⟨S16x512x512, .f32⟩
  | 105 => ⟨S_, .f32⟩
  | 106 => ⟨S16x512x512, .f32⟩
  | 107 => ⟨S16x512x512, .f32⟩
  | 108 => ⟨S_, .f32⟩
  | 109 => ⟨S16x512x512, .f32⟩
  | 110 => ⟨S16x512x512, .f32⟩
  | 111 => ⟨S_, .f32⟩
  | 112 => ⟨S16x512x512, .f32⟩
  | 113 => ⟨S16x512x512, .f32⟩
  | 114 => ⟨S16x512x512, .f32⟩
  | 115 => ⟨S16x512x512x1, .f32⟩
  | 116 => ⟨S16x512x512x3, .f32⟩
  | 117 => ⟨S16x512x512x3, .f32⟩
  | 118 => ⟨S16x512x512x3, .f32⟩
  | 119 => ⟨S16x512x512, .f32⟩
  | 120 => ⟨S_, .i32⟩
  | 121 => ⟨S_, .i32⟩
  | 122 => ⟨S_, .i32⟩
  | 123 => ⟨S_, .i32⟩
  | 124 => ⟨S16x512x512x3, .f32⟩
  | 125 => ⟨S16x512x512x3, .f32⟩
  | 126 => ⟨S16x512x512x3, .f32⟩
  | 127 => ⟨S_, .f32⟩
  | _ => ⟨S16x512x512x3, .f32⟩

abbrev hbmTy0_2 (i : Nat) : BufTy := match i % 128 with
  | 0 => ⟨S16x512x512, .f32⟩
  | 1 => ⟨S_, .f32⟩
  | 2 => ⟨S16x512x512, .f32⟩
  | 3 => ⟨S16x512x512, .f32⟩
  | 4 => ⟨S_, .f32⟩
  | 5 => ⟨S16x512x512, .f32⟩
  | 6 => ⟨S16x512x512, .f32⟩
  | 7 => ⟨S_, .f32⟩
  | 8 => ⟨S16x512x512, .f32⟩
  | 9 => ⟨S16x512x512, .f32⟩
  | 10 => ⟨S16x512x512, .f32⟩
  | 11 => ⟨S16x512x512x1, .f32⟩
  | 12 => ⟨S16x512x512x3, .f32⟩
  | 13 => ⟨S16x512x512x3, .f32⟩
  | 14 => ⟨S16x512x512x3, .f32⟩
  | 15 => ⟨S16x512x512, .f32⟩
  | 16 => ⟨S_, .i32⟩
  | 17 => ⟨S_, .i32⟩
  | 18 => ⟨S_, .i32⟩
  | 19 => ⟨S_, .i32⟩
  | 20 => ⟨S16x512x512x3, .f32⟩
  | 21 => ⟨S16x512x512x3, .f32⟩
  | 22 => ⟨S16x512x512x3, .f32⟩
  | 23 => ⟨S_, .f32⟩
  | 24 => ⟨S16x512x512, .f32⟩
  | 25 => ⟨S_, .f32⟩
  | 26 => ⟨S16x512x512, .f32⟩
  | 27 => ⟨S16x512x512, .f32⟩
  | 28 => ⟨S_, .f32⟩
  | 29 => ⟨S16x512x512, .f32⟩
  | 30 => ⟨S16x512x512, .f32⟩
  | 31 => ⟨S_, .f32⟩
  | 32 => ⟨S16x512x512, .f32⟩
  | 33 => ⟨S16x512x512, .f32⟩
  | 34 => ⟨S16x512x512, .f32⟩
  | 35 => ⟨S16x512x512x1, .f32⟩
  | 36 => ⟨S16x512x512x3, .f32⟩
  | 37 => ⟨S16x512x512x3, .f32⟩
  | 38 => ⟨S16x512x512x3, .f32⟩
  | 39 => ⟨S16x512x512, .f32⟩
  | 40 => ⟨S_, .i32⟩
  | 41 => ⟨S_, .i32⟩
  | 42 => ⟨S_, .i32⟩
  | 43 => ⟨S_, .i32⟩
  | 44 => ⟨S16x512x512x3, .f32⟩
  | 45 => ⟨S16x512x512x3, .f32⟩
  | 46 => ⟨S16x512x512x3, .f32⟩
  | 47 => ⟨S_, .f32⟩
  | 48 => ⟨S16x512x512, .f32⟩
  | 49 => ⟨S_, .f32⟩
  | 50 => ⟨S16x512x512, .f32⟩
  | 51 => ⟨S16x512x512, .f32⟩
  | 52 => ⟨S_, .f32⟩
  | 53 => ⟨S16x512x512, .f32⟩
  | 54 => ⟨S16x512x512, .f32⟩
  | 55 => ⟨S_, .f32⟩
  | 56 => ⟨S16x512x512, .f32⟩
  | 57 => ⟨S16x512x512, .f32⟩
  | 58 => ⟨S16x512x512, .f32⟩
  | 59 => ⟨S16x512x512x1, .f32⟩
  | 60 => ⟨S16x512x512x3, .f32⟩
  | 61 => ⟨S16x512x512x3, .f32⟩
  | 62 => ⟨S16x512x512x3, .f32⟩
  | 63 => ⟨S16x512x512, .f32⟩
  | 64 => ⟨S_, .i32⟩
  | 65 => ⟨S_, .i32⟩
  | 66 => ⟨S_, .i32⟩
  | 67 => ⟨S_, .i32⟩
  | 68 => ⟨S16x512x512x3, .f32⟩
  | 69 => ⟨S16x512x512x3, .f32⟩
  | 70 => ⟨S16x512x512x3, .f32⟩
  | 71 => ⟨S_, .f32⟩
  | 72 => ⟨S16x512x512, .f32⟩
  | 73 => ⟨S_, .f32⟩
  | 74 => ⟨S16x512x512, .f32⟩
  | 75 => ⟨S16x512x512, .f32⟩
  | 76 => ⟨S_, .f32⟩
  | 77 => ⟨S16x512x512, .f32⟩
  | 78 => ⟨S16x512x512, .f32⟩
  | 79 => ⟨S_, .f32⟩
  | 80 => ⟨S16x512x512, .f32⟩
  | 81 => ⟨S16x512x512, .f32⟩
  | 82 => ⟨S16x512x512, .f32⟩
  | 83 => ⟨S16x512x512x1, .f32⟩
  | 84 => ⟨S16x512x512x3, .f32⟩
  | 85 => ⟨S16x512x512x3, .f32⟩
  | 86 => ⟨S16x512x512x3, .f32⟩
  | 87 => ⟨S16x512x512, .f32⟩
  | 88 => ⟨S_, .i32⟩
  | 89 => ⟨S_, .i32⟩
  | 90 => ⟨S_, .i32⟩
  | 91 => ⟨S_, .i32⟩
  | 92 => ⟨S16x512x512x3, .f32⟩
  | 93 => ⟨S16x512x512x3, .f32⟩
  | 94 => ⟨S16x512x512x3, .f32⟩
  | 95 => ⟨S_, .f32⟩
  | 96 => ⟨S16x512x512, .f32⟩
  | 97 => ⟨S_, .f32⟩
  | 98 => ⟨S16x512x512, .f32⟩
  | 99 => ⟨S16x512x512, .f32⟩
  | 100 => ⟨S_, .f32⟩
  | 101 => ⟨S16x512x512, .f32⟩
  | 102 => ⟨S16x512x512, .f32⟩
  | 103 => ⟨S_, .f32⟩
  | 104 => ⟨S16x512x512, .f32⟩
  | 105 => ⟨S16x512x512, .f32⟩
  | 106 => ⟨S16x512x512, .f32⟩
  | 107 => ⟨S16x512x512x1, .f32⟩
  | 108 => ⟨S16x512x512x3, .f32⟩
  | 109 => ⟨S16x512x512x3, .f32⟩
  | 110 => ⟨S16x512x512x3, .f32⟩
  | 111 => ⟨S16x512x512, .f32⟩
  | 112 => ⟨S_, .i32⟩
  | 113 => ⟨S_, .i32⟩
  | 114 => ⟨S_, .i32⟩
  | 115 => ⟨S_, .i32⟩
  | 116 => ⟨S16x512x512x3, .f32⟩
  | 117 => ⟨S16x512x512x3, .f32⟩
  | 118 => ⟨S16x512x512x3, .f32⟩
  | 119 => ⟨S_, .f32⟩
  | 120 => ⟨S16x512x512, .f32⟩
  | 121 => ⟨S_, .f32⟩
  | 122 => ⟨S16x512x512, .f32⟩
  | 123 => ⟨S16x512x512, .f32⟩
  | 124 => ⟨S_, .f32⟩
  | 125 => ⟨S16x512x512, .f32⟩
  | 126 => ⟨S16x512x512, .f32⟩
  | 127 => ⟨S_, .f32⟩
  | _ => ⟨S16x512x512x3, .f32⟩

abbrev hbmTy0_3 (i : Nat) : BufTy := match i % 128 with
  | 0 => ⟨S16x512x512, .f32⟩
  | 1 => ⟨S16x512x512, .f32⟩
  | 2 => ⟨S16x512x512, .f32⟩
  | 3 => ⟨S16x512x512x1, .f32⟩
  | 4 => ⟨S16x512x512x3, .f32⟩
  | 5 => ⟨S16x512x512x3, .f32⟩
  | 6 => ⟨S16x512x512x3, .f32⟩
  | 7 => ⟨S16x512x512, .f32⟩
  | 8 => ⟨S_, .i32⟩
  | 9 => ⟨S_, .i32⟩
  | 10 => ⟨S_, .i32⟩
  | 11 => ⟨S_, .i32⟩
  | 12 => ⟨S16x512x512x3, .f32⟩
  | 13 => ⟨S16x512x512x3, .f32⟩
  | 14 => ⟨S16x512x512x3, .f32⟩
  | 15 => ⟨S_, .f32⟩
  | 16 => ⟨S16x512x512, .f32⟩
  | 17 => ⟨S_, .f32⟩
  | 18 => ⟨S16x512x512, .f32⟩
  | 19 => ⟨S16x512x512, .f32⟩
  | 20 => ⟨S_, .f32⟩
  | 21 => ⟨S16x512x512, .f32⟩
  | 22 => ⟨S16x512x512, .f32⟩
  | 23 => ⟨S_, .f32⟩
  | 24 => ⟨S16x512x512, .f32⟩
  | 25 => ⟨S16x512x512, .f32⟩
  | 26 => ⟨S16x512x512, .f32⟩
  | 27 => ⟨S16x512x512x1, .f32⟩
  | 28 => ⟨S16x512x512x3, .f32⟩
  | 29 => ⟨S16x512x512x3, .f32⟩
  | 30 => ⟨S16x512x512x3, .f32⟩
  | 31 => ⟨S16x512x512, .f32⟩
  | 32 => ⟨S_, .i32⟩
  | 33 => ⟨S_, .i32⟩
  | 34 => ⟨S_, .i32⟩
  | 35 => ⟨S_, .i32⟩
  | 36 => ⟨S16x512x512x3, .f32⟩
  | 37 => ⟨S16x512x512x3, .f32⟩
  | 38 => ⟨S16x512x512x3, .f32⟩
  | 39 => ⟨S_, .f32⟩
  | 40 => ⟨S16x512x512, .f32⟩
  | 41 => ⟨S_, .f32⟩
  | 42 => ⟨S16x512x512, .f32⟩
  | 43 => ⟨S16x512x512, .f32⟩
  | 44 => ⟨S_, .f32⟩
  | 45 => ⟨S16x512x512, .f32⟩
  | 46 => ⟨S16x512x512, .f32⟩
  | 47 => ⟨S_, .f32⟩
  | 48 => ⟨S16x512x512, .f32⟩
  | 49 => ⟨S16x512x512, .f32⟩
  | 50 => ⟨S16x512x512, .f32⟩
  | 51 => ⟨S16x512x512x1, .f32⟩
  | 52 => ⟨S16x512x512x3, .f32⟩
  | 53 => ⟨S16x512x512x3, .f32⟩
  | 54 => ⟨S16x512x512x3, .f32⟩
  | 55 => ⟨S16x512x512, .f32⟩
  | 56 => ⟨S_, .i32⟩
  | 57 => ⟨S_, .i32⟩
  | 58 => ⟨S_, .i32⟩
  | 59 => ⟨S_, .i32⟩
  | 60 => ⟨S16x512x512x3, .f32⟩
  | 61 => ⟨S16x512x512x3, .f32⟩
  | 62 => ⟨S16x512x512x3, .f32⟩
  | 63 => ⟨S_, .f32⟩
  | 64 => ⟨S16x512x512, .f32⟩
  | 65 => ⟨S_, .f32⟩
  | 66 => ⟨S16x512x512, .f32⟩
  | 67 => ⟨S16x512x512, .f32⟩
  | 68 => ⟨S_, .f32⟩
  | 69 => ⟨S16x512x512, .f32⟩
  | 70 => ⟨S16x512x512, .f32⟩
  | 71 => ⟨S_, .f32⟩
  | 72 => ⟨S16x512x512, .f32⟩
  | 73 => ⟨S16x512x512, .f32⟩
  | 74 => ⟨S16x512x512, .f32⟩
  | 75 => ⟨S16x512x512x1, .f32⟩
  | 76 => ⟨S16x512x512x3, .f32⟩
  | 77 => ⟨S16x512x512x3, .f32⟩
  | 78 => ⟨S16x512x512x3, .f32⟩
  | 79 => ⟨S16x512x512, .f32⟩
  | 80 => ⟨S_, .i32⟩
  | 81 => ⟨S_, .i32⟩
  | 82 => ⟨S_, .i32⟩
  | 83 => ⟨S_, .i32⟩
  | 84 => ⟨S16x512x512x3, .f32⟩
  | 85 => ⟨S16x512x512x3, .f32⟩
  | 86 => ⟨S16x512x512x3, .f32⟩
  | 87 => ⟨S_, .f32⟩
  | 88 => ⟨S16x512x512, .f32⟩
  | 89 => ⟨S_, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S16x512x512, .f32⟩
  | 97 => ⟨S16x512x512, .f32⟩
  | 98 => ⟨S16x512x512, .f32⟩
  | 99 => ⟨S16x512x512x1, .f32⟩
  | 100 => ⟨S16x512x512x3, .f32⟩
  | 101 => ⟨S16x512x512x3, .f32⟩
  | 102 => ⟨S16x512x512x3, .f32⟩
  | 103 => ⟨S16x512x512, .f32⟩
  | 104 => ⟨S_, .i32⟩
  | 105 => ⟨S_, .i32⟩
  | 106 => ⟨S_, .i32⟩
  | 107 => ⟨S_, .i32⟩
  | 108 => ⟨S16x512x512x3, .f32⟩
  | 109 => ⟨S16x512x512x3, .f32⟩
  | 110 => ⟨S16x512x512x3, .f32⟩
  | 111 => ⟨S_, .f32⟩
  | 112 => ⟨S16x512x512, .f32⟩
  | 113 => ⟨S_, .f32⟩
  | 114 => ⟨S16x512x512, .f32⟩
  | 115 => ⟨S16x512x512, .f32⟩
  | 116 => ⟨S_, .f32⟩
  | 117 => ⟨S16x512x512, .f32⟩
  | 118 => ⟨S16x512x512, .f32⟩
  | 119 => ⟨S_, .f32⟩
  | 120 => ⟨S16x512x512, .f32⟩
  | 121 => ⟨S16x512x512, .f32⟩
  | 122 => ⟨S16x512x512, .f32⟩
  | 123 => ⟨S16x512x512x1, .f32⟩
  | 124 => ⟨S16x512x512x3, .f32⟩
  | 125 => ⟨S16x512x512x3, .f32⟩
  | 126 => ⟨S16x512x512x3, .f32⟩
  | 127 => ⟨S16x512x512, .f32⟩
  | _ => ⟨S16x512x512x3, .f32⟩

abbrev hbmTy0_4 (i : Nat) : BufTy := match i % 128 with
  | 0 => ⟨S_, .i32⟩
  | 1 => ⟨S_, .i32⟩
  | 2 => ⟨S_, .i32⟩
  | 3 => ⟨S_, .i32⟩
  | 4 => ⟨S16x512x512x3, .f32⟩
  | 5 => ⟨S16x512x512x3, .f32⟩
  | 6 => ⟨S16x512x512x3, .f32⟩
  | 7 => ⟨S_, .f32⟩
  | 8 => ⟨S16x512x512, .f32⟩
  | 9 => ⟨S_, .f32⟩
  | 10 => ⟨S16x512x512, .f32⟩
  | 11 => ⟨S16x512x512, .f32⟩
  | 12 => ⟨S_, .f32⟩
  | 13 => ⟨S16x512x512, .f32⟩
  | 14 => ⟨S16x512x512, .f32⟩
  | 15 => ⟨S_, .f32⟩
  | 16 => ⟨S16x512x512, .f32⟩
  | 17 => ⟨S16x512x512, .f32⟩
  | 18 => ⟨S16x512x512, .f32⟩
  | 19 => ⟨S16x512x512x1, .f32⟩
  | 20 => ⟨S16x512x512x3, .f32⟩
  | 21 => ⟨S16x512x512x3, .f32⟩
  | 22 => ⟨S16x512x512x3, .f32⟩
  | 23 => ⟨S16x512x512, .f32⟩
  | 24 => ⟨S_, .i32⟩
  | 25 => ⟨S_, .i32⟩
  | 26 => ⟨S_, .i32⟩
  | 27 => ⟨S_, .i32⟩
  | 28 => ⟨S16x512x512x3, .f32⟩
  | 29 => ⟨S16x512x512x3, .f32⟩
  | 30 => ⟨S16x512x512x3, .f32⟩
  | 31 => ⟨S_, .f32⟩
  | 32 => ⟨S16x512x512, .f32⟩
  | 33 => ⟨S_, .f32⟩
  | 34 => ⟨S16x512x512, .f32⟩
  | 35 => ⟨S16x512x512, .f32⟩
  | 36 => ⟨S_, .f32⟩
  | 37 => ⟨S16x512x512, .f32⟩
  | 38 => ⟨S16x512x512, .f32⟩
  | 39 => ⟨S_, .f32⟩
  | 40 => ⟨S16x512x512, .f32⟩
  | 41 => ⟨S16x512x512, .f32⟩
  | 42 => ⟨S16x512x512, .f32⟩
  | 43 => ⟨S16x512x512x1, .f32⟩
  | 44 => ⟨S16x512x512x3, .f32⟩
  | 45 => ⟨S16x512x512x3, .f32⟩
  | 46 => ⟨S16x512x512x3, .f32⟩
  | 47 => ⟨S16x512x512, .f32⟩
  | 48 => ⟨S_, .i32⟩
  | 49 => ⟨S_, .i32⟩
  | 50 => ⟨S_, .i32⟩
  | 51 => ⟨S_, .i32⟩
  | 52 => ⟨S16x512x512x3, .f32⟩
  | 53 => ⟨S16x512x512x3, .f32⟩
  | 54 => ⟨S16x512x512x3, .f32⟩
  | 55 => ⟨S_, .f32⟩
  | 56 => ⟨S16x512x512, .f32⟩
  | 57 => ⟨S_, .f32⟩
  | 58 => ⟨S16x512x512, .f32⟩
  | 59 => ⟨S16x512x512, .f32⟩
  | 60 => ⟨S_, .f32⟩
  | 61 => ⟨S16x512x512, .f32⟩
  | 62 => ⟨S16x512x512, .f32⟩
  | 63 => ⟨S_, .f32⟩
  | 64 => ⟨S16x512x512, .f32⟩
  | 65 => ⟨S16x512x512, .f32⟩
  | 66 => ⟨S16x512x512, .f32⟩
  | 67 => ⟨S16x512x512x1, .f32⟩
  | 68 => ⟨S16x512x512x3, .f32⟩
  | 69 => ⟨S16x512x512x3, .f32⟩
  | 70 => ⟨S16x512x512x3, .f32⟩
  | 71 => ⟨S16x512x512, .f32⟩
  | 72 => ⟨S_, .i32⟩
  | 73 => ⟨S_, .i32⟩
  | 74 => ⟨S_, .i32⟩
  | 75 => ⟨S_, .i32⟩
  | 76 => ⟨S16x512x512x3, .f32⟩
  | 77 => ⟨S16x512x512x3, .f32⟩
  | 78 => ⟨S16x512x512x3, .f32⟩
  | 79 => ⟨S_, .f32⟩
  | 80 => ⟨S16x512x512, .f32⟩
  | 81 => ⟨S_, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512x512, .f32⟩
  | 89 => ⟨S16x512x512, .f32⟩
  | 90 => ⟨S16x512x512, .f32⟩
  | 91 => ⟨S16x512x512x1, .f32⟩
  | 92 => ⟨S16x512x512x3, .f32⟩
  | 93 => ⟨S16x512x512x3, .f32⟩
  | 94 => ⟨S16x512x512x3, .f32⟩
  | 95 => ⟨S16x512x512, .f32⟩
  | 96 => ⟨S16x512x512x1, .f32⟩
  | 97 => ⟨S16x512x512x3, .f32⟩
  | 98 => ⟨S16x512x512x3, .f32⟩
  | _ => ⟨S16x512x512x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x512x512x3, .f32⟩

abbrev bufTy : (tb : Table) → Fin (tcTables nBuf tb) → BufTy
  | .hbm, ⟨i, _⟩ => hbmTy i
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_5 : Ref sig .tc := ⟨.hbm, 15, rfl⟩
abbrev main_v6 : Ref sig .tc := ⟨.hbm, 16, rfl⟩
abbrev main_cst_6 : Ref sig .tc := ⟨.hbm, 17, rfl⟩
abbrev main_v7 : Ref sig .tc := ⟨.hbm, 18, rfl⟩
abbrev main_v8 : Ref sig .tc := ⟨.hbm, 19, rfl⟩
abbrev main_cst_7 : Ref sig .tc := ⟨.hbm, 20, rfl⟩
abbrev main_v9 : Ref sig .tc := ⟨.hbm, 21, rfl⟩
abbrev main_v10 : Ref sig .tc := ⟨.hbm, 22, rfl⟩
abbrev main_cst_8 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_9 : Ref sig .tc := ⟨.hbm, 32, rfl⟩
abbrev main_c_10 : Ref sig .tc := ⟨.hbm, 33, rfl⟩
abbrev main_c_11 : Ref sig .tc := ⟨.hbm, 34, rfl⟩
abbrev main_c_12 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_13 : Ref sig .tc := ⟨.hbm, 39, rfl⟩
abbrev main_v22 : Ref sig .tc := ⟨.hbm, 40, rfl⟩
abbrev main_cst_14 : Ref sig .tc := ⟨.hbm, 41, rfl⟩
abbrev main_v23 : Ref sig .tc := ⟨.hbm, 42, rfl⟩
abbrev main_v24 : Ref sig .tc := ⟨.hbm, 43, rfl⟩
abbrev main_cst_15 : Ref sig .tc := ⟨.hbm, 44, rfl⟩
abbrev main_v25 : Ref sig .tc := ⟨.hbm, 45, rfl⟩
abbrev main_v26 : Ref sig .tc := ⟨.hbm, 46, rfl⟩
abbrev main_cst_16 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_17 : Ref sig .tc := ⟨.hbm, 56, rfl⟩
abbrev main_c_18 : Ref sig .tc := ⟨.hbm, 57, rfl⟩
abbrev main_c_19 : Ref sig .tc := ⟨.hbm, 58, rfl⟩
abbrev main_c_20 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_21 : Ref sig .tc := ⟨.hbm, 63, rfl⟩
abbrev main_v38 : Ref sig .tc := ⟨.hbm, 64, rfl⟩
abbrev main_cst_22 : Ref sig .tc := ⟨.hbm, 65, rfl⟩
abbrev main_v39 : Ref sig .tc := ⟨.hbm, 66, rfl⟩
abbrev main_v40 : Ref sig .tc := ⟨.hbm, 67, rfl⟩
abbrev main_cst_23 : Ref sig .tc := ⟨.hbm, 68, rfl⟩
abbrev main_v41 : Ref sig .tc := ⟨.hbm, 69, rfl⟩
abbrev main_v42 : Ref sig .tc := ⟨.hbm, 70, rfl⟩
abbrev main_cst_24 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_25 : Ref sig .tc := ⟨.hbm, 80, rfl⟩
abbrev main_c_26 : Ref sig .tc := ⟨.hbm, 81, rfl⟩
abbrev main_c_27 : Ref sig .tc := ⟨.hbm, 82, rfl⟩
abbrev main_c_28 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_29 : Ref sig .tc := ⟨.hbm, 87, rfl⟩
abbrev main_v54 : Ref sig .tc := ⟨.hbm, 88, rfl⟩
abbrev main_cst_30 : Ref sig .tc := ⟨.hbm, 89, rfl⟩
abbrev main_v55 : Ref sig .tc := ⟨.hbm, 90, rfl⟩
abbrev main_v56 : Ref sig .tc := ⟨.hbm, 91, rfl⟩
abbrev main_cst_31 : Ref sig .tc := ⟨.hbm, 92, rfl⟩
abbrev main_v57 : Ref sig .tc := ⟨.hbm, 93, rfl⟩
abbrev main_v58 : Ref sig .tc := ⟨.hbm, 94, rfl⟩
abbrev main_cst_32 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_33 : Ref sig .tc := ⟨.hbm, 104, rfl⟩
abbrev main_c_34 : Ref sig .tc := ⟨.hbm, 105, rfl⟩
abbrev main_c_35 : Ref sig .tc := ⟨.hbm, 106, rfl⟩
abbrev main_c_36 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_37 : Ref sig .tc := ⟨.hbm, 111, rfl⟩
abbrev main_v70 : Ref sig .tc := ⟨.hbm, 112, rfl⟩
abbrev main_cst_38 : Ref sig .tc := ⟨.hbm, 113, rfl⟩
abbrev main_v71 : Ref sig .tc := ⟨.hbm, 114, rfl⟩
abbrev main_v72 : Ref sig .tc := ⟨.hbm, 115, rfl⟩
abbrev main_cst_39 : Ref sig .tc := ⟨.hbm, 116, rfl⟩
abbrev main_v73 : Ref sig .tc := ⟨.hbm, 117, rfl⟩
abbrev main_v74 : Ref sig .tc := ⟨.hbm, 118, rfl⟩
abbrev main_cst_40 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_41 : Ref sig .tc := ⟨.hbm, 128, rfl⟩
abbrev main_c_42 : Ref sig .tc := ⟨.hbm, 129, rfl⟩
abbrev main_c_43 : Ref sig .tc := ⟨.hbm, 130, rfl⟩
abbrev main_c_44 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_45 : Ref sig .tc := ⟨.hbm, 135, rfl⟩
abbrev main_v86 : Ref sig .tc := ⟨.hbm, 136, rfl⟩
abbrev main_cst_46 : Ref sig .tc := ⟨.hbm, 137, rfl⟩
abbrev main_v87 : Ref sig .tc := ⟨.hbm, 138, rfl⟩
abbrev main_v88 : Ref sig .tc := ⟨.hbm, 139, rfl⟩
abbrev main_cst_47 : Ref sig .tc := ⟨.hbm, 140, rfl⟩
abbrev main_v89 : Ref sig .tc := ⟨.hbm, 141, rfl⟩
abbrev main_v90 : Ref sig .tc := ⟨.hbm, 142, rfl⟩
abbrev main_cst_48 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_c_49 : Ref sig .tc := ⟨.hbm, 152, rfl⟩
abbrev main_c_50 : Ref sig .tc := ⟨.hbm, 153, rfl⟩
abbrev main_c_51 : Ref sig .tc := ⟨.hbm, 154, rfl⟩
abbrev main_c_52 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_53 : Ref sig .tc := ⟨.hbm, 159, rfl⟩
abbrev main_v102 : Ref sig .tc := ⟨.hbm, 160, rfl⟩
abbrev main_cst_54 : Ref sig .tc := ⟨.hbm, 161, rfl⟩
abbrev main_v103 : Ref sig .tc := ⟨.hbm, 162, rfl⟩
abbrev main_v104 : Ref sig .tc := ⟨.hbm, 163, rfl⟩
abbrev main_cst_55 : Ref sig .tc := ⟨.hbm, 164, rfl⟩
abbrev main_v105 : Ref sig .tc := ⟨.hbm, 165, rfl⟩
abbrev main_v106 : Ref sig .tc := ⟨.hbm, 166, rfl⟩
abbrev main_cst_56 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_c_57 : Ref sig .tc := ⟨.hbm, 176, rfl⟩
abbrev main_c_58 : Ref sig .tc := ⟨.hbm, 177, rfl⟩
abbrev main_c_59 : Ref sig .tc := ⟨.hbm, 178, rfl⟩
abbrev main_c_60 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_61 : Ref sig .tc := ⟨.hbm, 183, rfl⟩
abbrev main_v118 : Ref sig .tc := ⟨.hbm, 184, rfl⟩
abbrev main_cst_62 : Ref sig .tc := ⟨.hbm, 185, rfl⟩
abbrev main_v119 : Ref sig .tc := ⟨.hbm, 186, rfl⟩
abbrev main_v120 : Ref sig .tc := ⟨.hbm, 187, rfl⟩
abbrev main_cst_63 : Ref sig .tc := ⟨.hbm, 188, rfl⟩
abbrev main_v121 : Ref sig .tc := ⟨.hbm, 189, rfl⟩
abbrev main_v122 : Ref sig .tc := ⟨.hbm, 190, rfl⟩
abbrev main_cst_64 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_c_65 : Ref sig .tc := ⟨.hbm, 200, rfl⟩
abbrev main_c_66 : Ref sig .tc := ⟨.hbm, 201, rfl⟩
abbrev main_c_67 : Ref sig .tc := ⟨.hbm, 202, rfl⟩
abbrev main_c_68 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_69 : Ref sig .tc := ⟨.hbm, 207, rfl⟩
abbrev main_v134 : Ref sig .tc := ⟨.hbm, 208, rfl⟩
abbrev main_cst_70 : Ref sig .tc := ⟨.hbm, 209, rfl⟩
abbrev main_v135 : Ref sig .tc := ⟨.hbm, 210, rfl⟩
abbrev main_v136 : Ref sig .tc := ⟨.hbm, 211, rfl⟩
abbrev main_cst_71 : Ref sig .tc := ⟨.hbm, 212, rfl⟩
abbrev main_v137 : Ref sig .tc := ⟨.hbm, 213, rfl⟩
abbrev main_v138 : Ref sig .tc := ⟨.hbm, 214, rfl⟩
abbrev main_cst_72 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_c_73 : Ref sig .tc := ⟨.hbm, 224, rfl⟩
abbrev main_c_74 : Ref sig .tc := ⟨.hbm, 225, rfl⟩
abbrev main_c_75 : Ref sig .tc := ⟨.hbm, 226, rfl⟩
abbrev main_c_76 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_cst_77 : Ref sig .tc := ⟨.hbm, 231, rfl⟩
abbrev main_v150 : Ref sig .tc := ⟨.hbm, 232, rfl⟩
abbrev main_cst_78 : Ref sig .tc := ⟨.hbm, 233, rfl⟩
abbrev main_v151 : Ref sig .tc := ⟨.hbm, 234, rfl⟩
abbrev main_v152 : Ref sig .tc := ⟨.hbm, 235, rfl⟩
abbrev main_cst_79 : Ref sig .tc := ⟨.hbm, 236, rfl⟩
abbrev main_v153 : Ref sig .tc := ⟨.hbm, 237, rfl⟩
abbrev main_v154 : Ref sig .tc := ⟨.hbm, 238, rfl⟩
abbrev main_cst_80 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_c_81 : Ref sig .tc := ⟨.hbm, 248, rfl⟩
abbrev main_c_82 : Ref sig .tc := ⟨.hbm, 249, rfl⟩
abbrev main_c_83 : Ref sig .tc := ⟨.hbm, 250, rfl⟩
abbrev main_c_84 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_cst_85 : Ref sig .tc := ⟨.hbm, 255, rfl⟩
abbrev main_v166 : Ref sig .tc := ⟨.hbm, 256, rfl⟩
abbrev main_cst_86 : Ref sig .tc := ⟨.hbm, 257, rfl⟩
abbrev main_v167 : Ref sig .tc := ⟨.hbm, 258, rfl⟩
abbrev main_v168 : Ref sig .tc := ⟨.hbm, 259, rfl⟩
abbrev main_cst_87 : Ref sig .tc := ⟨.hbm, 260, rfl⟩
abbrev main_v169 : Ref sig .tc := ⟨.hbm, 261, rfl⟩
abbrev main_v170 : Ref sig .tc := ⟨.hbm, 262, rfl⟩
abbrev main_cst_88 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_c_89 : Ref sig .tc := ⟨.hbm, 272, rfl⟩
abbrev main_c_90 : Ref sig .tc := ⟨.hbm, 273, rfl⟩
abbrev main_c_91 : Ref sig .tc := ⟨.hbm, 274, rfl⟩
abbrev main_c_92 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_cst_93 : Ref sig .tc := ⟨.hbm, 279, rfl⟩
abbrev main_v182 : Ref sig .tc := ⟨.hbm, 280, rfl⟩
abbrev main_cst_94 : Ref sig .tc := ⟨.hbm, 281, rfl⟩
abbrev main_v183 : Ref sig .tc := ⟨.hbm, 282, rfl⟩
abbrev main_v184 : Ref sig .tc := ⟨.hbm, 283, rfl⟩
abbrev main_cst_95 : Ref sig .tc := ⟨.hbm, 284, rfl⟩
abbrev main_v185 : Ref sig .tc := ⟨.hbm, 285, rfl⟩
abbrev main_v186 : Ref sig .tc := ⟨.hbm, 286, rfl⟩
abbrev main_cst_96 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_c_97 : Ref sig .tc := ⟨.hbm, 296, rfl⟩
abbrev main_c_98 : Ref sig .tc := ⟨.hbm, 297, rfl⟩
abbrev main_c_99 : Ref sig .tc := ⟨.hbm, 298, rfl⟩
abbrev main_c_100 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_cst_101 : Ref sig .tc := ⟨.hbm, 303, rfl⟩
abbrev main_v198 : Ref sig .tc := ⟨.hbm, 304, rfl⟩
abbrev main_cst_102 : Ref sig .tc := ⟨.hbm, 305, rfl⟩
abbrev main_v199 : Ref sig .tc := ⟨.hbm, 306, rfl⟩
abbrev main_v200 : Ref sig .tc := ⟨.hbm, 307, rfl⟩
abbrev main_cst_103 : Ref sig .tc := ⟨.hbm, 308, rfl⟩
abbrev main_v201 : Ref sig .tc := ⟨.hbm, 309, rfl⟩
abbrev main_v202 : Ref sig .tc := ⟨.hbm, 310, rfl⟩
abbrev main_cst_104 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_c_105 : Ref sig .tc := ⟨.hbm, 320, rfl⟩
abbrev main_c_106 : Ref sig .tc := ⟨.hbm, 321, rfl⟩
abbrev main_c_107 : Ref sig .tc := ⟨.hbm, 322, rfl⟩
abbrev main_c_108 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_cst_109 : Ref sig .tc := ⟨.hbm, 327, rfl⟩
abbrev main_v214 : Ref sig .tc := ⟨.hbm, 328, rfl⟩
abbrev main_cst_110 : Ref sig .tc := ⟨.hbm, 329, rfl⟩
abbrev main_v215 : Ref sig .tc := ⟨.hbm, 330, rfl⟩
abbrev main_v216 : Ref sig .tc := ⟨.hbm, 331, rfl⟩
abbrev main_cst_111 : Ref sig .tc := ⟨.hbm, 332, rfl⟩
abbrev main_v217 : Ref sig .tc := ⟨.hbm, 333, rfl⟩
abbrev main_v218 : Ref sig .tc := ⟨.hbm, 334, rfl⟩
abbrev main_cst_112 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_c_113 : Ref sig .tc := ⟨.hbm, 344, rfl⟩
abbrev main_c_114 : Ref sig .tc := ⟨.hbm, 345, rfl⟩
abbrev main_c_115 : Ref sig .tc := ⟨.hbm, 346, rfl⟩
abbrev main_c_116 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_cst_117 : Ref sig .tc := ⟨.hbm, 351, rfl⟩
abbrev main_v230 : Ref sig .tc := ⟨.hbm, 352, rfl⟩
abbrev main_cst_118 : Ref sig .tc := ⟨.hbm, 353, rfl⟩
abbrev main_v231 : Ref sig .tc := ⟨.hbm, 354, rfl⟩
abbrev main_v232 : Ref sig .tc := ⟨.hbm, 355, rfl⟩
abbrev main_cst_119 : Ref sig .tc := ⟨.hbm, 356, rfl⟩
abbrev main_v233 : Ref sig .tc := ⟨.hbm, 357, rfl⟩
abbrev main_v234 : Ref sig .tc := ⟨.hbm, 358, rfl⟩
abbrev main_cst_120 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_c_121 : Ref sig .tc := ⟨.hbm, 368, rfl⟩
abbrev main_c_122 : Ref sig .tc := ⟨.hbm, 369, rfl⟩
abbrev main_c_123 : Ref sig .tc := ⟨.hbm, 370, rfl⟩
abbrev main_c_124 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_cst_125 : Ref sig .tc := ⟨.hbm, 375, rfl⟩
abbrev main_v246 : Ref sig .tc := ⟨.hbm, 376, rfl⟩
abbrev main_cst_126 : Ref sig .tc := ⟨.hbm, 377, rfl⟩
abbrev main_v247 : Ref sig .tc := ⟨.hbm, 378, rfl⟩
abbrev main_v248 : Ref sig .tc := ⟨.hbm, 379, rfl⟩
abbrev main_cst_127 : Ref sig .tc := ⟨.hbm, 380, rfl⟩
abbrev main_v249 : Ref sig .tc := ⟨.hbm, 381, rfl⟩
abbrev main_v250 : Ref sig .tc := ⟨.hbm, 382, rfl⟩
abbrev main_cst_128 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_c_129 : Ref sig .tc := ⟨.hbm, 392, rfl⟩
abbrev main_c_130 : Ref sig .tc := ⟨.hbm, 393, rfl⟩
abbrev main_c_131 : Ref sig .tc := ⟨.hbm, 394, rfl⟩
abbrev main_c_132 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_cst_133 : Ref sig .tc := ⟨.hbm, 399, rfl⟩
abbrev main_v262 : Ref sig .tc := ⟨.hbm, 400, rfl⟩
abbrev main_cst_134 : Ref sig .tc := ⟨.hbm, 401, rfl⟩
abbrev main_v263 : Ref sig .tc := ⟨.hbm, 402, rfl⟩
abbrev main_v264 : Ref sig .tc := ⟨.hbm, 403, rfl⟩
abbrev main_cst_135 : Ref sig .tc := ⟨.hbm, 404, rfl⟩
abbrev main_v265 : Ref sig .tc := ⟨.hbm, 405, rfl⟩
abbrev main_v266 : Ref sig .tc := ⟨.hbm, 406, rfl⟩
abbrev main_cst_136 : Ref sig .tc := ⟨.hbm, 407, rfl⟩
abbrev main_v267 : Ref sig .tc := ⟨.hbm, 408, rfl⟩
abbrev main_v268 : Ref sig .tc := ⟨.hbm, 409, rfl⟩
abbrev main_v269 : Ref sig .tc := ⟨.hbm, 410, rfl⟩
abbrev main_v270 : Ref sig .tc := ⟨.hbm, 411, rfl⟩
abbrev main_v271 : Ref sig .tc := ⟨.hbm, 412, rfl⟩
abbrev main_v272 : Ref sig .tc := ⟨.hbm, 413, rfl⟩
abbrev main_v273 : Ref sig .tc := ⟨.hbm, 414, rfl⟩
abbrev main_v274 : Ref sig .tc := ⟨.hbm, 415, rfl⟩
abbrev main_c_137 : Ref sig .tc := ⟨.hbm, 416, rfl⟩
abbrev main_c_138 : Ref sig .tc := ⟨.hbm, 417, rfl⟩
abbrev main_c_139 : Ref sig .tc := ⟨.hbm, 418, rfl⟩
abbrev main_c_140 : Ref sig .tc := ⟨.hbm, 419, rfl⟩
abbrev main_v275 : Ref sig .tc := ⟨.hbm, 420, rfl⟩
abbrev main_v276 : Ref sig .tc := ⟨.hbm, 421, rfl⟩
abbrev main_v277 : Ref sig .tc := ⟨.hbm, 422, rfl⟩
abbrev main_cst_141 : Ref sig .tc := ⟨.hbm, 423, rfl⟩
abbrev main_v278 : Ref sig .tc := ⟨.hbm, 424, rfl⟩
abbrev main_cst_142 : Ref sig .tc := ⟨.hbm, 425, rfl⟩
abbrev main_v279 : Ref sig .tc := ⟨.hbm, 426, rfl⟩
abbrev main_v280 : Ref sig .tc := ⟨.hbm, 427, rfl⟩
abbrev main_cst_143 : Ref sig .tc := ⟨.hbm, 428, rfl⟩
abbrev main_v281 : Ref sig .tc := ⟨.hbm, 429, rfl⟩
abbrev main_v282 : Ref sig .tc := ⟨.hbm, 430, rfl⟩
abbrev main_cst_144 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_v286 : Ref sig .tc := ⟨.hbm, 435, rfl⟩
abbrev main_v287 : Ref sig .tc := ⟨.hbm, 436, rfl⟩
abbrev main_v288 : Ref sig .tc := ⟨.hbm, 437, rfl⟩
abbrev main_v289 : Ref sig .tc := ⟨.hbm, 438, rfl⟩
abbrev main_v290 : Ref sig .tc := ⟨.hbm, 439, rfl⟩
abbrev main_c_145 : Ref sig .tc := ⟨.hbm, 440, rfl⟩
abbrev main_c_146 : Ref sig .tc := ⟨.hbm, 441, rfl⟩
abbrev main_c_147 : Ref sig .tc := ⟨.hbm, 442, rfl⟩
abbrev main_c_148 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_cst_149 : Ref sig .tc := ⟨.hbm, 447, rfl⟩
abbrev main_v294 : Ref sig .tc := ⟨.hbm, 448, rfl⟩
abbrev main_cst_150 : Ref sig .tc := ⟨.hbm, 449, rfl⟩
abbrev main_v295 : Ref sig .tc := ⟨.hbm, 450, rfl⟩
abbrev main_v296 : Ref sig .tc := ⟨.hbm, 451, rfl⟩
abbrev main_cst_151 : Ref sig .tc := ⟨.hbm, 452, rfl⟩
abbrev main_v297 : Ref sig .tc := ⟨.hbm, 453, rfl⟩
abbrev main_v298 : Ref sig .tc := ⟨.hbm, 454, rfl⟩
abbrev main_cst_152 : Ref sig .tc := ⟨.hbm, 455, rfl⟩
abbrev main_v299 : Ref sig .tc := ⟨.hbm, 456, rfl⟩
abbrev main_v300 : Ref sig .tc := ⟨.hbm, 457, rfl⟩
abbrev main_v301 : Ref sig .tc := ⟨.hbm, 458, rfl⟩
abbrev main_v302 : Ref sig .tc := ⟨.hbm, 459, rfl⟩
abbrev main_v303 : Ref sig .tc := ⟨.hbm, 460, rfl⟩
abbrev main_v304 : Ref sig .tc := ⟨.hbm, 461, rfl⟩
abbrev main_v305 : Ref sig .tc := ⟨.hbm, 462, rfl⟩
abbrev main_v306 : Ref sig .tc := ⟨.hbm, 463, rfl⟩
abbrev main_c_153 : Ref sig .tc := ⟨.hbm, 464, rfl⟩
abbrev main_c_154 : Ref sig .tc := ⟨.hbm, 465, rfl⟩
abbrev main_c_155 : Ref sig .tc := ⟨.hbm, 466, rfl⟩
abbrev main_c_156 : Ref sig .tc := ⟨.hbm, 467, rfl⟩
abbrev main_v307 : Ref sig .tc := ⟨.hbm, 468, rfl⟩
abbrev main_v308 : Ref sig .tc := ⟨.hbm, 469, rfl⟩
abbrev main_v309 : Ref sig .tc := ⟨.hbm, 470, rfl⟩
abbrev main_cst_157 : Ref sig .tc := ⟨.hbm, 471, rfl⟩
abbrev main_v310 : Ref sig .tc := ⟨.hbm, 472, rfl⟩
abbrev main_cst_158 : Ref sig .tc := ⟨.hbm, 473, rfl⟩
abbrev main_v311 : Ref sig .tc := ⟨.hbm, 474, rfl⟩
abbrev main_v312 : Ref sig .tc := ⟨.hbm, 475, rfl⟩
abbrev main_cst_159 : Ref sig .tc := ⟨.hbm, 476, rfl⟩
abbrev main_v313 : Ref sig .tc := ⟨.hbm, 477, rfl⟩
abbrev main_v314 : Ref sig .tc := ⟨.hbm, 478, rfl⟩
abbrev main_cst_160 : Ref sig .tc := ⟨.hbm, 479, rfl⟩
abbrev main_v315 : Ref sig .tc := ⟨.hbm, 480, rfl⟩
abbrev main_v316 : Ref sig .tc := ⟨.hbm, 481, rfl⟩
abbrev main_v317 : Ref sig .tc := ⟨.hbm, 482, rfl⟩
abbrev main_v318 : Ref sig .tc := ⟨.hbm, 483, rfl⟩
abbrev main_v319 : Ref sig .tc := ⟨.hbm, 484, rfl⟩
abbrev main_v320 : Ref sig .tc := ⟨.hbm, 485, rfl⟩
abbrev main_v321 : Ref sig .tc := ⟨.hbm, 486, rfl⟩
abbrev main_v322 : Ref sig .tc := ⟨.hbm, 487, rfl⟩
abbrev main_c_161 : Ref sig .tc := ⟨.hbm, 488, rfl⟩
abbrev main_c_162 : Ref sig .tc := ⟨.hbm, 489, rfl⟩
abbrev main_c_163 : Ref sig .tc := ⟨.hbm, 490, rfl⟩
abbrev main_c_164 : Ref sig .tc := ⟨.hbm, 491, rfl⟩
abbrev main_v323 : Ref sig .tc := ⟨.hbm, 492, rfl⟩
abbrev main_v324 : Ref sig .tc := ⟨.hbm, 493, rfl⟩
abbrev main_v325 : Ref sig .tc := ⟨.hbm, 494, rfl⟩
abbrev main_cst_165 : Ref sig .tc := ⟨.hbm, 495, rfl⟩
abbrev main_v326 : Ref sig .tc := ⟨.hbm, 496, rfl⟩
abbrev main_cst_166 : Ref sig .tc := ⟨.hbm, 497, rfl⟩
abbrev main_v327 : Ref sig .tc := ⟨.hbm, 498, rfl⟩
abbrev main_v328 : Ref sig .tc := ⟨.hbm, 499, rfl⟩
abbrev main_cst_167 : Ref sig .tc := ⟨.hbm, 500, rfl⟩
abbrev main_v329 : Ref sig .tc := ⟨.hbm, 501, rfl⟩
abbrev main_v330 : Ref sig .tc := ⟨.hbm, 502, rfl⟩
abbrev main_cst_168 : Ref sig .tc := ⟨.hbm, 503, rfl⟩
abbrev main_v331 : Ref sig .tc := ⟨.hbm, 504, rfl⟩
abbrev main_v332 : Ref sig .tc := ⟨.hbm, 505, rfl⟩
abbrev main_v333 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_v337 : Ref sig .tc := ⟨.hbm, 510, rfl⟩
abbrev main_v338 : Ref sig .tc := ⟨.hbm, 511, rfl⟩
abbrev main_c_169 : Ref sig .tc := ⟨.hbm, 512, rfl⟩
abbrev main_c_170 : Ref sig .tc := ⟨.hbm, 513, rfl⟩
abbrev main_c_171 : Ref sig .tc := ⟨.hbm, 514, rfl⟩
abbrev main_c_172 : Ref sig .tc := ⟨.hbm, 515, rfl⟩
abbrev main_v339 : Ref sig .tc := ⟨.hbm, 516, rfl⟩
abbrev main_v340 : Ref sig .tc := ⟨.hbm, 517, rfl⟩
abbrev main_v341 : Ref sig .tc := ⟨.hbm, 518, rfl⟩
abbrev main_cst_173 : Ref sig .tc := ⟨.hbm, 519, rfl⟩
abbrev main_v342 : Ref sig .tc := ⟨.hbm, 520, rfl⟩
abbrev main_cst_174 : Ref sig .tc := ⟨.hbm, 521, rfl⟩
abbrev main_v343 : Ref sig .tc := ⟨.hbm, 522, rfl⟩
abbrev main_v344 : Ref sig .tc := ⟨.hbm, 523, rfl⟩
abbrev main_cst_175 : Ref sig .tc := ⟨.hbm, 524, rfl⟩
abbrev main_v345 : Ref sig .tc := ⟨.hbm, 525, rfl⟩
abbrev main_v346 : Ref sig .tc := ⟨.hbm, 526, rfl⟩
abbrev main_cst_176 : Ref sig .tc := ⟨.hbm, 527, rfl⟩
abbrev main_v347 : Ref sig .tc := ⟨.hbm, 528, rfl⟩
abbrev main_v348 : Ref sig .tc := ⟨.hbm, 529, rfl⟩
abbrev main_v349 : Ref sig .tc := ⟨.hbm, 530, rfl⟩
abbrev main_v350 : Ref sig .tc := ⟨.hbm, 531, rfl⟩
abbrev main_v351 : Ref sig .tc := ⟨.hbm, 532, rfl⟩
abbrev main_v352 : Ref sig .tc := ⟨.hbm, 533, rfl⟩
abbrev main_v353 : Ref sig .tc := ⟨.hbm, 534, rfl⟩
abbrev main_v354 : Ref sig .tc := ⟨.hbm, 535, rfl⟩
abbrev main_c_177 : Ref sig .tc := ⟨.hbm, 536, rfl⟩
abbrev main_c_178 : Ref sig .tc := ⟨.hbm, 537, rfl⟩
abbrev main_c_179 : Ref sig .tc := ⟨.hbm, 538, rfl⟩
abbrev main_c_180 : Ref sig .tc := ⟨.hbm, 539, rfl⟩
abbrev main_v355 : Ref sig .tc := ⟨.hbm, 540, rfl⟩
abbrev main_v356 : Ref sig .tc := ⟨.hbm, 541, rfl⟩
abbrev main_v357 : Ref sig .tc := ⟨.hbm, 542, rfl⟩
abbrev main_cst_181 : Ref sig .tc := ⟨.hbm, 543, rfl⟩
abbrev main_v358 : Ref sig .tc := ⟨.hbm, 544, rfl⟩
abbrev main_cst_182 : Ref sig .tc := ⟨.hbm, 545, rfl⟩
abbrev main_v359 : Ref sig .tc := ⟨.hbm, 546, rfl⟩
abbrev main_v360 : Ref sig .tc := ⟨.hbm, 547, rfl⟩
abbrev main_cst_183 : Ref sig .tc := ⟨.hbm, 548, rfl⟩
abbrev main_v361 : Ref sig .tc := ⟨.hbm, 549, rfl⟩
abbrev main_v362 : Ref sig .tc := ⟨.hbm, 550, rfl⟩
abbrev main_cst_184 : Ref sig .tc := ⟨.hbm, 551, rfl⟩
abbrev main_v363 : Ref sig .tc := ⟨.hbm, 552, rfl⟩
abbrev main_v364 : Ref sig .tc := ⟨.hbm, 553, rfl⟩
abbrev main_v365 : Ref sig .tc := ⟨.hbm, 554, rfl⟩
abbrev main_v366 : Ref sig .tc := ⟨.hbm, 555, rfl⟩
abbrev main_v367 : Ref sig .tc := ⟨.hbm, 556, rfl⟩
abbrev main_v368 : Ref sig .tc := ⟨.hbm, 557, rfl⟩
abbrev main_v369 : Ref sig .tc := ⟨.hbm, 558, rfl⟩
abbrev main_v370 : Ref sig .tc := ⟨.hbm, 559, rfl⟩
abbrev main_c_185 : Ref sig .tc := ⟨.hbm, 560, rfl⟩
abbrev main_c_186 : Ref sig .tc := ⟨.hbm, 561, rfl⟩
abbrev main_c_187 : Ref sig .tc := ⟨.hbm, 562, rfl⟩
abbrev main_c_188 : Ref sig .tc := ⟨.hbm, 563, rfl⟩
abbrev main_v371 : Ref sig .tc := ⟨.hbm, 564, rfl⟩
abbrev main_v372 : Ref sig .tc := ⟨.hbm, 565, rfl⟩
abbrev main_v373 : Ref sig .tc := ⟨.hbm, 566, rfl⟩
abbrev main_cst_189 : Ref sig .tc := ⟨.hbm, 567, rfl⟩
abbrev main_v374 : Ref sig .tc := ⟨.hbm, 568, rfl⟩
abbrev main_cst_190 : Ref sig .tc := ⟨.hbm, 569, rfl⟩
abbrev main_v375 : Ref sig .tc := ⟨.hbm, 570, rfl⟩
abbrev main_v376 : Ref sig .tc := ⟨.hbm, 571, rfl⟩
abbrev main_cst_191 : Ref sig .tc := ⟨.hbm, 572, rfl⟩
abbrev main_v377 : Ref sig .tc := ⟨.hbm, 573, rfl⟩
abbrev main_v378 : Ref sig .tc := ⟨.hbm, 574, rfl⟩
abbrev main_cst_192 : Ref sig .tc := ⟨.hbm, 575, rfl⟩
abbrev main_v379 : Ref sig .tc := ⟨.hbm, 576, rfl⟩
abbrev main_v380 : Ref sig .tc := ⟨.hbm, 577, rfl⟩
abbrev main_v381 : Ref sig .tc := ⟨.hbm, 578, rfl⟩
abbrev main_v382 : Ref sig .tc := ⟨.hbm, 579, rfl⟩
abbrev main_v383 : Ref sig .tc := ⟨.hbm, 580, rfl⟩
abbrev main_v384 : Ref sig .tc := ⟨.hbm, 581, rfl⟩
abbrev main_v385 : Ref sig .tc := ⟨.hbm, 582, rfl⟩
abbrev main_v386 : Ref sig .tc := ⟨.hbm, 583, rfl⟩
abbrev main_c_193 : Ref sig .tc := ⟨.hbm, 584, rfl⟩
abbrev main_c_194 : Ref sig .tc := ⟨.hbm, 585, rfl⟩
abbrev main_c_195 : Ref sig .tc := ⟨.hbm, 586, rfl⟩
abbrev main_c_196 : Ref sig .tc := ⟨.hbm, 587, rfl⟩
abbrev main_v387 : Ref sig .tc := ⟨.hbm, 588, rfl⟩
abbrev main_v388 : Ref sig .tc := ⟨.hbm, 589, rfl⟩
abbrev main_v389 : Ref sig .tc := ⟨.hbm, 590, rfl⟩
abbrev main_cst_197 : Ref sig .tc := ⟨.hbm, 591, rfl⟩
abbrev main_v390 : Ref sig .tc := ⟨.hbm, 592, rfl⟩
abbrev main_cst_198 : Ref sig .tc := ⟨.hbm, 593, rfl⟩
abbrev main_v391 : Ref sig .tc := ⟨.hbm, 594, rfl⟩
abbrev main_v392 : Ref sig .tc := ⟨.hbm, 595, rfl⟩
abbrev main_cst_199 : Ref sig .tc := ⟨.hbm, 596, rfl⟩
abbrev main_v393 : Ref sig .tc := ⟨.hbm, 597, rfl⟩
abbrev main_v394 : Ref sig .tc := ⟨.hbm, 598, rfl⟩
abbrev main_cst_200 : Ref sig .tc := ⟨.hbm, 599, rfl⟩
abbrev main_v395 : Ref sig .tc := ⟨.hbm, 600, rfl⟩
abbrev main_v396 : Ref sig .tc := ⟨.hbm, 601, rfl⟩
abbrev main_v397 : Ref sig .tc := ⟨.hbm, 602, rfl⟩
abbrev main_v398 : Ref sig .tc := ⟨.hbm, 603, rfl⟩
abbrev main_v399 : Ref sig .tc := ⟨.hbm, 604, rfl⟩
abbrev main_v400 : Ref sig .tc := ⟨.hbm, 605, rfl⟩
abbrev main_v401 : Ref sig .tc := ⟨.hbm, 606, rfl⟩
abbrev main_v402 : Ref sig .tc := ⟨.hbm, 607, rfl⟩
abbrev main_v403 : Ref sig .tc := ⟨.hbm, 608, rfl⟩
abbrev main_v404 : Ref sig .tc := ⟨.hbm, 609, rfl⟩
abbrev main_v405 : Ref sig .tc := ⟨.hbm, 610, rfl⟩

abbrev nD : Nat := 1
abbrev τ : Topo := Topo.v7x

variable {F : FTy → Type} [FloatOps F]

class Facts₀ : Prop where
  pads_S16x512x512x3_S16x516x516x3_000_220_220_000 : S16x512x512x3.Pads (![0, 2, 2, 0] : Fin 4 → Nat) ![0, 2, 2, 0] ![0, 0, 0, 0] S16x516x516x3
  h_S_ : 0 < S_.numel
  bcast_S_S16x512x512x3 : S_.BroadcastsInDim S16x512x512x3 (![] : Fin 0 → Fin S16x512x512x3.rank)
  bcast_S_S16x512x512 : S_.BroadcastsInDim S16x512x512 (![] : Fin 0 → Fin S16x512x512.rank)
  sliceFits_S16x516x516x3_S16x512x512x3 : S16x516x516x3.Slices (fun _ => 0) S16x512x512x3
  reducesTo_S16x512x512x3_S16x512x512_d3 : S16x512x512x3.ReducesTo [3] S16x512x512
  bcast_S16x512x512_S16x512x512x1_0_1_2 : S16x512x512.BroadcastsInDim S16x512x512x1 (![0, 1, 2] : Fin 3 → Fin S16x512x512x1.rank)
  bcast_S16x512x512x1_S16x512x512x3_0_1_2_3 : S16x512x512x1.BroadcastsInDim S16x512x512x3 (![0, 1, 2, 3] : Fin 4 → Fin S16x512x512x3.rank)

variable [Facts₀]

class Facts : Prop extends Facts₀ where

variable [Facts]
-- ==== Proof.Spec.lean ====
/-
  The filter both programs compute, as ONE function of the zero-padded image.

  The image is f32[16, 512, 512, 3] (batch, row, column, channel); padded by two zero rows and two zero columns on every side it is
  f32[16, 516, 516, 3]. For a pixel (b, h, w) the 25 neighbours are the padded image at rows h + i and columns w + j, i, j = 0 … 4
  (the pixel itself is the neighbour i = j = 2). A neighbour's weight is

      exp (-1/2 · (s + (∑ over the three channels of (neighbour - centre)²) · 100)),

  s = (i - 2)² + (j - 2)² its squared distance in the window and 100 = 1 / 0.1² the inverse colour variance; the result at channel
  ch is (∑ weight · neighbour's channel ch) / (∑ weight), both sums accumulated from zero in row-major order of (i, j).

  Everything is stated on the extended reals with the float literals kept as the words both programs print, so that no literal is
  ever evaluated; the only arithmetic law the certificate uses is 0 + x = x, once per neighbour on the reference's side.
-/
import Idealize.ShloMosaic.PureOps.Ideal
import Idealize.ShloMosaic.PureOps.Ideal.Laws
import Idealize.ShloMosaic.Lib.ValueIdx
import Idealize.ShloMosaic.Lib.KernelVsHost

noncomputable section

namespace Cert.Bilateral

open Idealize.ShloMosaic Idealize.ShloMosaic.ValueIdx

/-- The image's shape: batch, row, column, channel. -/
abbrev SImg : Shape := ⟨4, ![16, 512, 512, 3]⟩
/-- The padded image's shape: batch, padded row, padded column, channel. -/
abbrev SPad : Shape := ⟨4, ![16, 516, 516, 3]⟩
/-- The shape of a scalar tensor (the padding value's). -/
abbrev SScalar : Shape := ⟨0, ![]⟩

/-- The image with two rows and two columns of the padding value (the integer zero converted to a float) on every side. -/
def padded (X : SImg.Idx → EReal) : SPad.Idx → EReal :=
  pad SPad ![0, 2, 2, 0] ![0, 2, 2, 0] ![0, 0, 0, 0] X (sitofp (F := Ideal) .f32 (constantI SScalar 32 0#32)) (by decide) (by decide)

/-- Two rows down and two columns right of (h, w) the padded image is the image at (h, w). -/
theorem padded_inside (X : SImg.Idx → EReal) (b : Fin 16) (h w : Fin 512) (k : Fin 3) (q : SPad.Idx)
    (h0 : (q 0).val = b.val) (h1 : (q 1).val = h.val + 2) (h2 : (q 2).val = w.val + 2) (h3 : (q 3).val = k.val) :
    padded X q = X (ix4 b h w k) := by
  unfold padded
  refine pad_apply_of_inside _ _ _ X _ _ _ q (ix4 b h w k) fun a => ?_
  match a with
  | ⟨0, _⟩ => show (q 0).val = 0 + b.val * (0 + 1); omega
  | ⟨1, _⟩ => show (q 1).val = 2 + h.val * (0 + 1); omega
  | ⟨2, _⟩ => show (q 2).val = 2 + w.val * (0 + 1); omega
  | ⟨3, _⟩ => show (q 3).val = 0 + k.val * (0 + 1); omega

/-- The weight of one neighbour with channel values `nb` against the centre's `ctr`, at squared window distance `s` (a float word):
    the product of the spatial and the colour Gaussian, written as one exponential. -/
def weight (s : BitVec 32) (nb ctr : Fin 3 → EReal) : EReal :=
  Ideal.exp ((Ideal.ofBits .f32 0xBF000000#32 : EReal) *
    ((Ideal.ofBits .f32 s : EReal) + (∑ k : Fin 3, (nb k - ctr k) * (nb k - ctr k)) * (Ideal.ofBits .f32 0x42C80000#32 : EReal)))

/-- One neighbour added to the pair (weighted sum of channel `ch`, sum of weights). -/
def step (ctr : Fin 3 → EReal) (ch : Fin 3) (a : EReal × EReal) (t : BitVec 32 × (Fin 3 → EReal)) : EReal × EReal :=
  (a.1 + weight t.1 t.2 ctr * t.2 ch, a.2 + weight t.1 t.2 ctr)

/-- The window: per neighbour its squared distance from the centre as a float word (8, 5, 4, 5, 8 / 5, 2, 1, 2, 5 / 4, 1, 0, 1, 4 / …)
    and its row and column offsets into the padded image, in row-major order. -/
def window : List (BitVec 32 × ℕ × ℕ) :=
  [ (0x41000000#32, 0, 0), (0x40A00000#32, 0, 1), (0x40800000#32, 0, 2), (0x40A00000#32, 0, 3), (0x41000000#32, 0, 4),
    (0x40A00000#32, 1, 0), (0x40000000#32, 1, 1), (0x3F800000#32, 1, 2), (0x40000000#32, 1, 3), (0x40A00000#32, 1, 4),
    (0x40800000#32, 2, 0), (0x3F800000#32, 2, 1), (0x00000000#32, 2, 2), (0x3F800000#32, 2, 3), (0x40800000#32, 2, 4),
    (0x40A00000#32, 3, 0), (0x40000000#32, 3, 1), (0x3F800000#32, 3, 2), (0x40000000#32, 3, 3), (0x40A00000#32, 3, 4),
    (0x41000000#32, 4, 0), (0x40A00000#32, 4, 1), (0x40800000#32, 4, 2), (0x40A00000#32, 4, 3), (0x41000000#32, 4, 4) ]

/-- The padded image at batch `b`, padded row `r`, padded column `c` (natural numbers: a pixel's row plus a window offset), channel
    `k`; outside the padded image (never reached from a pixel and a window offset) it is `0`. -/
def rd (P : SPad.Idx → EReal) (b : Fin 16) (r c : ℕ) (k : Fin 3) : EReal :=
  if h : r < 516 ∧ c < 516 then P (ix4 b ⟨r, h.1⟩ ⟨c, h.2⟩ k) else 0

/-- A read of the padded image at an index with the coordinates (b, r, c, k) is `rd` there. -/
theorem rd_of_coords (P : SPad.Idx → EReal) (b : Fin 16) (r c : ℕ) (k : Fin 3) (q : SPad.Idx)
    (h0 : (q 0).val = b.val) (h1 : (q 1).val = r) (h2 : (q 2).val = c) (h3 : (q 3).val = k.val) : P q = rd P b r c k := by
  have hr : r < 516 := h1 ▸ (q 1).isLt
  have hc : c < 516 := h2 ▸ (q 2).isLt
  unfold rd
  rw [dif_pos ⟨hr, hc⟩]
  refine congrArg P (funext fun a => Fin.ext ?_)
  match a with
  | ⟨0, _⟩ => exact h0
  | ⟨1, _⟩ => exact h1
  | ⟨2, _⟩ => exact h2
  | ⟨3, _⟩ => exact h3

/-- The neighbours of pixel (b, h, w) as the window lists them: squared distance and the three channel values. -/
def neighbours (P : SPad.Idx → EReal) (b : Fin 16) (h w : Fin 512) : List (BitVec 32 × (Fin 3 → EReal)) :=
  window.map fun t => (t.1, fun k => rd P b (h.val + t.2.1) (w.val + t.2.2) k)

/-- The filtered image at pixel (b, h, w), channel `ch`, from the padded image `P`. -/
def filt (P : SPad.Idx → EReal) (b : Fin 16) (h w : Fin 512) (ch : Fin 3) : EReal :=
  Ideal.div
    ((neighbours P b h w).foldl (step (fun k => rd P b (h.val + 2) (w.val + 2) k) ch)
      ((Ideal.ofBits .f32 0x00000000#32 : EReal), (Ideal.ofBits .f32 0x00000000#32 : EReal))).1
    ((neighbours P b h w).foldl (step (fun k => rd P b (h.val + 2) (w.val + 2) k) ch)
      ((Ideal.ofBits .f32 0x00000000#32 : EReal), (Ideal.ofBits .f32 0x00000000#32 : EReal))).2

/-- The centre's channel values read from the padded image are the image's own at the pixel. -/
theorem rd_centre (X : SImg.Idx → EReal) (b : Fin 16) (h w : Fin 512) (k : Fin 3) :
    rd (padded X) b (h.val + 2) (w.val + 2) k = X (ix4 b h w k) := by
  have hr : h.val + 2 < 516 := by have := h.isLt; omega
  have hc : w.val + 2 < 516 := by have := w.isLt; omega
  unfold rd
  rw [dif_pos ⟨hr, hc⟩]
  exact padded_inside X b h w k _ rfl rfl rfl rfl

/-- THE RESULT both programs end with: the filtered image of `X`, entry by entry, through its zero-padded copy. -/
def result (X : SImg.Idx → EReal) : SImg.Idx → EReal :=
  fun i => filt (padded X) (i 0) (i 1) (i 2) (i 3)

theorem result_apply (X : SImg.Idx → EReal) (b : Fin 16) (h w : Fin 512) (ch : Fin 3) :
    result X (ix4 b h w ch) = filt (padded X) b h w ch := rfl

end Cert.Bilateral

end
-- ==== Proof.KStep.lean ====
/-
  One neighbour of the window as the kernel computes it, on whole planes, and the same read at one pixel.

  The kernel holds a block of the padded, channel-major image as [1, 3, 516, 516] and works on [3, 512, 512] windows of it (three
  channel planes). For a neighbour's planes L and the centre's planes C it forms the weight plane

      exp (-1/2 · (s + (∑ over the channel axis of (L - C)²) · 100))            of shape [1, 512, 512],

  adds weight · L to the running [3, 512, 512] numerator (the weight plane repeated over the three channels) and the weight to the
  running [1, 512, 512] denominator. Read at channel ch and pixel (h, w) this is exactly one `step` of the specification on the
  numbers L (·, h, w), C (·, h, w): every operation is pointwise except the channel sum, which at the exact instance is the sum
  over the three channel planes at that pixel, and three changes of layout, which move no number.
-/
import proofs.«124676_j5042291605780_2_alg».proof.KernelIdeal
import proofs.«124676_j5042291605780_2_alg».proof.Proof.Gen.KernelIdeal
import proofs.«124676_j5042291605780_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal Cert.KernelIdeal.Facts₀ Cert.KernelIdeal.Facts

variable {F : FTy → Type} [FloatOps F]

/-- A loaded [1, 3, 512, 512] window as its three channel planes. -/
def planes (v : Vec F S1x3x512x512 .f32) : FVec F S3x512x512 .f32 :=
  shapeCast S3x512x512 v shapeCasts_S1x3x512x512_S3x512x512

/-- The weight plane of the neighbour with planes `L` at squared window distance `s`, against the centre's planes `C`. -/
def wplane (C : FVec F S3x512x512 .f32) (s : BitVec 32) (L : FVec F S3x512x512 .f32) : FVec F S1x512x512 .f32 :=
  exp (mulf (broadcast S1x512x512 (Scalar.ofBits .f32 0xBF000000#32))
    (addf (broadcast S1x512x512 (Scalar.ofBits .f32 s))
      (mulf
        (shapeCast S1x512x512
          (multiReduction .add [0] S512x512 (mulf (subf L C) (subf L C)) 0x00000000#32 reduces_S3x512x512_S512x512 (.inl rfl) rfl)
          shapeCasts_S512x512_S1x512x512)
        (broadcast S1x512x512 (Scalar.ofBits .f32 0x42C80000#32)))))

/-- One neighbour added to the running (numerator planes, denominator plane). -/
def kstep (C : FVec F S3x512x512 .f32) (a : FVec F S3x512x512 .f32 × FVec F S1x512x512 .f32)
    (t : BitVec 32 × FVec F S3x512x512 .f32) : FVec F S3x512x512 .f32 × FVec F S1x512x512 .f32 :=
  (addf a.1 (mulf (broadcastTo S3x512x512 (wplane C t.1 t.2) broadcasts_S1x512x512_S3x512x512) t.2), addf a.2 (wplane C t.1 t.2))

/-- The end of the body: numerator over the denominator repeated over the channels, back in the block's [1, 3, 512, 512] layout. -/
def quotient (a : FVec F S3x512x512 .f32 × FVec F S1x512x512 .f32) : FVec F S1x3x512x512 .f32 :=
  shapeCast S1x3x512x512 (divf a.1 (broadcastTo S3x512x512 a.2 broadcasts_S1x512x512_S3x512x512)) shapeCasts_S3x512x512_S1x3x512x512

/-! ## Read at a pixel, at the exact instance -/

/-- Plane `k` of a loaded window at (h, w) is the window at (0, k, h, w). -/
theorem planes_apply (v : Vec Ideal S1x3x512x512 .f32) (k : Fin 3) (h w : Fin 512) :
    planes v (ix3 k h w) = v (ix4 (0 : Fin 1) k h w) :=
  shapeCast_1abc_abc_apply v shapeCasts_S1x3x512x512_S3x512x512 k h w

/-- A [1, 512, 512] plane repeated over three channels reads, at (k, h, w), the plane at (0, h, w). -/
theorem repeat_apply (p : FVec Ideal S1x512x512 .f32) (k : Fin 3) (h w : Fin 512) :
    broadcastTo S3x512x512 p broadcasts_S1x512x512_S3x512x512 (ix3 k h w) = p (ix3 (0 : Fin 1) h w) := by
  refine broadcastTo_apply p broadcasts_S1x512x512_S3x512x512 (ix3 k h w) (ix3 (0 : Fin 1) h w) fun ax => ?_
  match ax with
  | ⟨0, _⟩ => rfl
  | ⟨1, _⟩ => rfl
  | ⟨2, _⟩ => rfl

/-- The channel sum at (h, w) is the sum over the three planes there. -/
theorem chansum_apply (D : FVec Ideal S3x512x512 .f32) (h w : Fin 512) :
    multiReduction .add [0] S512x512 D 0x00000000#32 reduces_S3x512x512_S512x512 (.inl rfl) rfl (ix2 h w)
      = ∑ k : Fin 3, D (ix3 k h w) := by
  refine (Ideal.multiReduction_add_single D _ reduces_S3x512x512_S512x512 (.inl rfl) rfl (ix2 h w)).trans ?_
  refine Finset.sum_congr rfl fun k _ => congrArg D (funext fun a => Fin.ext ?_)
  match a with
  | ⟨0, _⟩ => rfl
  | ⟨1, _⟩ => rfl
  | ⟨2, _⟩ => rfl

/-- The weight plane at (h, w) is the specification's weight of the neighbour's and the centre's channel values there. -/
theorem wplane_apply (C L : FVec Ideal S3x512x512 .f32) (s : BitVec 32) (u : Fin 1) (h w : Fin 512) :
    wplane C s L (ix3 u h w) = Cert.Bilateral.weight s (fun k => L (ix3 k h w)) (fun k => C (ix3 k h w)) := by
  unfold wplane Cert.Bilateral.weight
  show Ideal.exp ((Ideal.ofBits .f32 0xBF000000#32 : EReal) * ((Ideal.ofBits .f32 s : EReal)
      + shapeCast S1x512x512
          (multiReduction .add [0] S512x512 (mulf (subf L C) (subf L C)) 0x00000000#32 reduces_S3x512x512_S512x512 (.inl rfl) rfl)
          shapeCasts_S512x512_S1x512x512 (ix3 u h w) * (Ideal.ofBits .f32 0x42C80000#32 : EReal))) = _
  rw [shapeCast_ab_1ab_apply _ shapeCasts_S512x512_S1x512x512 u h w, chansum_apply]
  rfl

/-- One step of the kernel read at channel `ch`, pixel (h, w): the specification's step on the numbers there. -/
theorem kstep_apply (C : FVec Ideal S3x512x512 .f32) (a : FVec Ideal S3x512x512 .f32 × FVec Ideal S1x512x512 .f32)
    (t : BitVec 32 × FVec Ideal S3x512x512 .f32) (ch : Fin 3) (h w : Fin 512) :
    ((kstep C a t).1 (ix3 ch h w), (kstep C a t).2 (ix3 (0 : Fin 1) h w))
      = Cert.Bilateral.step (fun k => C (ix3 k h w)) ch (a.1 (ix3 ch h w), a.2 (ix3 (0 : Fin 1) h w))
          (t.1, fun k => t.2 (ix3 k h w)) := by
  unfold kstep Cert.Bilateral.step
  show (a.1 (ix3 ch h w) + broadcastTo S3x512x512 (wplane C t.1 t.2) broadcasts_S1x512x512_S3x512x512 (ix3 ch h w) * t.2 (ix3 ch h w),
      a.2 (ix3 (0 : Fin 1) h w) + wplane C t.1 t.2 (ix3 (0 : Fin 1) h w)) = _
  rw [repeat_apply, wplane_apply]

/-- The whole window folded from a pair of planes, read at a pixel: the specification's fold of the numbers there. -/
theorem fold_apply (C : FVec Ideal S3x512x512 .f32) (ch : Fin 3) (h w : Fin 512) :
    ∀ (l : List (BitVec 32 × FVec Ideal S3x512x512 .f32)) (a : FVec Ideal S3x512x512 .f32 × FVec Ideal S1x512x512 .f32),
      ((l.foldl (kstep C) a).1 (ix3 ch h w), (l.foldl (kstep C) a).2 (ix3 (0 : Fin 1) h w))
        = (l.map fun t => (t.1, fun k => t.2 (ix3 k h w))).foldl (Cert.Bilateral.step (fun k => C (ix3 k h w)) ch)
            (a.1 (ix3 ch h w), a.2 (ix3 (0 : Fin 1) h w))
  | [], a => rfl
  | t :: l, a => by
    rw [List.foldl_cons, List.map_cons, List.foldl_cons, fold_apply C ch h w l (kstep C a t), kstep_apply]

/-- The end of the body at (0, ch, h, w): the numerator there over the denominator at (0, h, w). -/
theorem quotient_apply (a : FVec Ideal S3x512x512 .f32 × FVec Ideal S1x512x512 .f32) (u : Fin 1) (ch : Fin 3) (h w : Fin 512) :
    quotient a (ix4 u ch h w) = Ideal.div (a.1 (ix3 ch h w)) (a.2 (ix3 (0 : Fin 1) h w)) := by
  unfold quotient
  rw [shapeCast_abc_1abc_apply _ shapeCasts_S3x512x512_S1x3x512x512 u ch h w]
  show Ideal.div (a.1 (ix3 ch h w)) (broadcastTo S3x512x512 a.2 broadcasts_S1x512x512_S3x512x512 (ix3 ch h w)) = _
  rw [repeat_apply]

end Cert.KernelIdeal.KValue

end
-- ==== Proof.KBody.lean ====
/-
  The kernel's body as one fold over the window.

  The body loads the centre window (rows and columns 2 … 513 of the padded block) and, for each of the 25 window offsets (i, j) in
  row-major order, the window at rows i … i + 511 and columns j … j + 511 (the offset (2, 2) is the centre window again); it adds
  each neighbour into a numerator and a denominator that start at zero, and stores the quotient over the whole output block. Its
  printed arithmetic is a tree of named pieces; unfolded, it is literally the fold of `kstep` over the loaded windows followed by
  `quotient`. Read at channel ch and pixel (h, w) of the block, the stored value is then the specification's fold of the
  numbers the loaded windows hold there.
-/
import proofs.«124676_j5042291605780_2_alg».proof.Proof.Gen.KernelIdeal.Frame
import proofs.«124676_j5042291605780_2_alg».proof.Proof.KStep

set_option pp.maxSteps 5000
set_option pp.deepTerms false

noncomputable section

namespace Cert.KernelIdeal.KValue

open Idealize.ShloMosaic Idealize.ShloMosaic.ValueIdx Cert.KernelIdeal Cert.KernelIdeal.Gen

variable {F : FTy → Type} [FloatOps F]

/-- The 25 neighbours as the body meets them: squared window distance and the loaded window's planes. -/
def loaded (x0 : Vec F S1x3x516x516 .f32) : List (BitVec 32 × FVec F S3x512x512 .f32) :=
  [
    (0x41000000#32, planes (View.ld x0 r0_1)), (0x40A00000#32, planes (View.ld x0 r0_2)), (0x40800000#32, planes (View.ld x0 r0_3)), (0x40A00000#32, planes (View.ld x0 r0_4)), (0x41000000#32, planes (View.ld x0 r0_5)),
    (0x40A00000#32, planes (View.ld x0 r0_6)), (0x40000000#32, planes (View.ld x0 r0_7)), (0x3F800000#32, planes (View.ld x0 r0_8)), (0x40000000#32, planes (View.ld x0 r0_9)), (0x40A00000#32, planes (View.ld x0 r0_10)),
    (0x40800000#32, planes (View.ld x0 r0_11)), (0x3F800000#32, planes (View.ld x0 r0_12)), (0x00000000#32, planes (View.ld x0 r0_0)), (0x3F800000#32, planes (View.ld x0 r0_13)), (0x40800000#32, planes (View.ld x0 r0_14)),
    (0x40A00000#32, planes (View.ld x0 r0_15)), (0x40000000#32, planes (View.ld x0 r0_16)), (0x3F800000#32, planes (View.ld x0 r0_17)), (0x40000000#32, planes (View.ld x0 r0_18)), (0x40A00000#32, planes (View.ld x0 r0_19)),
    (0x41000000#32, planes (View.ld x0 r0_20)), (0x40A00000#32, planes (View.ld x0 r0_21)), (0x40800000#32, planes (View.ld x0 r0_22)), (0x40A00000#32, planes (View.ld x0 r0_23)), (0x41000000#32, planes (View.ld x0 r0_24)) ]

/-- Numerator and denominator before the first neighbour. -/
def zeros : FVec F S3x512x512 .f32 × FVec F S1x512x512 .f32 :=
  (broadcast S3x512x512 (Scalar.ofBits .f32 0x00000000#32), broadcast S1x512x512 (Scalar.ofBits .f32 0x00000000#32))

theorem origin4 : (![0, 0, 0, 0] : Fin 4 → Nat) = fun _ => 0 := funext fun a => by fin_cases a <;> rfl

set_option maxHeartbeats 4000000 in
/-- The body's one store, over the whole output block, is the quotient of the window's fold. -/
theorem body_eq (x0 : Vec F S1x3x516x516 .f32) :
    out0_1 x0 = quotient ((loaded x0).foldl (kstep (planes (View.ld x0 r0_0))) zeros) := by
  unfold out0_1
  rw [View.canon_unit_zero origin4]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    loaded, zeros, List.foldl, kstep, wplane, planes, quotient]

/-- The stored block at (0, ch, h, w): the specification's fold of the loaded windows' numbers at that pixel, then the quotient. -/
theorem body_apply (x0 : Vec Ideal S1x3x516x516 .f32) (u : Fin 1) (ch : Fin 3) (h w : Fin 512) :
    out0_1 x0 (ix4 u ch h w)
      = Ideal.div
          (((loaded x0).map fun t => (t.1, fun k => t.2 (ix3 k h w))).foldl
            (Cert.Bilateral.step (fun k => planes (View.ld x0 r0_0) (ix3 k h w)) ch)
            ((Ideal.ofBits .f32 0x00000000#32 : EReal), (Ideal.ofBits .f32 0x00000000#32 : EReal))).1
          (((loaded x0).map fun t => (t.1, fun k => t.2 (ix3 k h w))).foldl
            (Cert.Bilateral.step (fun k => planes (View.ld x0 r0_0) (ix3 k h w)) ch)
            ((Ideal.ofBits .f32 0x00000000#32 : EReal), (Ideal.ofBits .f32 0x00000000#32 : EReal))).2 := by
  rw [body_eq, quotient_apply]
  exact congrArg (fun p : EReal × EReal => Ideal.div p.1 p.2)
    (fold_apply (planes (View.ld x0 r0_0)) ch h w (loaded x0) zeros)

end Cert.KernelIdeal.KValue

end
-- ==== Proof.KBlock.lean ====
/-
  From the blocks to the whole result.

  Before the region the host pads the launched image X and moves the channel axis in front: the region's input array is the
  padded image read as [16, 3, 516, 516], and grid point t stages its batch t whole, a [1, 3, 516, 516] block. So a loaded window
  at window offset (i, j), read at channel k and pixel (h, w), is the padded image at (t, h + i, w + j, k); by the body's fold
  (the body read at a pixel) the stored block at (0, ch, h, w) is the specification's filter at batch t, pixel (h, w), channel ch.
  Point t writes its [1, 3, 512, 512] block back as batch t of the [16, 3, 512, 512] output array; the sixteen blocks tile that
  array, so it ends holding the filtered image in channel-major layout, and the host's last operation moves the channel axis
  back: the program's result is the filtered image of X.
-/
import proofs.«124676_j5042291605780_2_alg».proof.Proof.Gen.KernelIdeal.Frame
import proofs.«124676_j5042291605780_2_alg».proof.Proof.KBody
import Idealize.ShloMosaic.Lib.StableHlo.Run
import Idealize.ShloMosaic.Lib.Pipeline.Value
import Idealize.ShloMosaic.Lib.ValueLayout

set_option pp.maxSteps 5000
set_option pp.deepTerms false

noncomputable section

namespace Cert.KernelIdeal.KValue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The index maps and the region's input array -/

/-- Both windows move along the batch axis only: point t's block index is (t, 0, 0, 0). -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The program's pad of an image is the specification's padded image. -/
theorem pad_eq (X : S16x512x512x3.Idx → EReal) :
    pad S16x516x516x3 ![0, 2, 2, 0] ![0, 2, 2, 0] ![0, 0, 0, 0] X (sitofp (F := Ideal) .f32 (constantI S_ 32 0#32))
        Gen.pads_S16x512x512x3_S16x516x516x3_000_220_220_000 Gen.h_S_ = Cert.Bilateral.padded X := rfl

set_option maxHeartbeats 2000000 in
/-- The region's input array: the padded launched image with the channel axis moved in front. -/
theorem V_main_v1 (c : Dev nD) : (V m c main_v1 : S16x3x516x516.Idx → EReal)
    = transpose S16x3x516x516 [0, 3, 1, 2]
        (pad S16x516x516x3 ![0, 2, 2, 0] ![0, 2, 2, 0] ![0, 0, 0, 0] (m ((c : Thread nD τ).loc main_arg0))
          (sitofp (F := Ideal) .f32 (constantI S_ 32 0#32)) Gen.pads_S16x512x512x3_S16x516x516x3_000_220_220_000 Gen.h_S_)
        Gen.transposes_S16x516x516x3_S16x3x516x516_0_3_1_2 := by
  dsimp only [V, V0]
  simp only [hostOps0, hostOps0_1, hostOps0_2, List.flatten_cons, List.flatten_nil, List.append_nil, List.cons_append, List.nil_append]
  after_results
  rfl

/-! ## A staged block and a loaded window, read at an entry -/

/-- Point t's staged block at an entry with channel k, padded row r, padded column s is the padded image at (t, r, s, k). -/
theorem blk_read (c : Dev nD) (t : Fin cfg0.N) (k : Fin 3) (r s : ℕ) (q : S1x3x516x516.Idx)
    (h1 : (q 1).val = k.val) (h2 : (q 2).val = r) (h3 : (q 3).val = s) :
    iblk m c 0 t q = Cert.Bilateral.rd (Cert.Bilateral.padded (m ((c : Thread nD τ).loc main_arg0))) (Fin.cast N_0 t) r s k := by
  obtain ⟨e0, e1, e2, e3, -⟩ := idx_facts t
  have hr : r < 516 := h2 ▸ (q 2).isLt
  have hs : s < 516 := h3 ▸ (q 3).isLt
  have hq0 : (q 0).val = 0 := Nat.lt_one_iff.mp (q 0).isLt
  unfold iblk
  show (V m c main_v1 : S16x3x516x516.Idx → EReal) (((cfg0.win 0).blk t).view.emb q) = _
  rw [V_main_v1, pad_eq]
  refine (transpose_apply _ _ _ _ (ix4 (Fin.cast N_0 t) ⟨r, hr⟩ ⟨s, hs⟩ k) fun b => ?_).trans ?_
  · match b with
    | ⟨0, _⟩ => show t.val = win0_0.index t (0 : Fin 4) * 1 + 1 * (q 0).val; omega
    | ⟨1, _⟩ => show k.val = win0_0.index t (1 : Fin 4) * 3 + 1 * (q 1).val; omega
    | ⟨2, _⟩ => show r = win0_0.index t (2 : Fin 4) * 516 + 1 * (q 2).val; omega
    | ⟨3, _⟩ => show s = win0_0.index t (3 : Fin 4) * 516 + 1 * (q 3).val; omega
  · exact Cert.Bilateral.rd_of_coords _ _ r s k _ rfl rfl rfl rfl

/-- The window loaded at offset (i, j), as planes, at channel k and pixel (h, w): the padded image at (t, h + i, w + j, k). -/
theorem nb_read (c : Dev nD) (t : Fin cfg0.N) (i j : ℕ) (inb) (k : Fin 3) (h w : Fin 512) :
    planes (View.ld (iblk m c 0 t) (Rect.unit (s := S1x3x516x516) ![0, 0, i, j] S1x3x512x512.size inb)) (ix3 k h w)
      = Cert.Bilateral.rd (Cert.Bilateral.padded (m ((c : Thread nD τ).loc main_arg0))) (Fin.cast N_0 t) (h.val + i) (w.val + j) k := by
  rw [planes_apply]
  exact blk_read m c t k _ _ _ (by show 0 + 1 * k.val = k.val; omega) (by show i + 1 * h.val = h.val + i; omega)
    (by show j + 1 * w.val = w.val + j; omega)

/-! ## What a point writes back -/

/-- The filtered image of `X` in the kernel's channel-major layout [16, 3, 512, 512]. -/
def chanMajor (X : Cert.Bilateral.SImg.Idx → EReal) : S16x3x512x512.Idx → EReal :=
  fun i => Cert.Bilateral.filt (Cert.Bilateral.padded X) (i 0) (i 2) (i 3) (i 1)

theorem chanMajor_of_coords (X : Cert.Bilateral.SImg.Idx → EReal) (i : S16x3x512x512.Idx) (b : Fin 16) (ch : Fin 3) (h w : Fin 512)
    (h0 : (i 0).val = b.val) (h1 : (i 1).val = ch.val) (h2 : (i 2).val = h.val) (h3 : (i 3).val = w.val) :
    chanMajor X i = Cert.Bilateral.filt (Cert.Bilateral.padded X) b h w ch := by
  have e : i = ix4 b ch h w := funext fun a => Fin.ext (by
    match a with
    | ⟨0, _⟩ => exact h0
    | ⟨1, _⟩ => exact h1
    | ⟨2, _⟩ => exact h2
    | ⟨3, _⟩ => exact h3)
  subst e
  rfl

set_option maxHeartbeats 2000000 in
/-- The numbers the loaded windows hold at a pixel are the specification's neighbours of that pixel in batch t. -/
theorem loaded_read (c : Dev nD) (t : Fin cfg0.N) (h w : Fin 512) :
    ((loaded (iblk m c 0 t)).map fun e => (e.1, fun k => e.2 (ix3 k h w)))
      = Cert.Bilateral.neighbours (Cert.Bilateral.padded (m ((c : Thread nD τ).loc main_arg0))) (Fin.cast N_0 t) h w := by
  unfold loaded Cert.Bilateral.neighbours Cert.Bilateral.window
  simp only [List.map_cons, List.map_nil]
  repeat' (first | refine congrArg₂ List.cons (congrArg (Prod.mk _) (funext fun k => ?_)) ?_ | rfl)
  all_goals exact nb_read m c t _ _ _ _ h w

/-- WHAT POINT t WRITES BACK is block t of the channel-major filtered image. -/
theorem flushed_eq (c : Dev nD) (t : Fin cfg0.N) :
    (dats m 0 c).flushed 1 t
      = ((cfg0.win 1).blk t).view.read (Elt Ideal) (chanMajor (m ((c : Thread nD τ).loc main_arg0))) := by
  show (cfg0.win 1).cut (grid0.coords t) ((dats m 0 c).after 1 t) = _
  rw [after0_1]
  obtain ⟨-, -, -, -, e0, e1, e2, e3⟩ := idx_facts t
  funext y
  obtain ⟨u, ch, h, w, rfl⟩ : ∃ (u : Fin 1) (ch : Fin 3) (h w : Fin 512), y = ix4 u ch h w := ⟨y 0, y 1, y 2, y 3, eq_ix4 y⟩
  have hu : u.val = 0 := Nat.lt_one_iff.mp u.isLt
  show out0_1 (iblk m c 0 t) (ix4 u ch h w)
    = chanMajor (m ((c : Thread nD τ).loc main_arg0)) (((cfg0.win 1).blk t).view.emb (ix4 u ch h w))
  rw [body_apply, loaded_read,
    chanMajor_of_coords _ _ (Fin.cast N_0 t) ch h w
      (by show win0_1.index t (0 : Fin 4) * 1 + 1 * u.val = t.val; omega)
      (by show win0_1.index t (1 : Fin 4) * 3 + 1 * ch.val = ch.val; omega)
      (by show win0_1.index t (2 : Fin 4) * 512 + 1 * h.val = h.val; omega)
      (by show win0_1.index t (3 : Fin 4) * 512 + 1 * w.val = w.val; omega)]
  exact congrArg (fun ctr : Fin 3 → EReal =>
      Ideal.div
        ((Cert.Bilateral.neighbours (Cert.Bilateral.padded (m ((c : Thread nD τ).loc main_arg0))) (Fin.cast N_0 t) h w).foldl
          (Cert.Bilateral.step ctr ch) ((Ideal.ofBits .f32 0x00000000#32 : EReal), (Ideal.ofBits .f32 0x00000000#32 : EReal))).1
        ((Cert.Bilateral.neighbours (Cert.Bilateral.padded (m ((c : Thread nD τ).loc main_arg0))) (Fin.cast N_0 t) h w).foldl
          (Cert.Bilateral.step ctr ch) ((Ideal.ofBits .f32 0x00000000#32 : EReal), (Ideal.ofBits .f32 0x00000000#32 : EReal))).2)
    (funext fun k => nb_read m c t 2 2 _ k h w)

end Cert.KernelIdeal.KValue

end
-- ==== Proof.KRun.lean ====
/-
  The sixteen blocks tile the output array, and the host moves the channel axis back.

  Point t's output block is batch t of the [16, 3, 512, 512] array, every point writes its block back, and an entry of batch b lies
  in point b's block: the blocks cover the array, which therefore ends as the channel-major filtered image. The one host
  operation after the region transposes it to [16, 512, 512, 3], entry (b, h, w, ch) from (b, ch, h, w): the filtered image.
-/
import proofs.«124676_j5042291605780_2_alg».proof.Proof.KBlock

set_option pp.maxSteps 5000
set_option pp.deepTerms false

noncomputable section

namespace Cert.KernelIdeal.KValue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- An entry of the output array is in point t's block iff each coordinate is in the block's range on its axis. -/
theorem mem_blk (t : Fin cfg0.N) (i : S16x3x512x512.Idx) :
    i ∈ ((cfg0.win 1).blk t).view.set ↔ ∀ a : Fin 4, win0_1.index t a * S1x3x512x512.size a ≤ (i a).val
      ∧ (i a).val < win0_1.index t a * S1x3x512x512.size a + S1x3x512x512.size a := by
  show i ∈ ((View.whole main_v2).slice (win0_1.rect t)).set ↔ _
  rw [View.set_slice_whole, Rect.mem_set_unit]
  exact Iff.rfl

/-- Every entry of the output array is in the block of the point named by its batch, and that point writes back. -/
theorem cover (i : S16x3x512x512.Idx) :
    ∃ t : Fin cfg0.N, (cfg0.win 1).flush t = true ∧ i ∈ ((cfg0.win 1).blk t).view.set := by
  have hi0 : (i 0).val < 16 := (i 0).isLt
  have hi1 : (i 1).val < 3 := (i 1).isLt
  have hi2 : (i 2).val < 512 := (i 2).isLt
  have hi3 : (i 3).val < 512 := (i 3).isLt
  obtain ⟨t, ht⟩ : ∃ t : Fin cfg0.N, t.val = (i 0).val := ⟨Fin.cast N_0.symm ⟨(i 0).val, hi0⟩, rfl⟩
  obtain ⟨-, -, -, -, e0, e1, e2, e3⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- THE OUTPUT ARRAY after the run: the filtered image of the launched image, channel-major. -/
theorem final (c : Dev nD) :
    (dats m 0 c).arrAt 1 cfg0.N = chanMajor (m ((c : Thread nD τ).loc main_arg0)) :=
  (dats m 0 c).arrAt_eq_of_cover 1 (chanMajor (m ((c : Thread nD τ).loc main_arg0))) (fun t _ => flushed_eq m c t) cover

set_option maxHeartbeats 2000000 in
/-- THE RESULT after the host's last operation: the filtered image of the launched image. -/
theorem tail_eq (c : Dev nD) :
    (Pipeline.afterTail₀ cfgs (dats m) 0 (V0 m) [hostOps1] c main_v3 : S16x512x512x3.Idx → EReal)
      = Cert.Bilateral.result (m ((c : Thread nD τ).loc main_arg0)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = chanMajor (m ((c : Thread nD τ).loc main_arg0)) :=
    (Pipeline.withArrays_arr spec0 launch0.win.arr_inj c (V0 m c) (fun w => (dats m 0 c).arrAt w cfg0.N) 1).trans (final m c)
  rw [hw]
  funext i
  obtain ⟨b, h, w, ch, rfl⟩ : ∃ (b : Fin 16) (h w : Fin 512) (ch : Fin 3), i = ix4 b h w ch := ⟨i 0, i 1, i 2, i 3, eq_ix4 i⟩
  refine (transpose_apply _ _ _ _ (ix4 b ch h w) fun a => ?_).trans ?_
  · match a with
    | ⟨0, _⟩ => rfl
    | ⟨1, _⟩ => rfl
    | ⟨2, _⟩ => rfl
    | ⟨3, _⟩ => rfl
  · rfl

/-- THE KERNEL'S RUN: every weakly fair execution ends with the result array at the filtered image of the launched image, the
    argument as launched. -/
theorem run : θ_run defs (onTc (τ := τ) (main (F := Ideal))) ⟨m, fun _ => 0, ρ⟩ fun r => ∀ c : Dev nD,
      r.2.mem ((c.tc : Thread nD τ).loc main_v3) = Cert.Bilateral.result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

end Cert.KernelIdeal.KValue

end
-- ==== Proof.RefMainEq.lean ====
/-
  The reference's @main is the straight line of its 610 operations.

  The printed program is written in eleven parts run one after the other, the first of 61 operations (the zero-padding's two
  among them), nine of 60 and a last one of 9. Each part is, as written, the straight line of its own operations — the
  operations of the whole list from its first position on, as many as it has. A straight line from a position on is its next
  few operations followed by the straight line from where they end, so the eleven parts in order are the whole list's line.
-/
import proofs.«124676_j5042291605780_2_alg».proof.Proof.RefOpsPatched

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev allOps : List (HloOp τ sig (Elt F)) := Cert.ReferenceIdeal.ValueS.ops

/-! ## Each part is the line of its own operations -/

set_option maxRecDepth 8192 in
theorem part0_eq (d : Dev nD) : main_part0 (F := F) d = seq ((allOps (F := F)).take 61) := rfl
set_option maxRecDepth 8192 in
theorem part1_eq (d : Dev nD) : main_part1 (F := F) d = seq (((allOps (F := F)).drop 61).take 60) := rfl
set_option maxRecDepth 8192 in
theorem part2_eq (d : Dev nD) : main_part2 (F := F) d = seq (((allOps (F := F)).drop 121).take 60) := rfl
set_option maxRecDepth 8192 in
theorem part3_eq (d : Dev nD) : main_part3 (F := F) d = seq (((allOps (F := F)).drop 181).take 60) := rfl
set_option maxRecDepth 8192 in
theorem part4_eq (d : Dev nD) : main_part4 (F := F) d = seq (((allOps (F := F)).drop 241).take 60) := rfl
set_option maxRecDepth 8192 in
theorem part5_eq (d : Dev nD) : main_part5 (F := F) d = seq (((allOps (F := F)).drop 301).take 60) := rfl
set_option maxRecDepth 8192 in
theorem part6_eq (d : Dev nD) : main_part6 (F := F) d = seq (((allOps (F := F)).drop 361).take 60) := rfl
set_option maxRecDepth 8192 in
theorem part7_eq (d : Dev nD) : main_part7 (F := F) d = seq (((allOps (F := F)).drop 421).take 60) := rfl
set_option maxRecDepth 8192 in
theorem part8_eq (d : Dev nD) : main_part8 (F := F) d = seq (((allOps (F := F)).drop 481).take 60) := rfl
set_option maxRecDepth 8192 in
theorem part9_eq (d : Dev nD) : main_part9 (F := F) d = seq (((allOps (F := F)).drop 541).take 60) := rfl
set_option maxRecDepth 8192 in
theorem part10_eq (d : Dev nD) : main_part10 (F := F) d = seq ((allOps (F := F)).drop 601) := rfl

/-! ## The parts in order are the whole line -/

/-- The line from position `a` on is its next `b` operations, then the line from position `c = a + b` on. -/
theorem seq_drop {Λ : Labels} (l : List (HloOp τ sig (Elt F))) (a b c : ℕ) (h : a + b = c) :
    (seq (l.drop a) : Prog (TpuEff nD τ sig (Elt F) Λ .tc) PUnit) = seq ((l.drop a).take b) >>= fun _ => seq (l.drop c) := by
  subst h
  have e : l.drop (a + b) = (l.drop a).drop b := by simp [List.drop_drop, Nat.add_comm]
  rw [e, ← seq_append, List.take_append_drop]

/-- @main is the line of all its operations. -/
theorem main_eq (d : Dev nD) : main (F := F) d = seq (allOps (F := F)) := by
  have e0 : ∀ {Λ : Labels}, (seq (allOps (F := F)) : Prog (TpuEff nD τ sig (Elt F) Λ .tc) PUnit)
      = seq ((allOps (F := F)).take 61) >>= fun _ => seq ((allOps (F := F)).drop 61) := by
    intro Λ
    rw [← seq_append, List.take_append_drop]
  rw [e0, seq_drop _ 61 60 121 rfl, seq_drop _ 121 60 181 rfl, seq_drop _ 181 60 241 rfl, seq_drop _ 241 60 301 rfl, seq_drop _ 301 60 361 rfl, seq_drop _ 361 60 421 rfl, seq_drop _ 421 60 481 rfl, seq_drop _ 481 60 541 rfl, seq_drop _ 541 60 601 rfl]
  unfold main
  rw [part0_eq, part1_eq, part2_eq, part3_eq, part4_eq, part5_eq, part6_eq, part7_eq, part8_eq, part9_eq, part10_eq]

end Cert.ReferenceIdeal.RefValue

end
-- ==== Proof.RefStep.lean ====
/-
  The reference's side of the bilateral filter, at vector level and read at a pixel.

  The reference accumulates, over the 25 window offsets (i, j) in row-major order, the pair
      num += w ⊙ nbr,   den += w,      w = exp (-1/2 · (s + (∑ over channels of (nbr - x)²) · 100)),
  where nbr is the zero-padded image shifted by (i, j), x the image itself and s = (i - 2)² + (j - 2)²; its result is
  num / den (den repeated along the channel axis). Here that pair of updates is ONE function "stepV" of whole arrays, the
  run over the window is a left fold of it, and the fold read at a pixel (b, h, w) and a channel is the scalar fold of
  "Cert.Bilateral.step" over the neighbours of the pixel: so the reference's result is "Cert.Bilateral.result".
  The one arithmetic law used is 0 + x = x, for the channel sum's initial value.
-/
import proofs.«124676_j5042291605780_2_alg».proof.ReferenceIdeal
import proofs.«124676_j5042291605780_2_alg».proof.Proof.Gen.ReferenceIdeal
import proofs.«124676_j5042291605780_2_alg».proof.Proof.Spec
import Idealize.ShloMosaic.Lib.DynamicIndex
import Idealize.ShloMosaic.Lib.IdealHost

noncomputable section

namespace Cert.ReferenceIdeal.RefValue

open Cert.ReferenceIdeal Cert.ReferenceIdeal.Gen Idealize.ShloMosaic Idealize.ShloMosaic.ValueIdx

/-- An image-shaped array of extended reals: batch, row, column, channel. -/
abbrev Img : Type := FVec Ideal S16x512x512x3 .f32
/-- One extended real per pixel: batch, row, column. -/
abbrev Pix : Type := FVec Ideal S16x512x512 .f32

/-! ## The reference's operations on whole arrays -/

/-- The image with two rows and two columns of zeros on every side. -/
def padV (X : Img) : FVec Ideal S16x516x516x3 .f32 :=
  pad S16x516x516x3 ![0, 2, 2, 0] ![0, 2, 2, 0] ![0, 0, 0, 0] X (sitofp (F := Ideal) .f32 (constantI S_ 32 0#32)) pads_S16x512x512x3_S16x516x516x3_000_220_220_000 h_S_

/-- The padded image shifted by the window offset (i, j): the image-shaped block of it that starts at row i, column j. -/
def nbrV (X : Img) (i j : ℕ) : Img :=
  Host.dynamicSlice S16x512x512x3 (padV X) (fun k => (((![constantI S_ 32 0#32, constantI S_ 32 (BitVec.ofNat 32 i), constantI S_ 32 (BitVec.ofNat 32 j), constantI S_ 32 0#32] : Fin 4 → (⟨S_, .i32⟩ : BufTy).Contents (Elt Ideal))) k (Shape.Idx.first h_S_)).toInt) sliceFits_S16x516x516x3_S16x512x512x3

/-- The weights of the neighbour array N against the image X at squared window distance s, one per pixel. -/
def wV (X : Img) (s : BitVec 32) (N : Img) : Pix :=
  Host.exp (mulf (broadcastInDim S16x512x512 ![] bcast_S_S16x512x512 (constant (F := Ideal) S_ .f32 0xBF000000#32)) (addf (broadcastInDim S16x512x512 ![] bcast_S_S16x512x512 (constant (F := Ideal) S_ .f32 s)) (mulf (Host.reduceAdd (F := Ideal) (mulf (subf N X) (subf N X)) (constant (F := Ideal) S_ .f32 0x00000000#32) reducesTo_S16x512x512x3_S16x512x512_d3 h_S_) (broadcastInDim S16x512x512 ![] bcast_S_S16x512x512 (constant (F := Ideal) S_ .f32 0x42C80000#32)))))

/-- A per-pixel array repeated along the channel axis. -/
def upV (W : Pix) : Img :=
  broadcastInDim S16x512x512x3 ![0, 1, 2, 3] bcast_S16x512x512x1_S16x512x512x3_0_1_2_3 (broadcastInDim S16x512x512x1 ![0, 1, 2] bcast_S16x512x512_S16x512x512x1_0_1_2 W)

/-- One window offset added to the pair (weighted sum, sum of weights). -/
def stepV (X : Img) (s : BitVec 32) (N : Img) (a : Img × Pix) : Img × Pix :=
  (addf a.1 (mulf (upV (wV X s N)) N), addf a.2 (wV X s N))

/-- The weighted sum's initial value: zero everywhere. -/
def num0 : Img := broadcastInDim S16x512x512x3 ![] bcast_S_S16x512x512x3 (constant (F := Ideal) S_ .f32 0x00000000#32)
/-- The sum of weights' initial value: zero everywhere. -/
def den0 : Pix := broadcastInDim S16x512x512 ![] bcast_S_S16x512x512 (constant (F := Ideal) S_ .f32 0x00000000#32)

/-- The steps of a list of window entries (squared distance, row offset, column offset), in order. -/
def foldV (X : Img) (l : List (BitVec 32 × ℕ × ℕ)) (a : Img × Pix) : Img × Pix :=
  l.foldl (fun a t => stepV X t.1 (nbrV X t.2.1 t.2.2) a) a

/-- The reference's result: the weighted sum over the window divided by the sum of weights. -/
def resV (X : Img) : Img :=
  Host.divf (F := Ideal) (foldV X Cert.Bilateral.window (num0, den0)).1 (upV (foldV X Cert.Bilateral.window (num0, den0)).2)

/-! ## The operations read at a pixel -/

/-- The padded image is the specification's. -/
theorem padV_eq (X : Img) : padV X = Cert.Bilateral.padded X := rfl

/-- The channel sum's inserted index: pixel (b, h, w) with channel k is the image index (b, h, w, k). -/
theorem lift_ix (hR : S16x512x512x3.Reduces [3] S16x512x512) (b : Fin 16) (h w : Fin 512) (k : Fin 3) :
    hR.lift (ix3 b h w) k = ix4 b h w k := by
  funext a
  apply Fin.ext
  match a with
  | ⟨0, _⟩ => rfl
  | ⟨1, _⟩ => rfl
  | ⟨2, _⟩ => rfl
  | ⟨3, _⟩ => rfl

/-- A per-pixel array repeated along the channel axis reads, at (b, h, w, ch), the array at (b, h, w). -/
theorem upV_apply (W : Pix) (b : Fin 16) (h w : Fin 512) (ch : Fin 3) : upV W (ix4 b h w ch) = W (ix3 b h w) := by
  unfold upV broadcastInDim
  refine congrArg W (funext fun a => Fin.ext ?_)
  match a with
  | ⟨0, _⟩ => rfl
  | ⟨1, _⟩ => rfl
  | ⟨2, _⟩ => rfl

/-- The channel sum of squared differences at a pixel, from its initial value zero. -/
theorem cdist_apply (X N : Img) (b : Fin 16) (h w : Fin 512) :
    Ideal.hostReduceAdd reducesTo_S16x512x512x3_S16x512x512_d3 (mulf (subf N X) (subf N X)) (Ideal.ofBits .f32 0x00000000#32) (ix3 b h w)
      = ∑ k : Fin 3, (N (ix4 b h w k) - X (ix4 b h w k)) * (N (ix4 b h w k) - X (ix4 b h w k)) := by
  have hR : S16x512x512x3.Reduces [3] S16x512x512 := by decide
  refine (Ideal.hostReduceAdd_single reducesTo_S16x512x512x3_S16x512x512_d3 hR _ _ _).trans ?_
  rw [Ideal.ofBits_zero_f32, zero_add]
  exact Finset.sum_congr rfl fun k _ => congrArg (fun q => (N q - X q) * (N q - X q)) (lift_ix hR b h w k)

/-- The weight array at a pixel is the specification's weight of the neighbour's channels against the centre's. -/
theorem wV_apply (X N : Img) (s : BitVec 32) (b : Fin 16) (h w : Fin 512) :
    wV X s N (ix3 b h w) = Cert.Bilateral.weight s (fun k => N (ix4 b h w k)) (fun k => X (ix4 b h w k)) :=
  congrArg (fun S => Ideal.exp ((Ideal.ofBits .f32 0xBF000000#32 : EReal) * ((Ideal.ofBits .f32 s : EReal) + S * (Ideal.ofBits .f32 0x42C80000#32 : EReal))))
    (cdist_apply X N b h w)

/-- One step read at a pixel and a channel is the specification's step on the pair of entries there. -/
theorem stepV_apply (X N : Img) (s : BitVec 32) (a : Img × Pix) (b : Fin 16) (h w : Fin 512) (ch : Fin 3)
    (nb : Fin 3 → EReal) (hN : ∀ k, N (ix4 b h w k) = nb k) :
    ((stepV X s N a).1 (ix4 b h w ch), (stepV X s N a).2 (ix3 b h w))
      = Cert.Bilateral.step (fun k => X (ix4 b h w k)) ch (a.1 (ix4 b h w ch), a.2 (ix3 b h w)) (s, nb) := by
  obtain rfl : (fun k => N (ix4 b h w k)) = nb := funext hN
  unfold Cert.Bilateral.step stepV
  show (a.1 (ix4 b h w ch) + upV (wV X s N) (ix4 b h w ch) * N (ix4 b h w ch), a.2 (ix3 b h w) + wV X s N (ix3 b h w)) = _
  rw [upV_apply, wV_apply]

/-- The shifted padded image at (b, h, w, k) is the padded image at row h + i, column w + j. -/
theorem nbrV_apply (X : Img) (i j : ℕ) (hi : i ≤ 4) (hj : j ≤ 4) (b : Fin 16) (h w : Fin 512) (k : Fin 3) :
    nbrV X i j (ix4 b h w k) = Cert.Bilateral.rd (Cert.Bilateral.padded X) b (h.val + i) (w.val + j) k := by
  have hoff : S16x516x516x3.Slices ![0, i, j, 0] S16x512x512x3 := ⟨rfl, fun a => by
    match a with
    | ⟨0, _⟩ => show 0 + 16 ≤ 16; omega
    | ⟨1, _⟩ => show i + 512 ≤ 516; omega
    | ⟨2, _⟩ => show j + 512 ≤ 516; omega
    | ⟨3, _⟩ => show 0 + 3 ≤ 3; omega⟩
  unfold nbrV
  rw [Host.dynamicSlice_eq_extractStridedSlice S16x512x512x3 (padV X) _ ![0, i, j, 0] _ hoff (fun a => by
    match a with
    | ⟨0, _⟩ => exact toInt_ofNat_of_lt (k := 0) (by omega)
    | ⟨1, _⟩ => exact toInt_ofNat_of_lt (k := i) (by omega)
    | ⟨2, _⟩ => exact toInt_ofNat_of_lt (k := j) (by omega)
    | ⟨3, _⟩ => exact toInt_ofNat_of_lt (k := 0) (by omega)), padV_eq]
  exact Cert.Bilateral.rd_of_coords (Cert.Bilateral.padded X) b (h.val + i) (w.val + j) k _
    (Nat.zero_add _) (Nat.add_comm _ _) (Nat.add_comm _ _) (Nat.zero_add _)

/-! ## The fold read at a pixel -/

theorem foldV_nil (X : Img) (a : Img × Pix) : foldV X [] a = a := rfl
theorem foldV_cons (X : Img) (t : BitVec 32 × ℕ × ℕ) (l : List (BitVec 32 × ℕ × ℕ)) (a : Img × Pix) :
    foldV X (t :: l) a = foldV X l (stepV X t.1 (nbrV X t.2.1 t.2.2) a) := rfl

/-- The steps of a list of window entries, read at a pixel and a channel, are the scalar steps over the pixel's neighbours. -/
theorem foldV_apply (X : Img) (b : Fin 16) (h w : Fin 512) (ch : Fin 3) (l : List (BitVec 32 × ℕ × ℕ))
    (hl : ∀ t ∈ l, t.2.1 ≤ 4 ∧ t.2.2 ≤ 4) (a : Img × Pix) :
    ((foldV X l a).1 (ix4 b h w ch), (foldV X l a).2 (ix3 b h w))
      = (l.map fun t => (t.1, fun k => Cert.Bilateral.rd (Cert.Bilateral.padded X) b (h.val + t.2.1) (w.val + t.2.2) k)).foldl
          (Cert.Bilateral.step (fun k => X (ix4 b h w k)) ch) (a.1 (ix4 b h w ch), a.2 (ix3 b h w)) := by
  induction l generalizing a with
  | nil => rfl
  | cons t l ih =>
    have ht := hl t List.mem_cons_self
    rw [foldV_cons, ih (fun t' ht' => hl t' (List.mem_cons_of_mem _ ht')), List.map_cons, List.foldl_cons]
    exact congrArg (fun z => List.foldl (Cert.Bilateral.step (fun k => X (ix4 b h w k)) ch) z _)
      (stepV_apply X _ t.1 a b h w ch _ fun k => nbrV_apply X _ _ ht.1 ht.2 b h w k)

/-- Every window offset is at most 4. -/
theorem window_le : ∀ t ∈ Cert.Bilateral.window, t.2.1 ≤ 4 ∧ t.2.2 ≤ 4 := by
  unfold Cert.Bilateral.window
  decide

/-- The reference's result is the filtered image of the specification. -/
theorem resV_eq (X : Img) : resV X = Cert.Bilateral.result X := by
  funext q
  obtain ⟨b, h, w, ch, rfl⟩ : ∃ (b : Fin 16) (h w : Fin 512) (ch : Fin 3), q = ix4 b h w ch := ⟨q 0, q 1, q 2, q 3, eq_ix4 q⟩
  rw [Cert.Bilateral.result_apply]
  have hf : ((foldV X Cert.Bilateral.window (num0, den0)).1 (ix4 b h w ch), (foldV X Cert.Bilateral.window (num0, den0)).2 (ix3 b h w))
      = (Cert.Bilateral.window.map fun t => (t.1, fun k => Cert.Bilateral.rd (Cert.Bilateral.padded X) b (h.val + t.2.1) (w.val + t.2.2) k)).foldl
          (Cert.Bilateral.step (fun k => X (ix4 b h w k)) ch)
          ((Ideal.ofBits .f32 0x00000000#32 : EReal), (Ideal.ofBits .f32 0x00000000#32 : EReal)) :=
    foldV_apply X b h w ch Cert.Bilateral.window window_le (num0, den0)
  have hc : (fun k => Cert.Bilateral.rd (Cert.Bilateral.padded X) b (h.val + 2) (w.val + 2) k) = fun k => X (ix4 b h w k) :=
    funext fun k => Cert.Bilateral.rd_centre X b h w k
  unfold Cert.Bilateral.filt Cert.Bilateral.neighbours
  rw [hc, ← hf]
  show Ideal.div ((foldV X Cert.Bilateral.window (num0, den0)).1 (ix4 b h w ch)) (upV (foldV X Cert.Bilateral.window (num0, den0)).2 (ix4 b h w ch)) = _
  rw [upV_apply]

end Cert.ReferenceIdeal.RefValue

end
-- ==== Proof.RefStretchLib.lean ====
/-
  The reference's program as a line of operations, cut into stretches: what the buffers hold after a stretch.

  The reference's @main is 610 operations in a row: 7 that build the zero-padded image and the two zero accumulators, then 25 stretches
  of 24 operations, one per window offset, each reading the padded image, the input image and the two accumulators and writing the two
  next accumulators, then 3 that divide. What a line of operations leaves in the buffers is computed operation by operation; two lines
  one after the other leave what the second leaves from what the first left. This module has that law, the block a stretch reads, and
  the first 7 and the last 3 operations; the 25 stretches follow in sibling modules.
-/
import proofs.«124676_j5042291605780_2_alg».proof.Proof.RefStep
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Two lines of operations one after the other: the second runs from what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The block of the padded image that a stretch reads, whatever way its four start indices are written. -/
theorem slice_eq_nbrV (V : Valuation τ sig (Elt Ideal)) (X : Img) (i j : ℕ) (st : Fin 4 → Int)
    (h0 : V (Proc.devRef .tc main_v0) = padV X)
    (hst : ∀ k, st k = (((![constantI S_ 32 0#32, constantI S_ 32 (BitVec.ofNat 32 i), constantI S_ 32 (BitVec.ofNat 32 j), constantI S_ 32 0#32] : Fin 4 → (⟨S_, .i32⟩ : BufTy).Contents (Elt Ideal))) k (Shape.Idx.first h_S_)).toInt) :
    Host.dynamicSlice S16x512x512x3 (V (Proc.devRef .tc main_v0)) st sliceFits_S16x516x516x3_S16x512x512x3 = nbrV X i j := by
  rw [h0, funext hst]; rfl

section
variable {F : FTy → Type} [FloatOps F]
/-- The first 7 operations: the padding value, the padded image, the two zero accumulators. -/
abbrev opsPre : List (HloOp τ sig (Elt F)) :=
  [
    nullary main_c (constantI S_ 32 0#32),
    TRef.unary (TRef.of (T := ⟨S_, .i32⟩) main_c) (TRef.of (T := ⟨S_, .f32⟩) main_call0_v0) (sitofp .f32),
    TRef.binary (TRef.of (T := ⟨S16x512x512x3, .f32⟩) main_arg0) (TRef.of (T := ⟨S_, .f32⟩) main_call0_v0) (TRef.of (T := ⟨S16x516x516x3, .f32⟩) main_v0) (fun x v => pad S16x516x516x3 ![0, 2, 2, 0] ![0, 2, 2, 0] ![0, 0, 0, 0] x v pads_S16x512x512x3_S16x516x516x3_000_220_220_000 h_S_),
    nullary main_cst (constant S_ .f32 0x00000000#32),
    unary main_cst main_v1 (broadcastInDim S16x512x512x3 ![] bcast_S_S16x512x512x3 : (⟨S_, .f32⟩ : BufTy).Contents (Elt F) → (⟨S16x512x512x3, .f32⟩ : BufTy).Contents (Elt F)),
    nullary main_cst_0 (constant S_ .f32 0x00000000#32),
    unary main_cst_0 main_v2 (broadcastInDim S16x512x512 ![] bcast_S_S16x512x512 : (⟨S_, .f32⟩ : BufTy).Contents (Elt F) → (⟨S16x512x512, .f32⟩ : BufTy).Contents (Elt F)) ]
/-- The last 3 operations: the sum of weights repeated along the channel axis, and the quotient. -/
abbrev opsPost : List (HloOp τ sig (Elt F)) :=
  [
    unary main_v402 main_v403 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v403 main_v404 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v401 main_v404 main_v405 (Host.divf : (⟨S16x512x512x3, .f32⟩ : BufTy).Contents (Elt F) → (⟨S16x512x512x3, .f32⟩ : BufTy).Contents (Elt F) → (⟨S16x512x512x3, .f32⟩ : BufTy).Contents (Elt F)) ]
end

theorem opsPre_fresh : ∀ op ∈ (opsPre (F := Ideal)), op.fresh = ∅ := by
  intro _ h; (repeat (cases h with | head => rfl | tail _ h => ?_)); exact nomatch h
theorem opsPost_fresh : ∀ op ∈ (opsPost (F := Ideal)), op.fresh = ∅ := by
  intro _ h; (repeat (cases h with | head => rfl | tail _ h => ?_)); exact nomatch h

set_option maxHeartbeats 40000000 in
/-- After the first 7 operations: the padded image, the input image untouched, and the two accumulators at zero. -/
theorem pre_inv (V : Valuation τ sig (Elt Ideal)) :
    after (opsPre (F := Ideal)) V (Proc.devRef .tc main_v0) = padV (V (Proc.devRef .tc main_arg0))
    ∧ after (opsPre (F := Ideal)) V (Proc.devRef .tc main_arg0) = V (Proc.devRef .tc main_arg0)
    ∧ after (opsPre (F := Ideal)) V (Proc.devRef .tc main_v1) = (num0, den0).1
    ∧ after (opsPre (F := Ideal)) V (Proc.devRef .tc main_v2) = (num0, den0).2 := by
  refine ⟨?_, ?_, ?_, ?_⟩
  · after_results_simp; rfl
  · after_results_simp
  · after_results_simp; rfl
  · after_results_simp; rfl

set_option maxHeartbeats 40000000 in
/-- After the last 3 operations: the quotient of the two accumulators, and the input image untouched. -/
theorem post_res (V : Valuation τ sig (Elt Ideal)) (X : Img) (a : Img × Pix)
    (hx : V (Proc.devRef .tc main_arg0) = X) (hn : V (Proc.devRef .tc main_v401) = a.1) (hd : V (Proc.devRef .tc main_v402) = a.2) :
    after (opsPost (F := Ideal)) V (Proc.devRef .tc main_v405) = Host.divf (F := Ideal) a.1 (upV a.2)
    ∧ after (opsPost (F := Ideal)) V (Proc.devRef .tc main_arg0) = X := by
  refine ⟨?_, ?_⟩
  · after_results_simp; rw [hn, hd]; rfl
  · after_results_simp; exact hx

end Cert.ReferenceIdeal.RefValue

end
-- ==== Proof.RefStretchA.lean ====
/-
  The reference's stretches of window row 0: the five window offsets (0, 0) … (0, 4), 24 operations each.

  Each stretch reads the padded image at its offset, subtracts the input image, sums the squared differences over the channels, forms
  the weight, and adds the weighted neighbour and the weight to the two accumulators; read through the line of operations, the two
  buffers it writes hold one step of the pair before, and the padded image and the input image are untouched.
-/
import proofs.«124676_j5042291605780_2_alg».proof.Proof.RefStep
import Idealize.ShloMosaic.Lib.StableHlo.Run
import proofs.«124676_j5042291605780_2_alg».proof.Proof.RefStretchLib

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]
/-- The 24 operations of window offset (0, 0). -/
abbrev s01 : List (HloOp τ sig (Elt F)) :=
  [
    nullary main_c_1 (constantI S_ 32 0#32),
    nullary main_c_2 (constantI S_ 32 0#32),
    nullary main_c_3 (constantI S_ 32 0#32),
    nullary main_c_4 (constantI S_ 32 0#32),
    unaryIndexed main_v0 ![main_c_1, main_c_2, main_c_3, main_c_4] ⟨S_, .i32⟩ main_v3 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v3 main_arg0 main_v4 (subf : (⟨S16x512x512x3, .f32⟩ : BufTy).Contents (Elt F) → (⟨S16x512x512x3, .f32⟩ : BufTy).Contents (Elt F) → (⟨S16x512x512x3, .f32⟩ : BufTy).Contents (Elt F)),
    binary main_v4 main_v4 main_v5 (mulf : (⟨S16x512x512x3, .f32⟩ : BufTy).Contents (Elt F) → (⟨S16x512x512x3, .f32⟩ : BufTy).Contents (Elt F) → (⟨S16x512x512x3, .f32⟩ : BufTy).Contents (Elt F)),
    nullary main_cst_5 (constant S_ .f32 0x00000000#32),
    binary main_v5 main_cst_5 main_v6 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_6 (constant S_ .f32 0x42C80000#32),
    unary main_cst_6 main_v7 (broadcastInDim S16x512x512 ![] bcast_S_S16x512x512 : (⟨S_, .f32⟩ : BufTy).Contents (Elt F) → (⟨S16x512x512, .f32⟩ : BufTy).Contents (Elt F)),
    binary main_v6 main_v7 main_v8 (mulf : (⟨S16x512x512, .f32⟩ : BufTy).Contents (Elt F) → (⟨S16x512x512, .f32⟩ : BufTy).Contents (Elt F) → (⟨S16x512x512, .f32⟩ : BufTy).Contents (Elt F)),
    nullary main_cst_7 (constant S_ .f32 0x41000000#32),
    unary main_cst_7 main_v9 (broadcastInDim S16x512x512 ![] bcast_S_S16x512x512 : (⟨S_, .f32⟩ : BufTy).Contents (Elt F) → (⟨S16x512x512, .f32⟩ : BufTy).Contents (Elt F)),
    binary main_v9 main_v8 main_v10 (addf : (⟨S16x512x512, .f32⟩ : BufTy).Contents (Elt F) → (⟨S16x512x512, .f32⟩ : BufTy).Contents (Elt F) → (⟨S16x512x512, .f32⟩ : BufTy).Contents (Elt F)),
    nullary main_cst_8 (constant S_ .f32 0xBF000000#32),
    unary main_cst_8 main_v11 (broadcastInDim S16x512x512 ![] bcast_S_S16x512x512 : (⟨S_, .f32⟩ : BufTy).Contents (Elt F) → (⟨S16x512x512, .f32⟩ : BufTy).Contents (Elt F)),
    binary main_v11 main_v10 main_v12 (mulf : (⟨S16x512x512, .f32⟩ : BufTy).Contents (Elt F) → (⟨S16x512x512, .f32⟩ : BufTy).Contents (Elt F) → (⟨S16x512x512, .f32⟩ : BufTy).Contents (Elt F)),
    unary main_v12 main_v13 (Host.exp : (⟨S16x512x512, .f32⟩ : BufTy).Contents (Elt F) → (⟨S16x512x512, .f32⟩ : BufTy).Contents (Elt F)),
    unary main_v13 main_v14 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v14 main_v15 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v15 main_v3 main_v16 (mulf : (⟨S16x512x512x3, .f32⟩ : BufTy).Contents (Elt F) → (⟨S16x512x512x3, .f32⟩ : BufTy).Contents (Elt F) → (⟨S16x512x512x3, .f32⟩ : BufTy).Contents (Elt F)),
    binary main_v1 main_v16 main_v17 (addf : (⟨S16x512x512x3, .f32⟩ : BufTy).Contents (Elt F) → (⟨S16x512x512x3, .f32⟩ : BufTy).Contents (Elt F) → (⟨S16x512x512x3, .f32⟩ : BufTy).Contents (Elt F)),
    binary main_v2 main_v13 main_v18 (addf : (⟨S16x512x512, .f32⟩ : BufTy).Contents (Elt F) → (⟨S16x512x512, .f32⟩ : BufTy).Contents (Elt F) → (⟨S16x512x512, .f32⟩ : BufTy).Contents (Elt F)) ]
end

theorem s01_fresh : ∀ op ∈ (s01 (F := Ideal)), op.fresh = ∅ := by
  intro _ h; (repeat (cases h with | head => rfl | tail _ h => ?_)); exact nomatch h

set_option maxHeartbeats 40000000 in
/-- Across the stretch of window offset (0, 0): the padded image and the input image are untouched, and the next pair of
    accumulators is one step of the pair before. -/
theorem stretch01 (V : Valuation τ sig (Elt Ideal)) (X : Img) (a : Img × Pix)
    (h0 : V (Proc.devRef .tc main_v0) = padV X) (hx : V (Proc.devRef .tc main_arg0) = X)
    (hn : V (Proc.devRef .tc main_v1) = a.1) (hd : V (Proc.devRef .tc main_v2) = a.2) :
    after (s01 (F := Ideal)) V (Proc.devRef .tc main_v0) = padV X
    ∧ after (s01 (F := Ideal)) V (Proc.devRef .tc main_arg0) = X
    ∧ after (s01 (F := Ideal)) V (Proc.devRef .tc main_v17) = (stepV X 0x41000000#32 (nbrV X 0 0) a).1
    ∧ after (s01 (F := Ideal)) V (Proc.devRef .tc main_v18) = (stepV X 0x41000000#32 (nbrV X 0 0) a).2 := by
  refine ⟨?_, ?_, ?_, ?_⟩
  · after_results_simp; exact h0
  · after_results_simp; exact hx
  · after_results_simp
    rw [slice_eq_nbrV V X 0 0 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 0 0 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (0, 1). -/
abbrev s02 : List (HloOp τ sig (Elt F)) :=
  [
    nullary main_c_9 (constantI S_ 32 0#32),
    nullary main_c_10 (constantI S_ 32 0#32),
    nullary main_c_11 (constantI S_ 32 1#32),
    nullary main_c_12 (constantI S_ 32 0#32),
    unaryIndexed main_v0 ![main_c_9, main_c_10, main_c_11, main_c_12] ⟨S_, .i32⟩ main_v19 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v19 main_arg0 main_v20 (subf : (⟨S16x512x512x3, .f32⟩ : BufTy).Contents (Elt F) → (⟨S16x512x512x3, .f32⟩ : BufTy).Contents (Elt F) → (⟨S16x512x512x3, .f32⟩ : BufTy).Contents (Elt F)),
    binary main_v20 main_v20 main_v21 (mulf : (⟨S16x512x512x3, .f32⟩ : BufTy).Contents (Elt F) → (⟨S16x512x512x3, .f32⟩ : BufTy).Contents (Elt F) → (⟨S16x512x512x3, .f32⟩ : BufTy).Contents (Elt F)),
    nullary main_cst_13 (constant S_ .f32 0x00000000#32),
    binary main_v21 main_cst_13 main_v22 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_14 (constant S_ .f32 0x42C80000#32),
    unary main_cst_14 main_v23 (broadcastInDim S16x512x512 ![] bcast_S_S16x512x512 : (⟨S_, .f32⟩ : BufTy).Contents (Elt F) → (⟨S16x512x512, .f32⟩ : BufTy).Contents (Elt F)),
    binary main_v22 main_v23 main_v24 (mulf : (⟨S16x512x512, .f32⟩ : BufTy).Contents (Elt F) → (⟨S16x512x512, .f32⟩ : BufTy).Contents (Elt F) → (⟨S16x512x512, .f32⟩ : BufTy).Contents (Elt F)),
    nullary main_cst_15 (constant S_ .f32 0x40A00000#32),
    unary main_cst_15 main_v25 (broadcastInDim S16x512x512 ![] bcast_S_S16x512x512 : (⟨S_, .f32⟩ : BufTy).Contents (Elt F) → (⟨S16x512x512, .f32⟩ : BufTy).Contents (Elt F)),
    binary main_v25 main_v24 main_v26 (addf : (⟨S16x512x512, .f32⟩ : BufTy).Contents (Elt F) → (⟨S16x512x512, .f32⟩ : BufTy).Contents (Elt F) → (⟨S16x512x512, .f32⟩ : BufTy).Contents (Elt F)),
    nullary main_cst_16 (constant S_ .f32 0xBF000000#32),
    unary main_cst_16 main_v27 (broadcastInDim S16x512x512 ![] bcast_S_S16x512x512 : (⟨S_, .f32⟩ : BufTy).Contents (Elt F) → (⟨S16x512x512, .f32⟩ : BufTy).Contents (Elt F)),
    binary main_v27 main_v26 main_v28 (mulf : (⟨S16x512x512, .f32⟩ : BufTy).Contents (Elt F) → (⟨S16x512x512, .f32⟩ : BufTy).Contents (Elt F) → (⟨S16x512x512, .f32⟩ : BufTy).Contents (Elt F)),
    unary main_v28 main_v29 (Host.exp : (⟨S16x512x512, .f32⟩ : BufTy).Contents (Elt F) → (⟨S16x512x512, .f32⟩ : BufTy).Contents (Elt F)),
    unary main_v29 main_v30 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v30 main_v31 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v31 main_v19 main_v32 (mulf : (⟨S16x512x512x3, .f32⟩ : BufTy).Contents (Elt F) → (⟨S16x512x512x3, .f32⟩ : BufTy).Contents (Elt F) → (⟨S16x512x512x3, .f32⟩ : BufTy).Contents (Elt F)),
    binary main_v17 main_v32 main_v33 (addf : (⟨S16x512x512x3, .f32⟩ : BufTy).Contents (Elt F) → (⟨S16x512x512x3, .f32⟩ : BufTy).Contents (Elt F) → (⟨S16x512x512x3, .f32⟩ : BufTy).Contents (Elt F)),
    binary main_v18 main_v29 main_v34 (addf : (⟨S16x512x512, .f32⟩ : BufTy).Contents (Elt F) → (⟨S16x512x512, .f32⟩ : BufTy).Contents (Elt F) → (⟨S16x512x512, .f32⟩ : BufTy).Contents (Elt F)) ]
end

theorem s02_fresh : ∀ op ∈ (s02 (F := Ideal)), op.fresh = ∅ := by
  intro _ h; (repeat (cases h with | head => rfl | tail _ h => ?_)); exact nomatch h

set_option maxHeartbeats 40000000 in
/-- Across the stretch of window offset (0, 1): the padded image and the input image are untouched, and the next pair of
    accumulators is one step of the pair before. -/
theorem stretch02 (V : Valuation τ sig (Elt Ideal)) (X : Img) (a : Img × Pix)
    (h0 : V (Proc.devRef .tc main_v0) = padV X) (hx : V (Proc.devRef .tc main_arg0) = X)
    (hn : V (Proc.devRef .tc main_v17) = a.1) (hd : V (Proc.devRef .tc main_v18) = a.2) :
    after (s02 (F := Ideal)) V (Proc.devRef .tc main_v0) = padV X
    ∧ after (s02 (F := Ideal)) V (Proc.devRef .tc main_arg0) = X
    ∧ after (s02 (F := Ideal)) V (Proc.devRef .tc main_v33) = (stepV X 0x40A00000#32 (nbrV X 0 1) a).1
    ∧ after (s02 (F := Ideal)) V (Proc.devRef .tc main_v34) = (stepV X 0x40A00000#32 (nbrV X 0 1) a).2 := by
  refine ⟨?_, ?_, ?_, ?_⟩
  · after_results_simp; exact h0
  · after_results_simp; exact hx
  · after_results_simp
    rw [slice_eq_nbrV V X 0 1 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 0 1 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (0, 2). -/
abbrev s03 : List (HloOp τ sig (Elt F)) :=
  [
    nullary main_c_17 (constantI S_ 32 0#32),
    nullary main_c_18 (constantI S_ 32 0#32),
    nullary main_c_19 (constantI S_ 32 2#32),
    nullary main_c_20 (constantI S_ 32 0#32),
    unaryIndexed main_v0 ![main_c_17, main_c_18, main_c_19, main_c_20] ⟨S_, .i32⟩ main_v35 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v35 main_arg0 main_v36 (subf : (⟨S16x512x512x3, .f32⟩ : BufTy).Contents (Elt F) → (⟨S16x512x512x3, .f32⟩ : BufTy).Contents (Elt F) → (⟨S16x512x512x3, .f32⟩ : BufTy).Contents (Elt F)),
    binary main_v36 main_v36 main_v37 (mulf : (⟨S16x512x512x3, .f32⟩ : BufTy).Contents (Elt F) → (⟨S16x512x512x3, .f32⟩ : BufTy).Contents (Elt F) → (⟨S16x512x512x3, .f32⟩ : BufTy).Contents (Elt F)),
    nullary main_cst_21 (constant S_ .f32 0x00000000#32),
    binary main_v37 main_cst_21 main_v38 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_22 (constant S_ .f32 0x42C80000#32),
    unary main_cst_22 main_v39 (broadcastInDim S16x512x512 ![] bcast_S_S16x512x512 : (⟨S_, .f32⟩ : BufTy).Contents (Elt F) → (⟨S16x512x512, .f32⟩ : BufTy).Contents (Elt F)),
    binary main_v38 main_v39 main_v40 (mulf : (⟨S16x512x512, .f32⟩ : BufTy).Contents (Elt F) → (⟨S16x512x512, .f32⟩ : BufTy).Contents (Elt F) → (⟨S16x512x512, .f32⟩ : BufTy).Contents (Elt F)),
    nullary main_cst_23 (constant S_ .f32 0x40800000#32),
    unary main_cst_23 main_v41 (broadcastInDim S16x512x512 ![] bcast_S_S16x512x512 : (⟨S_, .f32⟩ : BufTy).Contents (Elt F) → (⟨S16x512x512, .f32⟩ : BufTy).Contents (Elt F)),
    binary main_v41 main_v40 main_v42 (addf : (⟨S16x512x512, .f32⟩ : BufTy).Contents (Elt F) → (⟨S16x512x512, .f32⟩ : BufTy).Contents (Elt F) → (⟨S16x512x512, .f32⟩ : BufTy).Contents (Elt F)),
    nullary main_cst_24 (constant S_ .f32 0xBF000000#32),
    unary main_cst_24 main_v43 (broadcastInDim S16x512x512 ![] bcast_S_S16x512x512 : (⟨S_, .f32⟩ : BufTy).Contents (Elt F) → (⟨S16x512x512, .f32⟩ : BufTy).Contents (Elt F)),
    binary main_v43 main_v42 main_v44 (mulf : (⟨S16x512x512, .f32⟩ : BufTy).Contents (Elt F) → (⟨S16x512x512, .f32⟩ : BufTy).Contents (Elt F) → (⟨S16x512x512, .f32⟩ : BufTy).Contents (Elt F)),
    unary main_v44 main_v45 (Host.exp : (⟨S16x512x512, .f32⟩ : BufTy).Contents (Elt F) → (⟨S16x512x512, .f32⟩ : BufTy).Contents (Elt F)),
    unary main_v45 main_v46 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v46 main_v47 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v47 main_v35 main_v48 (mulf : (⟨S16x512x512x3, .f32⟩ : BufTy).Contents (Elt F) → (⟨S16x512x512x3, .f32⟩ : BufTy).Contents (Elt F) → (⟨S16x512x512x3, .f32⟩ : BufTy).Contents (Elt F)),
    binary main_v33 main_v48 main_v49 (addf : (⟨S16x512x512x3, .f32⟩ : BufTy).Contents (Elt F) → (⟨S16x512x512x3, .f32⟩ : BufTy).Contents (Elt F) → (⟨S16x512x512x3, .f32⟩ : BufTy).Contents (Elt F)),
    binary main_v34 main_v45 main_v50 (addf : (⟨S16x512x512, .f32⟩ : BufTy).Contents (Elt F) → (⟨S16x512x512, .f32⟩ : BufTy).Contents (Elt F) → (⟨S16x512x512, .f32⟩ : BufTy).Contents (Elt F)) ]
end

theorem s03_fresh : ∀ op ∈ (s03 (F := Ideal)), op.fresh = ∅ := by
  intro _ h; (repeat (cases h with | head => rfl | tail _ h => ?_)); exact nomatch h

set_option maxHeartbeats 40000000 in
/-- Across the stretch of window offset (0, 2): the padded image and the input image are untouched, and the next pair of
    accumulators is one step of the pair before. -/
theorem stretch03 (V : Valuation τ sig (Elt Ideal)) (X : Img) (a : Img × Pix)
    (h0 : V (Proc.devRef .tc main_v0) = padV X) (hx : V (Proc.devRef .tc main_arg0) = X)
    (hn : V (Proc.devRef .tc main_v33) = a.1) (hd : V (Proc.devRef .tc main_v34) = a.2) :
    after (s03 (F := Ideal)) V (Proc.devRef .tc main_v0) = padV X
    ∧ after (s03 (F := Ideal)) V (Proc.devRef .tc main_arg0) = X
    ∧ after (s03 (F := Ideal)) V (Proc.devRef .tc main_v49) = (stepV X 0x40800000#32 (nbrV X 0 2) a).1
    ∧ after (s03 (F := Ideal)) V (Proc.devRef .tc main_v50) = (stepV X 0x40800000#32 (nbrV X 0 2) a).2 := by
  refine ⟨?_, ?_, ?_, ?_⟩
  · after_results_simp; exact h0
  · after_results_simp; exact hx
  · after_results_simp
    rw [slice_eq_nbrV V X 0 2 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 0 2 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (0, 3). -/
abbrev s04 : List (HloOp τ sig (Elt F)) :=
  [
    nullary main_c_25 (constantI S_ 32 0#32),
    nullary main_c_26 (constantI S_ 32 0#32),
    nullary main_c_27 (constantI S_ 32 3#32),
    nullary main_c_28 (constantI S_ 32 0#32),
    unaryIndexed main_v0 ![main_c_25, main_c_26, main_c_27, main_c_28] ⟨S_, .i32⟩ main_v51 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v51 main_arg0 main_v52 (subf : (⟨S16x512x512x3, .f32⟩ : BufTy).Contents (Elt F) → (⟨S16x512x512x3, .f32⟩ : BufTy).Contents (Elt F) → (⟨S16x512x512x3, .f32⟩ : BufTy).Contents (Elt F)),
    binary main_v52 main_v52 main_v53 (mulf : (⟨S16x512x512x3, .f32⟩ : BufTy).Contents (Elt F) → (⟨S16x512x512x3, .f32⟩ : BufTy).Contents (Elt F) → (⟨S16x512x512x3, .f32⟩ : BufTy).Contents (Elt F)),
    nullary main_cst_29 (constant S_ .f32 0x00000000#32),
    binary main_v53 main_cst_29 main_v54 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_30 (constant S_ .f32 0x42C80000#32),
    unary main_cst_30 main_v55 (broadcastInDim S16x512x512 ![] bcast_S_S16x512x512 : (⟨S_, .f32⟩ : BufTy).Contents (Elt F) → (⟨S16x512x512, .f32⟩ : BufTy).Contents (Elt F)),
    binary main_v54 main_v55 main_v56 (mulf : (⟨S16x512x512, .f32⟩ : BufTy).Contents (Elt F) → (⟨S16x512x512, .f32⟩ : BufTy).Contents (Elt F) → (⟨S16x512x512, .f32⟩ : BufTy).Contents (Elt F)),
    nullary main_cst_31 (constant S_ .f32 0x40A00000#32),
    unary main_cst_31 main_v57 (broadcastInDim S16x512x512 ![] bcast_S_S16x512x512 : (⟨S_, .f32⟩ : BufTy).Contents (Elt F) → (⟨S16x512x512, .f32⟩ : BufTy).Contents (Elt F)),
    binary main_v57 main_v56 main_v58 (addf : (⟨S16x512x512, .f32⟩ : BufTy).Contents (Elt F) → (⟨S16x512x512, .f32⟩ : BufTy).Contents (Elt F) → (⟨S16x512x512, .f32⟩ : BufTy).Contents (Elt F)),
    nullary main_cst_32 (constant S_ .f32 0xBF000000#32),
    unary main_cst_32 main_v59 (broadcastInDim S16x512x512 ![] bcast_S_S16x512x512 : (⟨S_, .f32⟩ : BufTy).Contents (Elt F) → (⟨S16x512x512, .f32⟩ : BufTy).Contents (Elt F)),
    binary main_v59 main_v58 main_v60 (mulf : (⟨S16x512x512, .f32⟩ : BufTy).Contents (Elt F) → (⟨S16x512x512, .f32⟩ : BufTy).Contents (Elt F) → (⟨S16x512x512, .f32⟩ : BufTy).Contents (Elt F)),
    unary main_v60 main_v61 (Host.exp : (⟨S16x512x512, .f32⟩ : BufTy).Contents (Elt F) → (⟨S16x512x512, .f32⟩ : BufTy).Contents (Elt F)),
    unary main_v61 main_v62 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v62 main_v63 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v63 main_v51 main_v64 (mulf : (⟨S16x512x512x3, .f32⟩ : BufTy).Contents (Elt F) → (⟨S16x512x512x3, .f32⟩ : BufTy).Contents (Elt F) → (⟨S16x512x512x3, .f32⟩ : BufTy).Contents (Elt F)),
    binary main_v49 main_v64 main_v65 (addf : (⟨S16x512x512x3, .f32⟩ : BufTy).Contents (Elt F) → (⟨S16x512x512x3, .f32⟩ : BufTy).Contents (Elt F) → (⟨S16x512x512x3, .f32⟩ : BufTy).Contents (Elt F)),
    binary main_v50 main_v61 main_v66 (addf : (⟨S16x512x512, .f32⟩ : BufTy).Contents (Elt F) → (⟨S16x512x512, .f32⟩ : BufTy).Contents (Elt F) → (⟨S16x512x512, .f32⟩ : BufTy).Contents (Elt F)) ]
end

theorem s04_fresh : ∀ op ∈ (s04 (F := Ideal)), op.fresh = ∅ := by
  intro _ h; (repeat (cases h with | head => rfl | tail _ h => ?_)); exact nomatch h

set_option maxHeartbeats 40000000 in
/-- Across the stretch of window offset (0, 3): the padded image and the input image are untouched, and the next pair of
    accumulators is one step of the pair before. -/
theorem stretch04 (V : Valuation τ sig (Elt Ideal)) (X : Img) (a : Img × Pix)
    (h0 : V (Proc.devRef .tc main_v0) = padV X) (hx : V (Proc.devRef .tc main_arg0) = X)
    (hn : V (Proc.devRef .tc main_v49) = a.1) (hd : V (Proc.devRef .tc main_v50) = a.2) :
    after (s04 (F := Ideal)) V (Proc.devRef .tc main_v0) = padV X
    ∧ after (s04 (F := Ideal)) V (Proc.devRef .tc main_arg0) = X
    ∧ after (s04 (F := Ideal)) V (Proc.devRef .tc main_v65) = (stepV X 0x40A00000#32 (nbrV X 0 3) a).1
    ∧ after (s04 (F := Ideal)) V (Proc.devRef .tc main_v66) = (stepV X 0x40A00000#32 (nbrV X 0 3) a).2 := by
  refine ⟨?_, ?_, ?_, ?_⟩
  · after_results_simp; exact h0
  · after_results_simp; exact hx
  · after_results_simp
    rw [slice_eq_nbrV V X 0 3 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 0 3 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (0, 4). -/
abbrev s05 : List (HloOp τ sig (Elt F)) :=
  [
    nullary main_c_33 (constantI S_ 32 0#32),
    nullary main_c_34 (constantI S_ 32 0#32),
    nullary main_c_35 (constantI S_ 32 4#32),
    nullary main_c_36 (constantI S_ 32 0#32),
    unaryIndexed main_v0 ![main_c_33, main_c_34, main_c_35, main_c_36] ⟨S_, .i32⟩ main_v67 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v67 main_arg0 main_v68 (subf : (⟨S16x512x512x3, .f32⟩ : BufTy).Contents (Elt F) → (⟨S16x512x512x3, .f32⟩ : BufTy).Contents (Elt F) → (⟨S16x512x512x3, .f32⟩ : BufTy).Contents (Elt F)),
    binary main_v68 main_v68 main_v69 (mulf : (⟨S16x512x512x3, .f32⟩ : BufTy).Contents (Elt F) → (⟨S16x512x512x3, .f32⟩ : BufTy).Contents (Elt F) → (⟨S16x512x512x3, .f32⟩ : BufTy).Contents (Elt F)),
    nullary main_cst_37 (constant S_ .f32 0x00000000#32),
    binary main_v69 main_cst_37 main_v70 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_38 (constant S_ .f32 0x42C80000#32),
    unary main_cst_38 main_v71 (broadcastInDim S16x512x512 ![] bcast_S_S16x512x512 : (⟨S_, .f32⟩ : BufTy).Contents (Elt F) → (⟨S16x512x512, .f32⟩ : BufTy).Contents (Elt F)),
    binary main_v70 main_v71 main_v72 (mulf : (⟨S16x512x512, .f32⟩ : BufTy).Contents (Elt F) → (⟨S16x512x512, .f32⟩ : BufTy).Contents (Elt F) → (⟨S16x512x512, .f32⟩ : BufTy).Contents (Elt F)),
    nullary main_cst_39 (constant S_ .f32 0x41000000#32),
    unary main_cst_39 main_v73 (broadcastInDim S16x512x512 ![] bcast_S_S16x512x512 : (⟨S_, .f32⟩ : BufTy).Contents (Elt F) → (⟨S16x512x512, .f32⟩ : BufTy).Contents (Elt F)),
    binary main_v73 main_v72 main_v74 (addf : (⟨S16x512x512, .f32⟩ : BufTy).Contents (Elt F) → (⟨S16x512x512, .f32⟩ : BufTy).Contents (Elt F) → (⟨S16x512x512, .f32⟩ : BufTy).Contents (Elt F)),
    nullary main_cst_40 (constant S_ .f32 0xBF000000#32),
    unary main_cst_40 main_v75 (broadcastInDim S16x512x512 ![] bcast_S_S16x512x512 : (⟨S_, .f32⟩ : BufTy).Contents (Elt F) → (⟨S16x512x512, .f32⟩ : BufTy).Contents (Elt F)),
    binary main_v75 main_v74 main_v76 (mulf : (⟨S16x512x512, .f32⟩ : BufTy).Contents (Elt F) → (⟨S16x512x512, .f32⟩ : BufTy).Contents (Elt F) → (⟨S16x512x512, .f32⟩ : BufTy).Contents (Elt F)),
    unary main_v76 main_v77 (Host.exp : (⟨S16x512x512, .f32⟩ : BufTy).Contents (Elt F) → (⟨S16x512x512, .f32⟩ : BufTy).Contents (Elt F)),
    unary main_v77 main_v78 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v78 main_v79 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v79 main_v67 main_v80 (mulf : (⟨S16x512x512x3, .f32⟩ : BufTy).Contents (Elt F) → (⟨S16x512x512x3, .f32⟩ : BufTy).Contents (Elt F) → (⟨S16x512x512x3, .f32⟩ : BufTy).Contents (Elt F)),
    binary main_v65 main_v80 main_v81 (addf : (⟨S16x512x512x3, .f32⟩ : BufTy).Contents (Elt F) → (⟨S16x512x512x3, .f32⟩ : BufTy).Contents (Elt F) → (⟨S16x512x512x3, .f32⟩ : BufTy).Contents (Elt F)),
    binary main_v66 main_v77 main_v82 (addf : (⟨S16x512x512, .f32⟩ : BufTy).Contents (Elt F) → (⟨S16x512x512, .f32⟩ : BufTy).Contents (Elt F) → (⟨S16x512x512, .f32⟩ : BufTy).Contents (Elt F)) ]
end

theorem s05_fresh : ∀ op ∈ (s05 (F := Ideal)), op.fresh = ∅ := by
  intro _ h; (repeat (cases h with | head => rfl | tail _ h => ?_)); exact nomatch h

set_option maxHeartbeats 40000000 in
/-- Across the stretch of window offset (0, 4): the padded image and the input image are untouched, and the next pair of
    accumulators is one step of the pair before. -/
theorem stretch05 (V : Valuation τ sig (Elt Ideal)) (X : Img) (a : Img × Pix)
    (h0 : V (Proc.devRef .tc main_v0) = padV X) (hx : V (Proc.devRef .tc main_arg0) = X)
    (hn : V (Proc.devRef .tc main_v65) = a.1) (hd : V (Proc.devRef .tc main_v66) = a.2) :
    after (s05 (F := Ideal)) V (Proc.devRef .tc main_v0) = padV X
    ∧ after (s05 (F := Ideal)) V (Proc.devRef .tc main_arg0) = X
    ∧ after (s05 (F := Ideal)) V (Proc.devRef .tc main_v81) = (stepV X 0x41000000#32 (nbrV X 0 4) a).1
    ∧ after (s05 (F := Ideal)) V (Proc.devRef .tc main_v82) = (stepV X 0x41000000#32 (nbrV X 0 4) a).2 := by
  refine ⟨?_, ?_, ?_, ?_⟩
  · after_results_simp; exact h0
  · after_results_simp; exact hx
  · after_results_simp
    rw [slice_eq_nbrV V X 0 4 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 0 4 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

end Cert.ReferenceIdeal.RefValue

end
-- ==== Proof.RefStretchB.lean ====
/-
  The reference's stretches of window row 1: the five window offsets (1, 0) … (1, 4), 24 operations each.

  Each stretch reads the padded image at its offset, subtracts the input image, sums the squared differences over the channels, forms
  the weight, and adds the weighted neighbour and the weight to the two accumulators; read through the line of operations, the two
  buffers it writes hold one step of the pair before, and the padded image and the input image are untouched.
-/
import proofs.«124676_j5042291605780_2_alg».proof.Proof.RefStep
import Idealize.ShloMosaic.Lib.StableHlo.Run
import proofs.«124676_j5042291605780_2_alg».proof.Proof.RefStretchLib

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]
/-- The 24 operations of window offset (1, 0). -/
abbrev s06 : List (HloOp τ sig (Elt F)) :=
  [
    nullary main_c_41 (constantI S_ 32 0#32),
    nullary main_c_42 (constantI S_ 32 1#32),
    nullary main_c_43 (constantI S_ 32 0#32),
    nullary main_c_44 (constantI S_ 32 0#32),
    unaryIndexed main_v0 ![main_c_41, main_c_42, main_c_43, main_c_44] ⟨S_, .i32⟩ main_v83 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v83 main_arg0 main_v84 (subf : (⟨S16x512x512x3, .f32⟩ : BufTy).Contents (Elt F) → (⟨S16x512x512x3, .f32⟩ : BufTy).Contents (Elt F) → (⟨S16x512x512x3, .f32⟩ : BufTy).Contents (Elt F)),
    binary main_v84 main_v84 main_v85 (mulf : (⟨S16x512x512x3, .f32⟩ : BufTy).Contents (Elt F) → (⟨S16x512x512x3, .f32⟩ : BufTy).Contents (Elt F) → (⟨S16x512x512x3, .f32⟩ : BufTy).Contents (Elt F)),
    nullary main_cst_45 (constant S_ .f32 0x00000000#32),
    binary main_v85 main_cst_45 main_v86 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_46 (constant S_ .f32 0x42C80000#32),
    unary main_cst_46 main_v87 (broadcastInDim S16x512x512 ![] bcast_S_S16x512x512 : (⟨S_, .f32⟩ : BufTy).Contents (Elt F) → (⟨S16x512x512, .f32⟩ : BufTy).Contents (Elt F)),
    binary main_v86 main_v87 main_v88 (mulf : (⟨S16x512x512, .f32⟩ : BufTy).Contents (Elt F) → (⟨S16x512x512, .f32⟩ : BufTy).Contents (Elt F) → (⟨S16x512x512, .f32⟩ : BufTy).Contents (Elt F)),
    nullary main_cst_47 (constant S_ .f32 0x40A00000#32),
    unary main_cst_47 main_v89 (broadcastInDim S16x512x512 ![] bcast_S_S16x512x512 : (⟨S_, .f32⟩ : BufTy).Contents (Elt F) → (⟨S16x512x512, .f32⟩ : BufTy).Contents (Elt F)),
    binary main_v89 main_v88 main_v90 (addf : (⟨S16x512x512, .f32⟩ : BufTy).Contents (Elt F) → (⟨S16x512x512, .f32⟩ : BufTy).Contents (Elt F) → (⟨S16x512x512, .f32⟩ : BufTy).Contents (Elt F)),
    nullary main_cst_48 (constant S_ .f32 0xBF000000#32),
    unary main_cst_48 main_v91 (broadcastInDim S16x512x512 ![] bcast_S_S16x512x512 : (⟨S_, .f32⟩ : BufTy).Contents (Elt F) → (⟨S16x512x512, .f32⟩ : BufTy).Contents (Elt F)),
    binary main_v91 main_v90 main_v92 (mulf : (⟨S16x512x512, .f32⟩ : BufTy).Contents (Elt F) → (⟨S16x512x512, .f32⟩ : BufTy).Contents (Elt F) → (⟨S16x512x512, .f32⟩ : BufTy).Contents (Elt F)),
    unary main_v92 main_v93 (Host.exp : (⟨S16x512x512, .f32⟩ : BufTy).Contents (Elt F) → (⟨S16x512x512, .f32⟩ : BufTy).Contents (Elt F)),
    unary main_v93 main_v94 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v94 main_v95 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v95 main_v83 main_v96 (mulf : (⟨S16x512x512x3, .f32⟩ : BufTy).Contents (Elt F) → (⟨S16x512x512x3, .f32⟩ : BufTy).Contents (Elt F) → (⟨S16x512x512x3, .f32⟩ : BufTy).Contents (Elt F)),
    binary main_v81 main_v96 main_v97 (addf : (⟨S16x512x512x3, .f32⟩ : BufTy).Contents (Elt F) → (⟨S16x512x512x3, .f32⟩ : BufTy).Contents (Elt F) → (⟨S16x512x512x3, .f32⟩ : BufTy).Contents (Elt F)),
    binary main_v82 main_v93 main_v98 (addf : (⟨S16x512x512, .f32⟩ : BufTy).Contents (Elt F) → (⟨S16x512x512, .f32⟩ : BufTy).Contents (Elt F) → (⟨S16x512x512, .f32⟩ : BufTy).Contents (Elt F)) ]
end

theorem s06_fresh : ∀ op ∈ (s06 (F := Ideal)), op.fresh = ∅ := by
  intro _ h; (repeat (cases h with | head => rfl | tail _ h => ?_)); exact nomatch h

set_option maxHeartbeats 40000000 in
/-- Across the stretch of window offset (1, 0): the padded image and the input image are untouched, and the next pair of
    accumulators is one step of the pair before. -/
theorem stretch06 (V : Valuation τ sig (Elt Ideal)) (X : Img) (a : Img × Pix)
    (h0 : V (Proc.devRef .tc main_v0) = padV X) (hx : V (Proc.devRef .tc main_arg0) = X)
    (hn : V (Proc.devRef .tc main_v81) = a.1) (hd : V (Proc.devRef .tc main_v82) = a.2) :
    after (s06 (F := Ideal)) V (Proc.devRef .tc main_v0) = padV X
    ∧ after (s06 (F := Ideal)) V (Proc.devRef .tc main_arg0) = X
    ∧ after (s06 (F := Ideal)) V (Proc.devRef .tc main_v97) = (stepV X 0x40A00000#32 (nbrV X 1 0) a).1
    ∧ after (s06 (F := Ideal)) V (Proc.devRef .tc main_v98) = (stepV X 0x40A00000#32 (nbrV X 1 0) a).2 := by
  refine ⟨?_, ?_, ?_, ?_⟩
  · after_results_simp; exact h0
  · after_results_simp; exact hx
  · after_results_simp
    rw [slice_eq_nbrV V X 1 0 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 1 0 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (1, 1). -/
abbrev s07 : List (HloOp τ sig (Elt F)) :=
  [
    nullary main_c_49 (constantI S_ 32 0#32),
    nullary main_c_50 (constantI S_ 32 1#32),
    nullary main_c_51 (constantI S_ 32 1#32),
    nullary main_c_52 (constantI S_ 32 0#32),
    unaryIndexed main_v0 ![main_c_49, main_c_50, main_c_51, main_c_52] ⟨S_, .i32⟩ main_v99 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v99 main_arg0 main_v100 (subf : (⟨S16x512x512x3, .f32⟩ : BufTy).Contents (Elt F) → (⟨S16x512x512x3, .f32⟩ : BufTy).Contents (Elt F) → (⟨S16x512x512x3, .f32⟩ : BufTy).Contents (Elt F)),
    binary main_v100 main_v100 main_v101 (mulf : (⟨S16x512x512x3, .f32⟩ : BufTy).Contents (Elt F) → (⟨S16x512x512x3, .f32⟩ : BufTy).Contents (Elt F) → (⟨S16x512x512x3, .f32⟩ : BufTy).Contents (Elt F)),
    nullary main_cst_53 (constant S_ .f32 0x00000000#32),
    binary main_v101 main_cst_53 main_v102 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_54 (constant S_ .f32 0x42C80000#32),
    unary main_cst_54 main_v103 (broadcastInDim S16x512x512 ![] bcast_S_S16x512x512 : (⟨S_, .f32⟩ : BufTy).Contents (Elt F) → (⟨S16x512x512, .f32⟩ : BufTy).Contents (Elt F)),
    binary main_v102 main_v103 main_v104 (mulf : (⟨S16x512x512, .f32⟩ : BufTy).Contents (Elt F) → (⟨S16x512x512, .f32⟩ : BufTy).Contents (Elt F) → (⟨S16x512x512, .f32⟩ : BufTy).Contents (Elt F)),
    nullary main_cst_55 (constant S_ .f32 0x40000000#32),
    unary main_cst_55 main_v105 (broadcastInDim S16x512x512 ![] bcast_S_S16x512x512 : (⟨S_, .f32⟩ : BufTy).Contents (Elt F) → (⟨S16x512x512, .f32⟩ : BufTy).Contents (Elt F)),
    binary main_v105 main_v104 main_v106 (addf : (⟨S16x512x512, .f32⟩ : BufTy).Contents (Elt F) → (⟨S16x512x512, .f32⟩ : BufTy).Contents (Elt F) → (⟨S16x512x512, .f32⟩ : BufTy).Contents (Elt F)),
    nullary main_cst_56 (constant S_ .f32 0xBF000000#32),
    unary main_cst_56 main_v107 (broadcastInDim S16x512x512 ![] bcast_S_S16x512x512 : (⟨S_, .f32⟩ : BufTy).Contents (Elt F) → (⟨S16x512x512, .f32⟩ : BufTy).Contents (Elt F)),
    binary main_v107 main_v106 main_v108 (mulf : (⟨S16x512x512, .f32⟩ : BufTy).Contents (Elt F) → (⟨S16x512x512, .f32⟩ : BufTy).Contents (Elt F) → (⟨S16x512x512, .f32⟩ : BufTy).Contents (Elt F)),
    unary main_v108 main_v109 (Host.exp : (⟨S16x512x512, .f32⟩ : BufTy).Contents (Elt F) → (⟨S16x512x512, .f32⟩ : BufTy).Contents (Elt F)),
    unary main_v109 main_v110 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v110 main_v111 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v111 main_v99 main_v112 (mulf : (⟨S16x512x512x3, .f32⟩ : BufTy).Contents (Elt F) → (⟨S16x512x512x3, .f32⟩ : BufTy).Contents (Elt F) → (⟨S16x512x512x3, .f32⟩ : BufTy).Contents (Elt F)),
    binary main_v97 main_v112 main_v113 (addf : (⟨S16x512x512x3, .f32⟩ : BufTy).Contents (Elt F) → (⟨S16x512x512x3, .f32⟩ : BufTy).Contents (Elt F) → (⟨S16x512x512x3, .f32⟩ : BufTy).Contents (Elt F)),
    binary main_v98 main_v109 main_v114 (addf : (⟨S16x512x512, .f32⟩ : BufTy).Contents (Elt F) → (⟨S16x512x512, .f32⟩ : BufTy).Contents (Elt F) → (⟨S16x512x512, .f32⟩ : BufTy).Contents (Elt F)) ]
end

theorem s07_fresh : ∀ op ∈ (s07 (F := Ideal)), op.fresh = ∅ := by
  intro _ h; (repeat (cases h with | head => rfl | tail _ h => ?_)); exact nomatch h

set_option maxHeartbeats 40000000 in
/-- Across the stretch of window offset (1, 1): the padded image and the input image are untouched, and the next pair of
    accumulators is one step of the pair before. -/
theorem stretch07 (V : Valuation τ sig (Elt Ideal)) (X : Img) (a : Img × Pix)
    (h0 : V (Proc.devRef .tc main_v0) = padV X) (hx : V (Proc.devRef .tc main_arg0) = X)
    (hn : V (Proc.devRef .tc main_v97) = a.1) (hd : V (Proc.devRef .tc main_v98) = a.2) :
    after (s07 (F := Ideal)) V (Proc.devRef .tc main_v0) = padV X
    ∧ after (s07 (F := Ideal)) V (Proc.devRef .tc main_arg0) = X
    ∧ after (s07 (F := Ideal)) V (Proc.devRef .tc main_v113) = (stepV X 0x40000000#32 (nbrV X 1 1) a).1
    ∧ after (s07 (F := Ideal)) V (Proc.devRef .tc main_v114) = (stepV X 0x40000000#32 (nbrV X 1 1) a).2 := by
  refine ⟨?_, ?_, ?_, ?_⟩
  · after_results_simp; exact h0
  · after_results_simp; exact hx
  · after_results_simp
    rw [slice_eq_nbrV V X 1 1 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 1 1 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (1, 2). -/
abbrev s08 : List (HloOp τ sig (Elt F)) :=
  [
    nullary main_c_57 (constantI S_ 32 0#32),
    nullary main_c_58 (constantI S_ 32 1#32),
    nullary main_c_59 (constantI S_ 32 2#32),
    nullary main_c_60 (constantI S_ 32 0#32),
    unaryIndexed main_v0 ![main_c_57, main_c_58, main_c_59, main_c_60] ⟨S_, .i32⟩ main_v115 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v115 main_arg0 main_v116 (subf : (⟨S16x512x512x3, .f32⟩ : BufTy).Contents (Elt F) → (⟨S16x512x512x3, .f32⟩ : BufTy).Contents (Elt F) → (⟨S16x512x512x3, .f32⟩ : BufTy).Contents (Elt F)),
    binary main_v116 main_v116 main_v117 (mulf : (⟨S16x512x512x3, .f32⟩ : BufTy).Contents (Elt F) → (⟨S16x512x512x3, .f32⟩ : BufTy).Contents (Elt F) → (⟨S16x512x512x3, .f32⟩ : BufTy).Contents (Elt F)),
    nullary main_cst_61 (constant S_ .f32 0x00000000#32),
    binary main_v117 main_cst_61 main_v118 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_62 (constant S_ .f32 0x42C80000#32),
    unary main_cst_62 main_v119 (broadcastInDim S16x512x512 ![] bcast_S_S16x512x512 : (⟨S_, .f32⟩ : BufTy).Contents (Elt F) → (⟨S16x512x512, .f32⟩ : BufTy).Contents (Elt F)),
    binary main_v118 main_v119 main_v120 (mulf : (⟨S16x512x512, .f32⟩ : BufTy).Contents (Elt F) → (⟨S16x512x512, .f32⟩ : BufTy).Contents (Elt F) → (⟨S16x512x512, .f32⟩ : BufTy).Contents (Elt F)),
    nullary main_cst_63 (constant S_ .f32 0x3F800000#32),
    unary main_cst_63 main_v121 (broadcastInDim S16x512x512 ![] bcast_S_S16x512x512 : (⟨S_, .f32⟩ : BufTy).Contents (Elt F) → (⟨S16x512x512, .f32⟩ : BufTy).Contents (Elt F)),
    binary main_v121 main_v120 main_v122 (addf : (⟨S16x512x512, .f32⟩ : BufTy).Contents (Elt F) → (⟨S16x512x512, .f32⟩ : BufTy).Contents (Elt F) → (⟨S16x512x512, .f32⟩ : BufTy).Contents (Elt F)),
    nullary main_cst_64 (constant S_ .f32 0xBF000000#32),
    unary main_cst_64 main_v123 (broadcastInDim S16x512x512 ![] bcast_S_S16x512x512 : (⟨S_, .f32⟩ : BufTy).Contents (Elt F) → (⟨S16x512x512, .f32⟩ : BufTy).Contents (Elt F)),
    binary main_v123 main_v122 main_v124 (mulf : (⟨S16x512x512, .f32⟩ : BufTy).Contents (Elt F) → (⟨S16x512x512, .f32⟩ : BufTy).Contents (Elt F) → (⟨S16x512x512, .f32⟩ : BufTy).Contents (Elt F)),
    unary main_v124 main_v125 (Host.exp : (⟨S16x512x512, .f32⟩ : BufTy).Contents (Elt F) → (⟨S16x512x512, .f32⟩ : BufTy).Contents (Elt F)),
    unary main_v125 main_v126 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v126 main_v127 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v127 main_v115 main_v128 (mulf : (⟨S16x512x512x3, .f32⟩ : BufTy).Contents (Elt F) → (⟨S16x512x512x3, .f32⟩ : BufTy).Contents (Elt F) → (⟨S16x512x512x3, .f32⟩ : BufTy).Contents (Elt F)),
    binary main_v113 main_v128 main_v129 (addf : (⟨S16x512x512x3, .f32⟩ : BufTy).Contents (Elt F) → (⟨S16x512x512x3, .f32⟩ : BufTy).Contents (Elt F) → (⟨S16x512x512x3, .f32⟩ : BufTy).Contents (Elt F)),
    binary main_v114 main_v125 main_v130 (addf : (⟨S16x512x512, .f32⟩ : BufTy).Contents (Elt F) → (⟨S16x512x512, .f32⟩ : BufTy).Contents (Elt F) → (⟨S16x512x512, .f32⟩ : BufTy).Contents (Elt F)) ]
end

theorem s08_fresh : ∀ op ∈ (s08 (F := Ideal)), op.fresh = ∅ := by
  intro _ h; (repeat (cases h with | head => rfl | tail _ h => ?_)); exact nomatch h

set_option maxHeartbeats 40000000 in
/-- Across the stretch of window offset (1, 2): the padded image and the input image are untouched, and the next pair of
    accumulators is one step of the pair before. -/
theorem stretch08 (V : Valuation τ sig (Elt Ideal)) (X : Img) (a : Img × Pix)
    (h0 : V (Proc.devRef .tc main_v0) = padV X) (hx : V (Proc.devRef .tc main_arg0) = X)
    (hn : V (Proc.devRef .tc main_v113) = a.1) (hd : V (Proc.devRef .tc main_v114) = a.2) :
    after (s08 (F := Ideal)) V (Proc.devRef .tc main_v0) = padV X
    ∧ after (s08 (F := Ideal)) V (Proc.devRef .tc main_arg0) = X
    ∧ after (s08 (F := Ideal)) V (Proc.devRef .tc main_v129) = (stepV X 0x3F800000#32 (nbrV X 1 2) a).1
    ∧ after (s08 (F := Ideal)) V (Proc.devRef .tc main_v130) = (stepV X 0x3F800000#32 (nbrV X 1 2) a).2 := by
  refine ⟨?_, ?_, ?_, ?_⟩
  · after_results_simp; exact h0
  · after_results_simp; exact hx
  · after_results_simp
    rw [slice_eq_nbrV V X 1 2 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 1 2 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (1, 3). -/
abbrev s09 : List (HloOp τ sig (Elt F)) :=
  [
    nullary main_c_65 (constantI S_ 32 0#32),
    nullary main_c_66 (constantI S_ 32 1#32),
    nullary main_c_67 (constantI S_ 32 3#32),
    nullary main_c_68 (constantI S_ 32 0#32),
    unaryIndexed main_v0 ![main_c_65, main_c_66, main_c_67, main_c_68] ⟨S_, .i32⟩ main_v131 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v131 main_arg0 main_v132 (subf : (⟨S16x512x512x3, .f32⟩ : BufTy).Contents (Elt F) → (⟨S16x512x512x3, .f32⟩ : BufTy).Contents (Elt F) → (⟨S16x512x512x3, .f32⟩ : BufTy).Contents (Elt F)),
    binary main_v132 main_v132 main_v133 (mulf : (⟨S16x512x512x3, .f32⟩ : BufTy).Contents (Elt F) → (⟨S16x512x512x3, .f32⟩ : BufTy).Contents (Elt F) → (⟨S16x512x512x3, .f32⟩ : BufTy).Contents (Elt F)),
    nullary main_cst_69 (constant S_ .f32 0x00000000#32),
    binary main_v133 main_cst_69 main_v134 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_70 (constant S_ .f32 0x42C80000#32),
    unary main_cst_70 main_v135 (broadcastInDim S16x512x512 ![] bcast_S_S16x512x512 : (⟨S_, .f32⟩ : BufTy).Contents (Elt F) → (⟨S16x512x512, .f32⟩ : BufTy).Contents (Elt F)),
    binary main_v134 main_v135 main_v136 (mulf : (⟨S16x512x512, .f32⟩ : BufTy).Contents (Elt F) → (⟨S16x512x512, .f32⟩ : BufTy).Contents (Elt F) → (⟨S16x512x512, .f32⟩ : BufTy).Contents (Elt F)),
    nullary main_cst_71 (constant S_ .f32 0x40000000#32),
    unary main_cst_71 main_v137 (broadcastInDim S16x512x512 ![] bcast_S_S16x512x512 : (⟨S_, .f32⟩ : BufTy).Contents (Elt F) → (⟨S16x512x512, .f32⟩ : BufTy).Contents (Elt F)),
    binary main_v137 main_v136 main_v138 (addf : (⟨S16x512x512, .f32⟩ : BufTy).Contents (Elt F) → (⟨S16x512x512, .f32⟩ : BufTy).Contents (Elt F) → (⟨S16x512x512, .f32⟩ : BufTy).Contents (Elt F)),
    nullary main_cst_72 (constant S_ .f32 0xBF000000#32),
    unary main_cst_72 main_v139 (broadcastInDim S16x512x512 ![] bcast_S_S16x512x512 : (⟨S_, .f32⟩ : BufTy).Contents (Elt F) → (⟨S16x512x512, .f32⟩ : BufTy).Contents (Elt F)),
    binary main_v139 main_v138 main_v140 (mulf : (⟨S16x512x512, .f32⟩ : BufTy).Contents (Elt F) → (⟨S16x512x512, .f32⟩ : BufTy).Contents (Elt F) → (⟨S16x512x512, .f32⟩ : BufTy).Contents (Elt F)),
    unary main_v140 main_v141 (Host.exp : (⟨S16x512x512, .f32⟩ : BufTy).Contents (Elt F) → (⟨S16x512x512, .f32⟩ : BufTy).Contents (Elt F)),
    unary main_v141 main_v142 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v142 main_v143 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v143 main_v131 main_v144 (mulf : (⟨S16x512x512x3, .f32⟩ : BufTy).Contents (Elt F) → (⟨S16x512x512x3, .f32⟩ : BufTy).Contents (Elt F) → (⟨S16x512x512x3, .f32⟩ : BufTy).Contents (Elt F)),
    binary main_v129 main_v144 main_v145 (addf : (⟨S16x512x512x3, .f32⟩ : BufTy).Contents (Elt F) → (⟨S16x512x512x3, .f32⟩ : BufTy).Contents (Elt F) → (⟨S16x512x512x3, .f32⟩ : BufTy).Contents (Elt F)),
    binary main_v130 main_v141 main_v146 (addf : (⟨S16x512x512, .f32⟩ : BufTy).Contents (Elt F) → (⟨S16x512x512, .f32⟩ : BufTy).Contents (Elt F) → (⟨S16x512x512, .f32⟩ : BufTy).Contents (Elt F)) ]
end

theorem s09_fresh : ∀ op ∈ (s09 (F := Ideal)), op.fresh = ∅ := by
  intro _ h; (repeat (cases h with | head => rfl | tail _ h => ?_)); exact nomatch h

set_option maxHeartbeats 40000000 in
/-- Across the stretch of window offset (1, 3): the padded image and the input image are untouched, and the next pair of
    accumulators is one step of the pair before. -/
theorem stretch09 (V : Valuation τ sig (Elt Ideal)) (X : Img) (a : Img × Pix)
    (h0 : V (Proc.devRef .tc main_v0) = padV X) (hx : V (Proc.devRef .tc main_arg0) = X)
    (hn : V (Proc.devRef .tc main_v129) = a.1) (hd : V (Proc.devRef .tc main_v130) = a.2) :
    after (s09 (F := Ideal)) V (Proc.devRef .tc main_v0) = padV X
    ∧ after (s09 (F := Ideal)) V (Proc.devRef .tc main_arg0) = X
    ∧ after (s09 (F := Ideal)) V (Proc.devRef .tc main_v145) = (stepV X 0x40000000#32 (nbrV X 1 3) a).1
    ∧ after (s09 (F := Ideal)) V (Proc.devRef .tc main_v146) = (stepV X 0x40000000#32 (nbrV X 1 3) a).2 := by
  refine ⟨?_, ?_, ?_, ?_⟩
  · after_results_simp; exact h0
  · after_results_simp; exact hx
  · after_results_simp
    rw [slice_eq_nbrV V X 1 3 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 1 3 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (1, 4). -/
abbrev s10 : List (HloOp τ sig (Elt F)) :=
  [
    nullary main_c_73 (constantI S_ 32 0#32),
    nullary main_c_74 (constantI S_ 32 1#32),
    nullary main_c_75 (constantI S_ 32 4#32),
    nullary main_c_76 (constantI S_ 32 0#32),
    unaryIndexed main_v0 ![main_c_73, main_c_74, main_c_75, main_c_76] ⟨S_, .i32⟩ main_v147 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v147 main_arg0 main_v148 (subf : (⟨S16x512x512x3, .f32⟩ : BufTy).Contents (Elt F) → (⟨S16x512x512x3, .f32⟩ : BufTy).Contents (Elt F) → (⟨S16x512x512x3, .f32⟩ : BufTy).Contents (Elt F)),
    binary main_v148 main_v148 main_v149 (mulf : (⟨S16x512x512x3, .f32⟩ : BufTy).Contents (Elt F) → (⟨S16x512x512x3, .f32⟩ : BufTy).Contents (Elt F) → (⟨S16x512x512x3, .f32⟩ : BufTy).Contents (Elt F)),
    nullary main_cst_77 (constant S_ .f32 0x00000000#32),
    binary main_v149 main_cst_77 main_v150 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_78 (constant S_ .f32 0x42C80000#32),
    unary main_cst_78 main_v151 (broadcastInDim S16x512x512 ![] bcast_S_S16x512x512 : (⟨S_, .f32⟩ : BufTy).Contents (Elt F) → (⟨S16x512x512, .f32⟩ : BufTy).Contents (Elt F)),
    binary main_v150 main_v151 main_v152 (mulf : (⟨S16x512x512, .f32⟩ : BufTy).Contents (Elt F) → (⟨S16x512x512, .f32⟩ : BufTy).Contents (Elt F) → (⟨S16x512x512, .f32⟩ : BufTy).Contents (Elt F)),
    nullary main_cst_79 (constant S_ .f32 0x40A00000#32),
    unary main_cst_79 main_v153 (broadcastInDim S16x512x512 ![] bcast_S_S16x512x512 : (⟨S_, .f32⟩ : BufTy).Contents (Elt F) → (⟨S16x512x512, .f32⟩ : BufTy).Contents (Elt F)),
    binary main_v153 main_v152 main_v154 (addf : (⟨S16x512x512, .f32⟩ : BufTy).Contents (Elt F) → (⟨S16x512x512, .f32⟩ : BufTy).Contents (Elt F) → (⟨S16x512x512, .f32⟩ : BufTy).Contents (Elt F)),
    nullary main_cst_80 (constant S_ .f32 0xBF000000#32),
    unary main_cst_80 main_v155 (broadcastInDim S16x512x512 ![] bcast_S_S16x512x512 : (⟨S_, .f32⟩ : BufTy).Contents (Elt F) → (⟨S16x512x512, .f32⟩ : BufTy).Contents (Elt F)),
    binary main_v155 main_v154 main_v156 (mulf : (⟨S16x512x512, .f32⟩ : BufTy).Contents (Elt F) → (⟨S16x512x512, .f32⟩ : BufTy).Contents (Elt F) → (⟨S16x512x512, .f32⟩ : BufTy).Contents (Elt F)),
    unary main_v156 main_v157 (Host.exp : (⟨S16x512x512, .f32⟩ : BufTy).Contents (Elt F) → (⟨S16x512x512, .f32⟩ : BufTy).Contents (Elt F)),
    unary main_v157 main_v158 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v158 main_v159 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v159 main_v147 main_v160 (mulf : (⟨S16x512x512x3, .f32⟩ : BufTy).Contents (Elt F) → (⟨S16x512x512x3, .f32⟩ : BufTy).Contents (Elt F) → (⟨S16x512x512x3, .f32⟩ : BufTy).Contents (Elt F)),
    binary main_v145 main_v160 main_v161 (addf : (⟨S16x512x512x3, .f32⟩ : BufTy).Contents (Elt F) → (⟨S16x512x512x3, .f32⟩ : BufTy).Contents (Elt F) → (⟨S16x512x512x3, .f32⟩ : BufTy).Contents (Elt F)),
    binary main_v146 main_v157 main_v162 (addf : (⟨S16x512x512, .f32⟩ : BufTy).Contents (Elt F) → (⟨S16x512x512, .f32⟩ : BufTy).Contents (Elt F) → (⟨S16x512x512, .f32⟩ : BufTy).Contents (Elt F)) ]
end

theorem s10_fresh : ∀ op ∈ (s10 (F := Ideal)), op.fresh = ∅ := by
  intro _ h; (repeat (cases h with | head => rfl | tail _ h => ?_)); exact nomatch h

set_option maxHeartbeats 40000000 in
/-- Across the stretch of window offset (1, 4): the padded image and the input image are untouched, and the next pair of
    accumulators is one step of the pair before. -/
theorem stretch10 (V : Valuation τ sig (Elt Ideal)) (X : Img) (a : Img × Pix)
    (h0 : V (Proc.devRef .tc main_v0) = padV X) (hx : V (Proc.devRef .tc main_arg0) = X)
    (hn : V (Proc.devRef .tc main_v145) = a.1) (hd : V (Proc.devRef .tc main_v146) = a.2) :
    after (s10 (F := Ideal)) V (Proc.devRef .tc main_v0) = padV X
    ∧ after (s10 (F := Ideal)) V (Proc.devRef .tc main_arg0) = X
    ∧ after (s10 (F := Ideal)) V (Proc.devRef .tc main_v161) = (stepV X 0x40A00000#32 (nbrV X 1 4) a).1
    ∧ after (s10 (F := Ideal)) V (Proc.devRef .tc main_v162) = (stepV X 0x40A00000#32 (nbrV X 1 4) a).2 := by
  refine ⟨?_, ?_, ?_, ?_⟩
  · after_results_simp; exact h0
  · after_results_simp; exact hx
  · after_results_simp
    rw [slice_eq_nbrV V X 1 4 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 1 4 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

end Cert.ReferenceIdeal.RefValue

end
-- ==== Proof.RefStretchC.lean ====
/-
  The reference's stretches of window row 2: the five window offsets (2, 0) … (2, 4), 24 operations each.

  Each stretch reads the padded image at its offset, subtracts the input image, sums the squared differences over the channels, forms
  the weight, and adds the weighted neighbour and the weight to the two accumulators; read through the line of operations, the two
  buffers it writes hold one step of the pair before, and the padded image and the input image are untouched.
-/
import proofs.«124676_j5042291605780_2_alg».proof.Proof.RefStep
import Idealize.ShloMosaic.Lib.StableHlo.Run
import proofs.«124676_j5042291605780_2_alg».proof.Proof.RefStretchLib

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]
/-- The 24 operations of window offset (2, 0). -/
abbrev s11 : List (HloOp τ sig (Elt F)) :=
  [
    nullary main_c_81 (constantI S_ 32 0#32),
    nullary main_c_82 (constantI S_ 32 2#32),
    nullary main_c_83 (constantI S_ 32 0#32),
    nullary main_c_84 (constantI S_ 32 0#32),
    unaryIndexed main_v0 ![main_c_81, main_c_82, main_c_83, main_c_84] ⟨S_, .i32⟩ main_v163 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v163 main_arg0 main_v164 (subf : (⟨S16x512x512x3, .f32⟩ : BufTy).Contents (Elt F) → (⟨S16x512x512x3, .f32⟩ : BufTy).Contents (Elt F) → (⟨S16x512x512x3, .f32⟩ : BufTy).Contents (Elt F)),
    binary main_v164 main_v164 main_v165 (mulf : (⟨S16x512x512x3, .f32⟩ : BufTy).Contents (Elt F) → (⟨S16x512x512x3, .f32⟩ : BufTy).Contents (Elt F) → (⟨S16x512x512x3, .f32⟩ : BufTy).Contents (Elt F)),
    nullary main_cst_85 (constant S_ .f32 0x00000000#32),
    binary main_v165 main_cst_85 main_v166 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_86 (constant S_ .f32 0x42C80000#32),
    unary main_cst_86 main_v167 (broadcastInDim S16x512x512 ![] bcast_S_S16x512x512 : (⟨S_, .f32⟩ : BufTy).Contents (Elt F) → (⟨S16x512x512, .f32⟩ : BufTy).Contents (Elt F)),
    binary main_v166 main_v167 main_v168 (mulf : (⟨S16x512x512, .f32⟩ : BufTy).Contents (Elt F) → (⟨S16x512x512, .f32⟩ : BufTy).Contents (Elt F) → (⟨S16x512x512, .f32⟩ : BufTy).Contents (Elt F)),
    nullary main_cst_87 (constant S_ .f32 0x40800000#32),
    unary main_cst_87 main_v169 (broadcastInDim S16x512x512 ![] bcast_S_S16x512x512 : (⟨S_, .f32⟩ : BufTy).Contents (Elt F) → (⟨S16x512x512, .f32⟩ : BufTy).Contents (Elt F)),
    binary main_v169 main_v168 main_v170 (addf : (⟨S16x512x512, .f32⟩ : BufTy).Contents (Elt F) → (⟨S16x512x512, .f32⟩ : BufTy).Contents (Elt F) → (⟨S16x512x512, .f32⟩ : BufTy).Contents (Elt F)),
    nullary main_cst_88 (constant S_ .f32 0xBF000000#32),
    unary main_cst_88 main_v171 (broadcastInDim S16x512x512 ![] bcast_S_S16x512x512 : (⟨S_, .f32⟩ : BufTy).Contents (Elt F) → (⟨S16x512x512, .f32⟩ : BufTy).Contents (Elt F)),
    binary main_v171 main_v170 main_v172 (mulf : (⟨S16x512x512, .f32⟩ : BufTy).Contents (Elt F) → (⟨S16x512x512, .f32⟩ : BufTy).Contents (Elt F) → (⟨S16x512x512, .f32⟩ : BufTy).Contents (Elt F)),
    unary main_v172 main_v173 (Host.exp : (⟨S16x512x512, .f32⟩ : BufTy).Contents (Elt F) → (⟨S16x512x512, .f32⟩ : BufTy).Contents (Elt F)),
    unary main_v173 main_v174 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v174 main_v175 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v175 main_v163 main_v176 (mulf : (⟨S16x512x512x3, .f32⟩ : BufTy).Contents (Elt F) → (⟨S16x512x512x3, .f32⟩ : BufTy).Contents (Elt F) → (⟨S16x512x512x3, .f32⟩ : BufTy).Contents (Elt F)),
    binary main_v161 main_v176 main_v177 (addf : (⟨S16x512x512x3, .f32⟩ : BufTy).Contents (Elt F) → (⟨S16x512x512x3, .f32⟩ : BufTy).Contents (Elt F) → (⟨S16x512x512x3, .f32⟩ : BufTy).Contents (Elt F)),
    binary main_v162 main_v173 main_v178 (addf : (⟨S16x512x512, .f32⟩ : BufTy).Contents (Elt F) → (⟨S16x512x512, .f32⟩ : BufTy).Contents (Elt F) → (⟨S16x512x512, .f32⟩ : BufTy).Contents (Elt F)) ]
end

theorem s11_fresh : ∀ op ∈ (s11 (F := Ideal)), op.fresh = ∅ := by
  intro _ h; (repeat (cases h with | head => rfl | tail _ h => ?_)); exact nomatch h

set_option maxHeartbeats 40000000 in
/-- Across the stretch of window offset (2, 0): the padded image and the input image are untouched, and the next pair of
    accumulators is one step of the pair before. -/
theorem stretch11 (V : Valuation τ sig (Elt Ideal)) (X : Img) (a : Img × Pix)
    (h0 : V (Proc.devRef .tc main_v0) = padV X) (hx : V (Proc.devRef .tc main_arg0) = X)
    (hn : V (Proc.devRef .tc main_v161) = a.1) (hd : V (Proc.devRef .tc main_v162) = a.2) :
    after (s11 (F := Ideal)) V (Proc.devRef .tc main_v0) = padV X
    ∧ after (s11 (F := Ideal)) V (Proc.devRef .tc main_arg0) = X
    ∧ after (s11 (F := Ideal)) V (Proc.devRef .tc main_v177) = (stepV X 0x40800000#32 (nbrV X 2 0) a).1
    ∧ after (s11 (F := Ideal)) V (Proc.devRef .tc main_v178) = (stepV X 0x40800000#32 (nbrV X 2 0) a).2 := by
  refine ⟨?_, ?_, ?_, ?_⟩
  · after_results_simp; exact h0
  · after_results_simp; exact hx
  · after_results_simp
    rw [slice_eq_nbrV V X 2 0 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 2 0 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (2, 1). -/
abbrev s12 : List (HloOp τ sig (Elt F)) :=
  [
    nullary main_c_89 (constantI S_ 32 0#32),
    nullary main_c_90 (constantI S_ 32 2#32),
    nullary main_c_91 (constantI S_ 32 1#32),
    nullary main_c_92 (constantI S_ 32 0#32),
    unaryIndexed main_v0 ![main_c_89, main_c_90, main_c_91, main_c_92] ⟨S_, .i32⟩ main_v179 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v179 main_arg0 main_v180 (subf : (⟨S16x512x512x3, .f32⟩ : BufTy).Contents (Elt F) → (⟨S16x512x512x3, .f32⟩ : BufTy).Contents (Elt F) → (⟨S16x512x512x3, .f32⟩ : BufTy).Contents (Elt F)),
    binary main_v180 main_v180 main_v181 (mulf : (⟨S16x512x512x3, .f32⟩ : BufTy).Contents (Elt F) → (⟨S16x512x512x3, .f32⟩ : BufTy).Contents (Elt F) → (⟨S16x512x512x3, .f32⟩ : BufTy).Contents (Elt F)),
    nullary main_cst_93 (constant S_ .f32 0x00000000#32),
    binary main_v181 main_cst_93 main_v182 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_94 (constant S_ .f32 0x42C80000#32),
    unary main_cst_94 main_v183 (broadcastInDim S16x512x512 ![] bcast_S_S16x512x512 : (⟨S_, .f32⟩ : BufTy).Contents (Elt F) → (⟨S16x512x512, .f32⟩ : BufTy).Contents (Elt F)),
    binary main_v182 main_v183 main_v184 (mulf : (⟨S16x512x512, .f32⟩ : BufTy).Contents (Elt F) → (⟨S16x512x512, .f32⟩ : BufTy).Contents (Elt F) → (⟨S16x512x512, .f32⟩ : BufTy).Contents (Elt F)),
    nullary main_cst_95 (constant S_ .f32 0x3F800000#32),
    unary main_cst_95 main_v185 (broadcastInDim S16x512x512 ![] bcast_S_S16x512x512 : (⟨S_, .f32⟩ : BufTy).Contents (Elt F) → (⟨S16x512x512, .f32⟩ : BufTy).Contents (Elt F)),
    binary main_v185 main_v184 main_v186 (addf : (⟨S16x512x512, .f32⟩ : BufTy).Contents (Elt F) → (⟨S16x512x512, .f32⟩ : BufTy).Contents (Elt F) → (⟨S16x512x512, .f32⟩ : BufTy).Contents (Elt F)),
    nullary main_cst_96 (constant S_ .f32 0xBF000000#32),
    unary main_cst_96 main_v187 (broadcastInDim S16x512x512 ![] bcast_S_S16x512x512 : (⟨S_, .f32⟩ : BufTy).Contents (Elt F) → (⟨S16x512x512, .f32⟩ : BufTy).Contents (Elt F)),
    binary main_v187 main_v186 main_v188 (mulf : (⟨S16x512x512, .f32⟩ : BufTy).Contents (Elt F) → (⟨S16x512x512, .f32⟩ : BufTy).Contents (Elt F) → (⟨S16x512x512, .f32⟩ : BufTy).Contents (Elt F)),
    unary main_v188 main_v189 (Host.exp : (⟨S16x512x512, .f32⟩ : BufTy).Contents (Elt F) → (⟨S16x512x512, .f32⟩ : BufTy).Contents (Elt F)),
    unary main_v189 main_v190 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v190 main_v191 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v191 main_v179 main_v192 (mulf : (⟨S16x512x512x3, .f32⟩ : BufTy).Contents (Elt F) → (⟨S16x512x512x3, .f32⟩ : BufTy).Contents (Elt F) → (⟨S16x512x512x3, .f32⟩ : BufTy).Contents (Elt F)),
    binary main_v177 main_v192 main_v193 (addf : (⟨S16x512x512x3, .f32⟩ : BufTy).Contents (Elt F) → (⟨S16x512x512x3, .f32⟩ : BufTy).Contents (Elt F) → (⟨S16x512x512x3, .f32⟩ : BufTy).Contents (Elt F)),
    binary main_v178 main_v189 main_v194 (addf : (⟨S16x512x512, .f32⟩ : BufTy).Contents (Elt F) → (⟨S16x512x512, .f32⟩ : BufTy).Contents (Elt F) → (⟨S16x512x512, .f32⟩ : BufTy).Contents (Elt F)) ]
end

theorem s12_fresh : ∀ op ∈ (s12 (F := Ideal)), op.fresh = ∅ := by
  intro _ h; (repeat (cases h with | head => rfl | tail _ h => ?_)); exact nomatch h

set_option maxHeartbeats 40000000 in
/-- Across the stretch of window offset (2, 1): the padded image and the input image are untouched, and the next pair of
    accumulators is one step of the pair before. -/
theorem stretch12 (V : Valuation τ sig (Elt Ideal)) (X : Img) (a : Img × Pix)
    (h0 : V (Proc.devRef .tc main_v0) = padV X) (hx : V (Proc.devRef .tc main_arg0) = X)
    (hn : V (Proc.devRef .tc main_v177) = a.1) (hd : V (Proc.devRef .tc main_v178) = a.2) :
    after (s12 (F := Ideal)) V (Proc.devRef .tc main_v0) = padV X
    ∧ after (s12 (F := Ideal)) V (Proc.devRef .tc main_arg0) = X
    ∧ after (s12 (F := Ideal)) V (Proc.devRef .tc main_v193) = (stepV X 0x3F800000#32 (nbrV X 2 1) a).1
    ∧ after (s12 (F := Ideal)) V (Proc.devRef .tc main_v194) = (stepV X 0x3F800000#32 (nbrV X 2 1) a).2 := by
  refine ⟨?_, ?_, ?_, ?_⟩
  · after_results_simp; exact h0
  · after_results_simp; exact hx
  · after_results_simp
    rw [slice_eq_nbrV V X 2 1 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 2 1 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (2, 2). -/
abbrev s13 : List (HloOp τ sig (Elt F)) :=
  [
    nullary main_c_97 (constantI S_ 32 0#32),
    nullary main_c_98 (constantI S_ 32 2#32),
    nullary main_c_99 (constantI S_ 32 2#32),
    nullary main_c_100 (constantI S_ 32 0#32),
    unaryIndexed main_v0 ![main_c_97, main_c_98, main_c_99, main_c_100] ⟨S_, .i32⟩ main_v195 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v195 main_arg0 main_v196 (subf : (⟨S16x512x512x3, .f32⟩ : BufTy).Contents (Elt F) → (⟨S16x512x512x3, .f32⟩ : BufTy).Contents (Elt F) → (⟨S16x512x512x3, .f32⟩ : BufTy).Contents (Elt F)),
    binary main_v196 main_v196 main_v197 (mulf : (⟨S16x512x512x3, .f32⟩ : BufTy).Contents (Elt F) → (⟨S16x512x512x3, .f32⟩ : BufTy).Contents (Elt F) → (⟨S16x512x512x3, .f32⟩ : BufTy).Contents (Elt F)),
    nullary main_cst_101 (constant S_ .f32 0x00000000#32),
    binary main_v197 main_cst_101 main_v198 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_102 (constant S_ .f32 0x42C80000#32),
    unary main_cst_102 main_v199 (broadcastInDim S16x512x512 ![] bcast_S_S16x512x512 : (⟨S_, .f32⟩ : BufTy).Contents (Elt F) → (⟨S16x512x512, .f32⟩ : BufTy).Contents (Elt F)),
    binary main_v198 main_v199 main_v200 (mulf : (⟨S16x512x512, .f32⟩ : BufTy).Contents (Elt F) → (⟨S16x512x512, .f32⟩ : BufTy).Contents (Elt F) → (⟨S16x512x512, .f32⟩ : BufTy).Contents (Elt F)),
    nullary main_cst_103 (constant S_ .f32 0x00000000#32),
    unary main_cst_103 main_v201 (broadcastInDim S16x512x512 ![] bcast_S_S16x512x512 : (⟨S_, .f32⟩ : BufTy).Contents (Elt F) → (⟨S16x512x512, .f32⟩ : BufTy).Contents (Elt F)),
    binary main_v201 main_v200 main_v202 (addf : (⟨S16x512x512, .f32⟩ : BufTy).Contents (Elt F) → (⟨S16x512x512, .f32⟩ : BufTy).Contents (Elt F) → (⟨S16x512x512, .f32⟩ : BufTy).Contents (Elt F)),
    nullary main_cst_104 (constant S_ .f32 0xBF000000#32),
    unary main_cst_104 main_v203 (broadcastInDim S16x512x512 ![] bcast_S_S16x512x512 : (⟨S_, .f32⟩ : BufTy).Contents (Elt F) → (⟨S16x512x512, .f32⟩ : BufTy).Contents (Elt F)),
    binary main_v203 main_v202 main_v204 (mulf : (⟨S16x512x512, .f32⟩ : BufTy).Contents (Elt F) → (⟨S16x512x512, .f32⟩ : BufTy).Contents (Elt F) → (⟨S16x512x512, .f32⟩ : BufTy).Contents (Elt F)),
    unary main_v204 main_v205 (Host.exp : (⟨S16x512x512, .f32⟩ : BufTy).Contents (Elt F) → (⟨S16x512x512, .f32⟩ : BufTy).Contents (Elt F)),
    unary main_v205 main_v206 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v206 main_v207 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v207 main_v195 main_v208 (mulf : (⟨S16x512x512x3, .f32⟩ : BufTy).Contents (Elt F) → (⟨S16x512x512x3, .f32⟩ : BufTy).Contents (Elt F) → (⟨S16x512x512x3, .f32⟩ : BufTy).Contents (Elt F)),
    binary main_v193 main_v208 main_v209 (addf : (⟨S16x512x512x3, .f32⟩ : BufTy).Contents (Elt F) → (⟨S16x512x512x3, .f32⟩ : BufTy).Contents (Elt F) → (⟨S16x512x512x3, .f32⟩ : BufTy).Contents (Elt F)),
    binary main_v194 main_v205 main_v210 (addf : (⟨S16x512x512, .f32⟩ : BufTy).Contents (Elt F) → (⟨S16x512x512, .f32⟩ : BufTy).Contents (Elt F) → (⟨S16x512x512, .f32⟩ : BufTy).Contents (Elt F)) ]
end

theorem s13_fresh : ∀ op ∈ (s13 (F := Ideal)), op.fresh = ∅ := by
  intro _ h; (repeat (cases h with | head => rfl | tail _ h => ?_)); exact nomatch h

set_option maxHeartbeats 40000000 in
/-- Across the stretch of window offset (2, 2): the padded image and the input image are untouched, and the next pair of
    accumulators is one step of the pair before. -/
theorem stretch13 (V : Valuation τ sig (Elt Ideal)) (X : Img) (a : Img × Pix)
    (h0 : V (Proc.devRef .tc main_v0) = padV X) (hx : V (Proc.devRef .tc main_arg0) = X)
    (hn : V (Proc.devRef .tc main_v193) = a.1) (hd : V (Proc.devRef .tc main_v194) = a.2) :
    after (s13 (F := Ideal)) V (Proc.devRef .tc main_v0) = padV X
    ∧ after (s13 (F := Ideal)) V (Proc.devRef .tc main_arg0) = X
    ∧ after (s13 (F := Ideal)) V (Proc.devRef .tc main_v209) = (stepV X 0x00000000#32 (nbrV X 2 2) a).1
    ∧ after (s13 (F := Ideal)) V (Proc.devRef .tc main_v210) = (stepV X 0x00000000#32 (nbrV X 2 2) a).2 := by
  refine ⟨?_, ?_, ?_, ?_⟩
  · after_results_simp; exact h0
  · after_results_simp; exact hx
  · after_results_simp
    rw [slice_eq_nbrV V X 2 2 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 2 2 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (2, 3). -/
abbrev s14 : List (HloOp τ sig (Elt F)) :=
  [
    nullary main_c_105 (constantI S_ 32 0#32),
    nullary main_c_106 (constantI S_ 32 2#32),
    nullary main_c_107 (constantI S_ 32 3#32),
    nullary main_c_108 (constantI S_ 32 0#32),
    unaryIndexed main_v0 ![main_c_105, main_c_106, main_c_107, main_c_108] ⟨S_, .i32⟩ main_v211 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v211 main_arg0 main_v212 (subf : (⟨S16x512x512x3, .f32⟩ : BufTy).Contents (Elt F) → (⟨S16x512x512x3, .f32⟩ : BufTy).Contents (Elt F) → (⟨S16x512x512x3, .f32⟩ : BufTy).Contents (Elt F)),
    binary main_v212 main_v212 main_v213 (mulf : (⟨S16x512x512x3, .f32⟩ : BufTy).Contents (Elt F) → (⟨S16x512x512x3, .f32⟩ : BufTy).Contents (Elt F) → (⟨S16x512x512x3, .f32⟩ : BufTy).Contents (Elt F)),
    nullary main_cst_109 (constant S_ .f32 0x00000000#32),
    binary main_v213 main_cst_109 main_v214 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_110 (constant S_ .f32 0x42C80000#32),
    unary main_cst_110 main_v215 (broadcastInDim S16x512x512 ![] bcast_S_S16x512x512 : (⟨S_, .f32⟩ : BufTy).Contents (Elt F) → (⟨S16x512x512, .f32⟩ : BufTy).Contents (Elt F)),
    binary main_v214 main_v215 main_v216 (mulf : (⟨S16x512x512, .f32⟩ : BufTy).Contents (Elt F) → (⟨S16x512x512, .f32⟩ : BufTy).Contents (Elt F) → (⟨S16x512x512, .f32⟩ : BufTy).Contents (Elt F)),
    nullary main_cst_111 (constant S_ .f32 0x3F800000#32),
    unary main_cst_111 main_v217 (broadcastInDim S16x512x512 ![] bcast_S_S16x512x512 : (⟨S_, .f32⟩ : BufTy).Contents (Elt F) → (⟨S16x512x512, .f32⟩ : BufTy).Contents (Elt F)),
    binary main_v217 main_v216 main_v218 (addf : (⟨S16x512x512, .f32⟩ : BufTy).Contents (Elt F) → (⟨S16x512x512, .f32⟩ : BufTy).Contents (Elt F) → (⟨S16x512x512, .f32⟩ : BufTy).Contents (Elt F)),
    nullary main_cst_112 (constant S_ .f32 0xBF000000#32),
    unary main_cst_112 main_v219 (broadcastInDim S16x512x512 ![] bcast_S_S16x512x512 : (⟨S_, .f32⟩ : BufTy).Contents (Elt F) → (⟨S16x512x512, .f32⟩ : BufTy).Contents (Elt F)),
    binary main_v219 main_v218 main_v220 (mulf : (⟨S16x512x512, .f32⟩ : BufTy).Contents (Elt F) → (⟨S16x512x512, .f32⟩ : BufTy).Contents (Elt F) → (⟨S16x512x512, .f32⟩ : BufTy).Contents (Elt F)),
    unary main_v220 main_v221 (Host.exp : (⟨S16x512x512, .f32⟩ : BufTy).Contents (Elt F) → (⟨S16x512x512, .f32⟩ : BufTy).Contents (Elt F)),
    unary main_v221 main_v222 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v222 main_v223 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v223 main_v211 main_v224 (mulf : (⟨S16x512x512x3, .f32⟩ : BufTy).Contents (Elt F) → (⟨S16x512x512x3, .f32⟩ : BufTy).Contents (Elt F) → (⟨S16x512x512x3, .f32⟩ : BufTy).Contents (Elt F)),
    binary main_v209 main_v224 main_v225 (addf : (⟨S16x512x512x3, .f32⟩ : BufTy).Contents (Elt F) → (⟨S16x512x512x3, .f32⟩ : BufTy).Contents (Elt F) → (⟨S16x512x512x3, .f32⟩ : BufTy).Contents (Elt F)),
    binary main_v210 main_v221 main_v226 (addf : (⟨S16x512x512, .f32⟩ : BufTy).Contents (Elt F) → (⟨S16x512x512, .f32⟩ : BufTy).Contents (Elt F) → (⟨S16x512x512, .f32⟩ : BufTy).Contents (Elt F)) ]
end

theorem s14_fresh : ∀ op ∈ (s14 (F := Ideal)), op.fresh = ∅ := by
  intro _ h; (repeat (cases h with | head => rfl | tail _ h => ?_)); exact nomatch h

set_option maxHeartbeats 40000000 in
/-- Across the stretch of window offset (2, 3): the padded image and the input image are untouched, and the next pair of
    accumulators is one step of the pair before. -/
theorem stretch14 (V : Valuation τ sig (Elt Ideal)) (X : Img) (a : Img × Pix)
    (h0 : V (Proc.devRef .tc main_v0) = padV X) (hx : V (Proc.devRef .tc main_arg0) = X)
    (hn : V (Proc.devRef .tc main_v209) = a.1) (hd : V (Proc.devRef .tc main_v210) = a.2) :
    after (s14 (F := Ideal)) V (Proc.devRef .tc main_v0) = padV X
    ∧ after (s14 (F := Ideal)) V (Proc.devRef .tc main_arg0) = X
    ∧ after (s14 (F := Ideal)) V (Proc.devRef .tc main_v225) = (stepV X 0x3F800000#32 (nbrV X 2 3) a).1
    ∧ after (s14 (F := Ideal)) V (Proc.devRef .tc main_v226) = (stepV X 0x3F800000#32 (nbrV X 2 3) a).2 := by
  refine ⟨?_, ?_, ?_, ?_⟩
  · after_results_simp; exact h0
  · after_results_simp; exact hx
  · after_results_simp
    rw [slice_eq_nbrV V X 2 3 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 2 3 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (2, 4). -/
abbrev s15 : List (HloOp τ sig (Elt F)) :=
  [
    nullary main_c_113 (constantI S_ 32 0#32),
    nullary main_c_114 (constantI S_ 32 2#32),
    nullary main_c_115 (constantI S_ 32 4#32),
    nullary main_c_116 (constantI S_ 32 0#32),
    unaryIndexed main_v0 ![main_c_113, main_c_114, main_c_115, main_c_116] ⟨S_, .i32⟩ main_v227 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v227 main_arg0 main_v228 (subf : (⟨S16x512x512x3, .f32⟩ : BufTy).Contents (Elt F) → (⟨S16x512x512x3, .f32⟩ : BufTy).Contents (Elt F) → (⟨S16x512x512x3, .f32⟩ : BufTy).Contents (Elt F)),
    binary main_v228 main_v228 main_v229 (mulf : (⟨S16x512x512x3, .f32⟩ : BufTy).Contents (Elt F) → (⟨S16x512x512x3, .f32⟩ : BufTy).Contents (Elt F) → (⟨S16x512x512x3, .f32⟩ : BufTy).Contents (Elt F)),
    nullary main_cst_117 (constant S_ .f32 0x00000000#32),
    binary main_v229 main_cst_117 main_v230 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_118 (constant S_ .f32 0x42C80000#32),
    unary main_cst_118 main_v231 (broadcastInDim S16x512x512 ![] bcast_S_S16x512x512 : (⟨S_, .f32⟩ : BufTy).Contents (Elt F) → (⟨S16x512x512, .f32⟩ : BufTy).Contents (Elt F)),
    binary main_v230 main_v231 main_v232 (mulf : (⟨S16x512x512, .f32⟩ : BufTy).Contents (Elt F) → (⟨S16x512x512, .f32⟩ : BufTy).Contents (Elt F) → (⟨S16x512x512, .f32⟩ : BufTy).Contents (Elt F)),
    nullary main_cst_119 (constant S_ .f32 0x40800000#32),
    unary main_cst_119 main_v233 (broadcastInDim S16x512x512 ![] bcast_S_S16x512x512 : (⟨S_, .f32⟩ : BufTy).Contents (Elt F) → (⟨S16x512x512, .f32⟩ : BufTy).Contents (Elt F)),
    binary main_v233 main_v232 main_v234 (addf : (⟨S16x512x512, .f32⟩ : BufTy).Contents (Elt F) → (⟨S16x512x512, .f32⟩ : BufTy).Contents (Elt F) → (⟨S16x512x512, .f32⟩ : BufTy).Contents (Elt F)),
    nullary main_cst_120 (constant S_ .f32 0xBF000000#32),
    unary main_cst_120 main_v235 (broadcastInDim S16x512x512 ![] bcast_S_S16x512x512 : (⟨S_, .f32⟩ : BufTy).Contents (Elt F) → (⟨S16x512x512, .f32⟩ : BufTy).Contents (Elt F)),
    binary main_v235 main_v234 main_v236 (mulf : (⟨S16x512x512, .f32⟩ : BufTy).Contents (Elt F) → (⟨S16x512x512, .f32⟩ : BufTy).Contents (Elt F) → (⟨S16x512x512, .f32⟩ : BufTy).Contents (Elt F)),
    unary main_v236 main_v237 (Host.exp : (⟨S16x512x512, .f32⟩ : BufTy).Contents (Elt F) → (⟨S16x512x512, .f32⟩ : BufTy).Contents (Elt F)),
    unary main_v237 main_v238 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v238 main_v239 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v239 main_v227 main_v240 (mulf : (⟨S16x512x512x3, .f32⟩ : BufTy).Contents (Elt F) → (⟨S16x512x512x3, .f32⟩ : BufTy).Contents (Elt F) → (⟨S16x512x512x3, .f32⟩ : BufTy).Contents (Elt F)),
    binary main_v225 main_v240 main_v241 (addf : (⟨S16x512x512x3, .f32⟩ : BufTy).Contents (Elt F) → (⟨S16x512x512x3, .f32⟩ : BufTy).Contents (Elt F) → (⟨S16x512x512x3, .f32⟩ : BufTy).Contents (Elt F)),
    binary main_v226 main_v237 main_v242 (addf : (⟨S16x512x512, .f32⟩ : BufTy).Contents (Elt F) → (⟨S16x512x512, .f32⟩ : BufTy).Contents (Elt F) → (⟨S16x512x512, .f32⟩ : BufTy).Contents (Elt F)) ]
end

theorem s15_fresh : ∀ op ∈ (s15 (F := Ideal)), op.fresh = ∅ := by
  intro _ h; (repeat (cases h with | head => rfl | tail _ h => ?_)); exact nomatch h

set_option maxHeartbeats 40000000 in
/-- Across the stretch of window offset (2, 4): the padded image and the input image are untouched, and the next pair of
    accumulators is one step of the pair before. -/
theorem stretch15 (V : Valuation τ sig (Elt Ideal)) (X : Img) (a : Img × Pix)
    (h0 : V (Proc.devRef .tc main_v0) = padV X) (hx : V (Proc.devRef .tc main_arg0) = X)
    (hn : V (Proc.devRef .tc main_v225) = a.1) (hd : V (Proc.devRef .tc main_v226) = a.2) :
    after (s15 (F := Ideal)) V (Proc.devRef .tc main_v0) = padV X
    ∧ after (s15 (F := Ideal)) V (Proc.devRef .tc main_arg0) = X
    ∧ after (s15 (F := Ideal)) V (Proc.devRef .tc main_v241) = (stepV X 0x40800000#32 (nbrV X 2 4) a).1
    ∧ after (s15 (F := Ideal)) V (Proc.devRef .tc main_v242) = (stepV X 0x40800000#32 (nbrV X 2 4) a).2 := by
  refine ⟨?_, ?_, ?_, ?_⟩
  · after_results_simp; exact h0
  · after_results_simp; exact hx
  · after_results_simp
    rw [slice_eq_nbrV V X 2 4 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 2 4 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

end Cert.ReferenceIdeal.RefValue

end
-- ==== Proof.RefStretchD.lean ====
/-
  The reference's stretches of window row 3: the five window offsets (3, 0) … (3, 4), 24 operations each.

  Each stretch reads the padded image at its offset, subtracts the input image, sums the squared differences over the channels, forms
  the weight, and adds the weighted neighbour and the weight to the two accumulators; read through the line of operations, the two
  buffers it writes hold one step of the pair before, and the padded image and the input image are untouched.
-/
import proofs.«124676_j5042291605780_2_alg».proof.Proof.RefStep
import Idealize.ShloMosaic.Lib.StableHlo.Run
import proofs.«124676_j5042291605780_2_alg».proof.Proof.RefStretchLib

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]
/-- The 24 operations of window offset (3, 0). -/
abbrev s16 : List (HloOp τ sig (Elt F)) :=
  [
    nullary main_c_121 (constantI S_ 32 0#32),
    nullary main_c_122 (constantI S_ 32 3#32),
    nullary main_c_123 (constantI S_ 32 0#32),
    nullary main_c_124 (constantI S_ 32 0#32),
    unaryIndexed main_v0 ![main_c_121, main_c_122, main_c_123, main_c_124] ⟨S_, .i32⟩ main_v243 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v243 main_arg0 main_v244 (subf : (⟨S16x512x512x3, .f32⟩ : BufTy).Contents (Elt F) → (⟨S16x512x512x3, .f32⟩ : BufTy).Contents (Elt F) → (⟨S16x512x512x3, .f32⟩ : BufTy).Contents (Elt F)),
    binary main_v244 main_v244 main_v245 (mulf : (⟨S16x512x512x3, .f32⟩ : BufTy).Contents (Elt F) → (⟨S16x512x512x3, .f32⟩ : BufTy).Contents (Elt F) → (⟨S16x512x512x3, .f32⟩ : BufTy).Contents (Elt F)),
    nullary main_cst_125 (constant S_ .f32 0x00000000#32),
    binary main_v245 main_cst_125 main_v246 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_126 (constant S_ .f32 0x42C80000#32),
    unary main_cst_126 main_v247 (broadcastInDim S16x512x512 ![] bcast_S_S16x512x512 : (⟨S_, .f32⟩ : BufTy).Contents (Elt F) → (⟨S16x512x512, .f32⟩ : BufTy).Contents (Elt F)),
    binary main_v246 main_v247 main_v248 (mulf : (⟨S16x512x512, .f32⟩ : BufTy).Contents (Elt F) → (⟨S16x512x512, .f32⟩ : BufTy).Contents (Elt F) → (⟨S16x512x512, .f32⟩ : BufTy).Contents (Elt F)),
    nullary main_cst_127 (constant S_ .f32 0x40A00000#32),
    unary main_cst_127 main_v249 (broadcastInDim S16x512x512 ![] bcast_S_S16x512x512 : (⟨S_, .f32⟩ : BufTy).Contents (Elt F) → (⟨S16x512x512, .f32⟩ : BufTy).Contents (Elt F)),
    binary main_v249 main_v248 main_v250 (addf : (⟨S16x512x512, .f32⟩ : BufTy).Contents (Elt F) → (⟨S16x512x512, .f32⟩ : BufTy).Contents (Elt F) → (⟨S16x512x512, .f32⟩ : BufTy).Contents (Elt F)),
    nullary main_cst_128 (constant S_ .f32 0xBF000000#32),
    unary main_cst_128 main_v251 (broadcastInDim S16x512x512 ![] bcast_S_S16x512x512 : (⟨S_, .f32⟩ : BufTy).Contents (Elt F) → (⟨S16x512x512, .f32⟩ : BufTy).Contents (Elt F)),
    binary main_v251 main_v250 main_v252 (mulf : (⟨S16x512x512, .f32⟩ : BufTy).Contents (Elt F) → (⟨S16x512x512, .f32⟩ : BufTy).Contents (Elt F) → (⟨S16x512x512, .f32⟩ : BufTy).Contents (Elt F)),
    unary main_v252 main_v253 (Host.exp : (⟨S16x512x512, .f32⟩ : BufTy).Contents (Elt F) → (⟨S16x512x512, .f32⟩ : BufTy).Contents (Elt F)),
    unary main_v253 main_v254 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v254 main_v255 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v255 main_v243 main_v256 (mulf : (⟨S16x512x512x3, .f32⟩ : BufTy).Contents (Elt F) → (⟨S16x512x512x3, .f32⟩ : BufTy).Contents (Elt F) → (⟨S16x512x512x3, .f32⟩ : BufTy).Contents (Elt F)),
    binary main_v241 main_v256 main_v257 (addf : (⟨S16x512x512x3, .f32⟩ : BufTy).Contents (Elt F) → (⟨S16x512x512x3, .f32⟩ : BufTy).Contents (Elt F) → (⟨S16x512x512x3, .f32⟩ : BufTy).Contents (Elt F)),
    binary main_v242 main_v253 main_v258 (addf : (⟨S16x512x512, .f32⟩ : BufTy).Contents (Elt F) → (⟨S16x512x512, .f32⟩ : BufTy).Contents (Elt F) → (⟨S16x512x512, .f32⟩ : BufTy).Contents (Elt F)) ]
end

theorem s16_fresh : ∀ op ∈ (s16 (F := Ideal)), op.fresh = ∅ := by
  intro _ h; (repeat (cases h with | head => rfl | tail _ h => ?_)); exact nomatch h

set_option maxHeartbeats 40000000 in
/-- Across the stretch of window offset (3, 0): the padded image and the input image are untouched, and the next pair of
    accumulators is one step of the pair before. -/
theorem stretch16 (V : Valuation τ sig (Elt Ideal)) (X : Img) (a : Img × Pix)
    (h0 : V (Proc.devRef .tc main_v0) = padV X) (hx : V (Proc.devRef .tc main_arg0) = X)
    (hn : V (Proc.devRef .tc main_v241) = a.1) (hd : V (Proc.devRef .tc main_v242) = a.2) :
    after (s16 (F := Ideal)) V (Proc.devRef .tc main_v0) = padV X
    ∧ after (s16 (F := Ideal)) V (Proc.devRef .tc main_arg0) = X
    ∧ after (s16 (F := Ideal)) V (Proc.devRef .tc main_v257) = (stepV X 0x40A00000#32 (nbrV X 3 0) a).1
    ∧ after (s16 (F := Ideal)) V (Proc.devRef .tc main_v258) = (stepV X 0x40A00000#32 (nbrV X 3 0) a).2 := by
  refine ⟨?_, ?_, ?_, ?_⟩
  · after_results_simp; exact h0
  · after_results_simp; exact hx
  · after_results_simp
    rw [slice_eq_nbrV V X 3 0 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 3 0 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (3, 1). -/
abbrev s17 : List (HloOp τ sig (Elt F)) :=
  [
    nullary main_c_129 (constantI S_ 32 0#32),
    nullary main_c_130 (constantI S_ 32 3#32),
    nullary main_c_131 (constantI S_ 32 1#32),
    nullary main_c_132 (constantI S_ 32 0#32),
    unaryIndexed main_v0 ![main_c_129, main_c_130, main_c_131, main_c_132] ⟨S_, .i32⟩ main_v259 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v259 main_arg0 main_v260 (subf : (⟨S16x512x512x3, .f32⟩ : BufTy).Contents (Elt F) → (⟨S16x512x512x3, .f32⟩ : BufTy).Contents (Elt F) → (⟨S16x512x512x3, .f32⟩ : BufTy).Contents (Elt F)),
    binary main_v260 main_v260 main_v261 (mulf : (⟨S16x512x512x3, .f32⟩ : BufTy).Contents (Elt F) → (⟨S16x512x512x3, .f32⟩ : BufTy).Contents (Elt F) → (⟨S16x512x512x3, .f32⟩ : BufTy).Contents (Elt F)),
    nullary main_cst_133 (constant S_ .f32 0x00000000#32),
    binary main_v261 main_cst_133 main_v262 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_134 (constant S_ .f32 0x42C80000#32),
    unary main_cst_134 main_v263 (broadcastInDim S16x512x512 ![] bcast_S_S16x512x512 : (⟨S_, .f32⟩ : BufTy).Contents (Elt F) → (⟨S16x512x512, .f32⟩ : BufTy).Contents (Elt F)),
    binary main_v262 main_v263 main_v264 (mulf : (⟨S16x512x512, .f32⟩ : BufTy).Contents (Elt F) → (⟨S16x512x512, .f32⟩ : BufTy).Contents (Elt F) → (⟨S16x512x512, .f32⟩ : BufTy).Contents (Elt F)),
    nullary main_cst_135 (constant S_ .f32 0x40000000#32),
    unary main_cst_135 main_v265 (broadcastInDim S16x512x512 ![] bcast_S_S16x512x512 : (⟨S_, .f32⟩ : BufTy).Contents (Elt F) → (⟨S16x512x512, .f32⟩ : BufTy).Contents (Elt F)),
    binary main_v265 main_v264 main_v266 (addf : (⟨S16x512x512, .f32⟩ : BufTy).Contents (Elt F) → (⟨S16x512x512, .f32⟩ : BufTy).Contents (Elt F) → (⟨S16x512x512, .f32⟩ : BufTy).Contents (Elt F)),
    nullary main_cst_136 (constant S_ .f32 0xBF000000#32),
    unary main_cst_136 main_v267 (broadcastInDim S16x512x512 ![] bcast_S_S16x512x512 : (⟨S_, .f32⟩ : BufTy).Contents (Elt F) → (⟨S16x512x512, .f32⟩ : BufTy).Contents (Elt F)),
    binary main_v267 main_v266 main_v268 (mulf : (⟨S16x512x512, .f32⟩ : BufTy).Contents (Elt F) → (⟨S16x512x512, .f32⟩ : BufTy).Contents (Elt F) → (⟨S16x512x512, .f32⟩ : BufTy).Contents (Elt F)),
    unary main_v268 main_v269 (Host.exp : (⟨S16x512x512, .f32⟩ : BufTy).Contents (Elt F) → (⟨S16x512x512, .f32⟩ : BufTy).Contents (Elt F)),
    unary main_v269 main_v270 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v270 main_v271 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v271 main_v259 main_v272 (mulf : (⟨S16x512x512x3, .f32⟩ : BufTy).Contents (Elt F) → (⟨S16x512x512x3, .f32⟩ : BufTy).Contents (Elt F) → (⟨S16x512x512x3, .f32⟩ : BufTy).Contents (Elt F)),
    binary main_v257 main_v272 main_v273 (addf : (⟨S16x512x512x3, .f32⟩ : BufTy).Contents (Elt F) → (⟨S16x512x512x3, .f32⟩ : BufTy).Contents (Elt F) → (⟨S16x512x512x3, .f32⟩ : BufTy).Contents (Elt F)),
    binary main_v258 main_v269 main_v274 (addf : (⟨S16x512x512, .f32⟩ : BufTy).Contents (Elt F) → (⟨S16x512x512, .f32⟩ : BufTy).Contents (Elt F) → (⟨S16x512x512, .f32⟩ : BufTy).Contents (Elt F)) ]
end

theorem s17_fresh : ∀ op ∈ (s17 (F := Ideal)), op.fresh = ∅ := by
  intro _ h; (repeat (cases h with | head => rfl | tail _ h => ?_)); exact nomatch h

set_option maxHeartbeats 40000000 in
/-- Across the stretch of window offset (3, 1): the padded image and the input image are untouched, and the next pair of
    accumulators is one step of the pair before. -/
theorem stretch17 (V : Valuation τ sig (Elt Ideal)) (X : Img) (a : Img × Pix)
    (h0 : V (Proc.devRef .tc main_v0) = padV X) (hx : V (Proc.devRef .tc main_arg0) = X)
    (hn : V (Proc.devRef .tc main_v257) = a.1) (hd : V (Proc.devRef .tc main_v258) = a.2) :
    after (s17 (F := Ideal)) V (Proc.devRef .tc main_v0) = padV X
    ∧ after (s17 (F := Ideal)) V (Proc.devRef .tc main_arg0) = X
    ∧ after (s17 (F := Ideal)) V (Proc.devRef .tc main_v273) = (stepV X 0x40000000#32 (nbrV X 3 1) a).1
    ∧ after (s17 (F := Ideal)) V (Proc.devRef .tc main_v274) = (stepV X 0x40000000#32 (nbrV X 3 1) a).2 := by
  refine ⟨?_, ?_, ?_, ?_⟩
  · after_results_simp; exact h0
  · after_results_simp; exact hx
  · after_results_simp
    rw [slice_eq_nbrV V X 3 1 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 3 1 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (3, 2). -/
abbrev s18 : List (HloOp τ sig (Elt F)) :=
  [
    nullary main_c_137 (constantI S_ 32 0#32),
    nullary main_c_138 (constantI S_ 32 3#32),
    nullary main_c_139 (constantI S_ 32 2#32),
    nullary main_c_140 (constantI S_ 32 0#32),
    unaryIndexed main_v0 ![main_c_137, main_c_138, main_c_139, main_c_140] ⟨S_, .i32⟩ main_v275 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v275 main_arg0 main_v276 (subf : (⟨S16x512x512x3, .f32⟩ : BufTy).Contents (Elt F) → (⟨S16x512x512x3, .f32⟩ : BufTy).Contents (Elt F) → (⟨S16x512x512x3, .f32⟩ : BufTy).Contents (Elt F)),
    binary main_v276 main_v276 main_v277 (mulf : (⟨S16x512x512x3, .f32⟩ : BufTy).Contents (Elt F) → (⟨S16x512x512x3, .f32⟩ : BufTy).Contents (Elt F) → (⟨S16x512x512x3, .f32⟩ : BufTy).Contents (Elt F)),
    nullary main_cst_141 (constant S_ .f32 0x00000000#32),
    binary main_v277 main_cst_141 main_v278 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_142 (constant S_ .f32 0x42C80000#32),
    unary main_cst_142 main_v279 (broadcastInDim S16x512x512 ![] bcast_S_S16x512x512 : (⟨S_, .f32⟩ : BufTy).Contents (Elt F) → (⟨S16x512x512, .f32⟩ : BufTy).Contents (Elt F)),
    binary main_v278 main_v279 main_v280 (mulf : (⟨S16x512x512, .f32⟩ : BufTy).Contents (Elt F) → (⟨S16x512x512, .f32⟩ : BufTy).Contents (Elt F) → (⟨S16x512x512, .f32⟩ : BufTy).Contents (Elt F)),
    nullary main_cst_143 (constant S_ .f32 0x3F800000#32),
    unary main_cst_143 main_v281 (broadcastInDim S16x512x512 ![] bcast_S_S16x512x512 : (⟨S_, .f32⟩ : BufTy).Contents (Elt F) → (⟨S16x512x512, .f32⟩ : BufTy).Contents (Elt F)),
    binary main_v281 main_v280 main_v282 (addf : (⟨S16x512x512, .f32⟩ : BufTy).Contents (Elt F) → (⟨S16x512x512, .f32⟩ : BufTy).Contents (Elt F) → (⟨S16x512x512, .f32⟩ : BufTy).Contents (Elt F)),
    nullary main_cst_144 (constant S_ .f32 0xBF000000#32),
    unary main_cst_144 main_v283 (broadcastInDim S16x512x512 ![] bcast_S_S16x512x512 : (⟨S_, .f32⟩ : BufTy).Contents (Elt F) → (⟨S16x512x512, .f32⟩ : BufTy).Contents (Elt F)),
    binary main_v283 main_v282 main_v284 (mulf : (⟨S16x512x512, .f32⟩ : BufTy).Contents (Elt F) → (⟨S16x512x512, .f32⟩ : BufTy).Contents (Elt F) → (⟨S16x512x512, .f32⟩ : BufTy).Contents (Elt F)),
    unary main_v284 main_v285 (Host.exp : (⟨S16x512x512, .f32⟩ : BufTy).Contents (Elt F) → (⟨S16x512x512, .f32⟩ : BufTy).Contents (Elt F)),
    unary main_v285 main_v286 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v286 main_v287 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v287 main_v275 main_v288 (mulf : (⟨S16x512x512x3, .f32⟩ : BufTy).Contents (Elt F) → (⟨S16x512x512x3, .f32⟩ : BufTy).Contents (Elt F) → (⟨S16x512x512x3, .f32⟩ : BufTy).Contents (Elt F)),
    binary main_v273 main_v288 main_v289 (addf : (⟨S16x512x512x3, .f32⟩ : BufTy).Contents (Elt F) → (⟨S16x512x512x3, .f32⟩ : BufTy).Contents (Elt F) → (⟨S16x512x512x3, .f32⟩ : BufTy).Contents (Elt F)),
    binary main_v274 main_v285 main_v290 (addf : (⟨S16x512x512, .f32⟩ : BufTy).Contents (Elt F) → (⟨S16x512x512, .f32⟩ : BufTy).Contents (Elt F) → (⟨S16x512x512, .f32⟩ : BufTy).Contents (Elt F)) ]
end

theorem s18_fresh : ∀ op ∈ (s18 (F := Ideal)), op.fresh = ∅ := by
  intro _ h; (repeat (cases h with | head => rfl | tail _ h => ?_)); exact nomatch h

set_option maxHeartbeats 40000000 in
/-- Across the stretch of window offset (3, 2): the padded image and the input image are untouched, and the next pair of
    accumulators is one step of the pair before. -/
theorem stretch18 (V : Valuation τ sig (Elt Ideal)) (X : Img) (a : Img × Pix)
    (h0 : V (Proc.devRef .tc main_v0) = padV X) (hx : V (Proc.devRef .tc main_arg0) = X)
    (hn : V (Proc.devRef .tc main_v273) = a.1) (hd : V (Proc.devRef .tc main_v274) = a.2) :
    after (s18 (F := Ideal)) V (Proc.devRef .tc main_v0) = padV X
    ∧ after (s18 (F := Ideal)) V (Proc.devRef .tc main_arg0) = X
    ∧ after (s18 (F := Ideal)) V (Proc.devRef .tc main_v289) = (stepV X 0x3F800000#32 (nbrV X 3 2) a).1
    ∧ after (s18 (F := Ideal)) V (Proc.devRef .tc main_v290) = (stepV X 0x3F800000#32 (nbrV X 3 2) a).2 := by
  refine ⟨?_, ?_, ?_, ?_⟩
  · after_results_simp; exact h0
  · after_results_simp; exact hx
  · after_results_simp
    rw [slice_eq_nbrV V X 3 2 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 3 2 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (3, 3). -/
abbrev s19 : List (HloOp τ sig (Elt F)) :=
  [
    nullary main_c_145 (constantI S_ 32 0#32),
    nullary main_c_146 (constantI S_ 32 3#32),
    nullary main_c_147 (constantI S_ 32 3#32),
    nullary main_c_148 (constantI S_ 32 0#32),
    unaryIndexed main_v0 ![main_c_145, main_c_146, main_c_147, main_c_148] ⟨S_, .i32⟩ main_v291 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v291 main_arg0 main_v292 (subf : (⟨S16x512x512x3, .f32⟩ : BufTy).Contents (Elt F) → (⟨S16x512x512x3, .f32⟩ : BufTy).Contents (Elt F) → (⟨S16x512x512x3, .f32⟩ : BufTy).Contents (Elt F)),
    binary main_v292 main_v292 main_v293 (mulf : (⟨S16x512x512x3, .f32⟩ : BufTy).Contents (Elt F) → (⟨S16x512x512x3, .f32⟩ : BufTy).Contents (Elt F) → (⟨S16x512x512x3, .f32⟩ : BufTy).Contents (Elt F)),
    nullary main_cst_149 (constant S_ .f32 0x00000000#32),
    binary main_v293 main_cst_149 main_v294 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_150 (constant S_ .f32 0x42C80000#32),
    unary main_cst_150 main_v295 (broadcastInDim S16x512x512 ![] bcast_S_S16x512x512 : (⟨S_, .f32⟩ : BufTy).Contents (Elt F) → (⟨S16x512x512, .f32⟩ : BufTy).Contents (Elt F)),
    binary main_v294 main_v295 main_v296 (mulf : (⟨S16x512x512, .f32⟩ : BufTy).Contents (Elt F) → (⟨S16x512x512, .f32⟩ : BufTy).Contents (Elt F) → (⟨S16x512x512, .f32⟩ : BufTy).Contents (Elt F)),
    nullary main_cst_151 (constant S_ .f32 0x40000000#32),
    unary main_cst_151 main_v297 (broadcastInDim S16x512x512 ![] bcast_S_S16x512x512 : (⟨S_, .f32⟩ : BufTy).Contents (Elt F) → (⟨S16x512x512, .f32⟩ : BufTy).Contents (Elt F)),
    binary main_v297 main_v296 main_v298 (addf : (⟨S16x512x512, .f32⟩ : BufTy).Contents (Elt F) → (⟨S16x512x512, .f32⟩ : BufTy).Contents (Elt F) → (⟨S16x512x512, .f32⟩ : BufTy).Contents (Elt F)),
    nullary main_cst_152 (constant S_ .f32 0xBF000000#32),
    unary main_cst_152 main_v299 (broadcastInDim S16x512x512 ![] bcast_S_S16x512x512 : (⟨S_, .f32⟩ : BufTy).Contents (Elt F) → (⟨S16x512x512, .f32⟩ : BufTy).Contents (Elt F)),
    binary main_v299 main_v298 main_v300 (mulf : (⟨S16x512x512, .f32⟩ : BufTy).Contents (Elt F) → (⟨S16x512x512, .f32⟩ : BufTy).Contents (Elt F) → (⟨S16x512x512, .f32⟩ : BufTy).Contents (Elt F)),
    unary main_v300 main_v301 (Host.exp : (⟨S16x512x512, .f32⟩ : BufTy).Contents (Elt F) → (⟨S16x512x512, .f32⟩ : BufTy).Contents (Elt F)),
    unary main_v301 main_v302 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v302 main_v303 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v303 main_v291 main_v304 (mulf : (⟨S16x512x512x3, .f32⟩ : BufTy).Contents (Elt F) → (⟨S16x512x512x3, .f32⟩ : BufTy).Contents (Elt F) → (⟨S16x512x512x3, .f32⟩ : BufTy).Contents (Elt F)),
    binary main_v289 main_v304 main_v305 (addf : (⟨S16x512x512x3, .f32⟩ : BufTy).Contents (Elt F) → (⟨S16x512x512x3, .f32⟩ : BufTy).Contents (Elt F) → (⟨S16x512x512x3, .f32⟩ : BufTy).Contents (Elt F)),
    binary main_v290 main_v301 main_v306 (addf : (⟨S16x512x512, .f32⟩ : BufTy).Contents (Elt F) → (⟨S16x512x512, .f32⟩ : BufTy).Contents (Elt F) → (⟨S16x512x512, .f32⟩ : BufTy).Contents (Elt F)) ]
end

theorem s19_fresh : ∀ op ∈ (s19 (F := Ideal)), op.fresh = ∅ := by
  intro _ h; (repeat (cases h with | head => rfl | tail _ h => ?_)); exact nomatch h

set_option maxHeartbeats 40000000 in
/-- Across the stretch of window offset (3, 3): the padded image and the input image are untouched, and the next pair of
    accumulators is one step of the pair before. -/
theorem stretch19 (V : Valuation τ sig (Elt Ideal)) (X : Img) (a : Img × Pix)
    (h0 : V (Proc.devRef .tc main_v0) = padV X) (hx : V (Proc.devRef .tc main_arg0) = X)
    (hn : V (Proc.devRef .tc main_v289) = a.1) (hd : V (Proc.devRef .tc main_v290) = a.2) :
    after (s19 (F := Ideal)) V (Proc.devRef .tc main_v0) = padV X
    ∧ after (s19 (F := Ideal)) V (Proc.devRef .tc main_arg0) = X
    ∧ after (s19 (F := Ideal)) V (Proc.devRef .tc main_v305) = (stepV X 0x40000000#32 (nbrV X 3 3) a).1
    ∧ after (s19 (F := Ideal)) V (Proc.devRef .tc main_v306) = (stepV X 0x40000000#32 (nbrV X 3 3) a).2 := by
  refine ⟨?_, ?_, ?_, ?_⟩
  · after_results_simp; exact h0
  · after_results_simp; exact hx
  · after_results_simp
    rw [slice_eq_nbrV V X 3 3 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 3 3 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (3, 4). -/
abbrev s20 : List (HloOp τ sig (Elt F)) :=
  [
    nullary main_c_153 (constantI S_ 32 0#32),
    nullary main_c_154 (constantI S_ 32 3#32),
    nullary main_c_155 (constantI S_ 32 4#32),
    nullary main_c_156 (constantI S_ 32 0#32),
    unaryIndexed main_v0 ![main_c_153, main_c_154, main_c_155, main_c_156] ⟨S_, .i32⟩ main_v307 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v307 main_arg0 main_v308 (subf : (⟨S16x512x512x3, .f32⟩ : BufTy).Contents (Elt F) → (⟨S16x512x512x3, .f32⟩ : BufTy).Contents (Elt F) → (⟨S16x512x512x3, .f32⟩ : BufTy).Contents (Elt F)),
    binary main_v308 main_v308 main_v309 (mulf : (⟨S16x512x512x3, .f32⟩ : BufTy).Contents (Elt F) → (⟨S16x512x512x3, .f32⟩ : BufTy).Contents (Elt F) → (⟨S16x512x512x3, .f32⟩ : BufTy).Contents (Elt F)),
    nullary main_cst_157 (constant S_ .f32 0x00000000#32),
    binary main_v309 main_cst_157 main_v310 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_158 (constant S_ .f32 0x42C80000#32),
    unary main_cst_158 main_v311 (broadcastInDim S16x512x512 ![] bcast_S_S16x512x512 : (⟨S_, .f32⟩ : BufTy).Contents (Elt F) → (⟨S16x512x512, .f32⟩ : BufTy).Contents (Elt F)),
    binary main_v310 main_v311 main_v312 (mulf : (⟨S16x512x512, .f32⟩ : BufTy).Contents (Elt F) → (⟨S16x512x512, .f32⟩ : BufTy).Contents (Elt F) → (⟨S16x512x512, .f32⟩ : BufTy).Contents (Elt F)),
    nullary main_cst_159 (constant S_ .f32 0x40A00000#32),
    unary main_cst_159 main_v313 (broadcastInDim S16x512x512 ![] bcast_S_S16x512x512 : (⟨S_, .f32⟩ : BufTy).Contents (Elt F) → (⟨S16x512x512, .f32⟩ : BufTy).Contents (Elt F)),
    binary main_v313 main_v312 main_v314 (addf : (⟨S16x512x512, .f32⟩ : BufTy).Contents (Elt F) → (⟨S16x512x512, .f32⟩ : BufTy).Contents (Elt F) → (⟨S16x512x512, .f32⟩ : BufTy).Contents (Elt F)),
    nullary main_cst_160 (constant S_ .f32 0xBF000000#32),
    unary main_cst_160 main_v315 (broadcastInDim S16x512x512 ![] bcast_S_S16x512x512 : (⟨S_, .f32⟩ : BufTy).Contents (Elt F) → (⟨S16x512x512, .f32⟩ : BufTy).Contents (Elt F)),
    binary main_v315 main_v314 main_v316 (mulf : (⟨S16x512x512, .f32⟩ : BufTy).Contents (Elt F) → (⟨S16x512x512, .f32⟩ : BufTy).Contents (Elt F) → (⟨S16x512x512, .f32⟩ : BufTy).Contents (Elt F)),
    unary main_v316 main_v317 (Host.exp : (⟨S16x512x512, .f32⟩ : BufTy).Contents (Elt F) → (⟨S16x512x512, .f32⟩ : BufTy).Contents (Elt F)),
    unary main_v317 main_v318 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v318 main_v319 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v319 main_v307 main_v320 (mulf : (⟨S16x512x512x3, .f32⟩ : BufTy).Contents (Elt F) → (⟨S16x512x512x3, .f32⟩ : BufTy).Contents (Elt F) → (⟨S16x512x512x3, .f32⟩ : BufTy).Contents (Elt F)),
    binary main_v305 main_v320 main_v321 (addf : (⟨S16x512x512x3, .f32⟩ : BufTy).Contents (Elt F) → (⟨S16x512x512x3, .f32⟩ : BufTy).Contents (Elt F) → (⟨S16x512x512x3, .f32⟩ : BufTy).Contents (Elt F)),
    binary main_v306 main_v317 main_v322 (addf : (⟨S16x512x512, .f32⟩ : BufTy).Contents (Elt F) → (⟨S16x512x512, .f32⟩ : BufTy).Contents (Elt F) → (⟨S16x512x512, .f32⟩ : BufTy).Contents (Elt F)) ]
end

theorem s20_fresh : ∀ op ∈ (s20 (F := Ideal)), op.fresh = ∅ := by
  intro _ h; (repeat (cases h with | head => rfl | tail _ h => ?_)); exact nomatch h

set_option maxHeartbeats 40000000 in
/-- Across the stretch of window offset (3, 4): the padded image and the input image are untouched, and the next pair of
    accumulators is one step of the pair before. -/
theorem stretch20 (V : Valuation τ sig (Elt Ideal)) (X : Img) (a : Img × Pix)
    (h0 : V (Proc.devRef .tc main_v0) = padV X) (hx : V (Proc.devRef .tc main_arg0) = X)
    (hn : V (Proc.devRef .tc main_v305) = a.1) (hd : V (Proc.devRef .tc main_v306) = a.2) :
    after (s20 (F := Ideal)) V (Proc.devRef .tc main_v0) = padV X
    ∧ after (s20 (F := Ideal)) V (Proc.devRef .tc main_arg0) = X
    ∧ after (s20 (F := Ideal)) V (Proc.devRef .tc main_v321) = (stepV X 0x40A00000#32 (nbrV X 3 4) a).1
    ∧ after (s20 (F := Ideal)) V (Proc.devRef .tc main_v322) = (stepV X 0x40A00000#32 (nbrV X 3 4) a).2 := by
  refine ⟨?_, ?_, ?_, ?_⟩
  · after_results_simp; exact h0
  · after_results_simp; exact hx
  · after_results_simp
    rw [slice_eq_nbrV V X 3 4 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 3 4 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

end Cert.ReferenceIdeal.RefValue

end
-- ==== Proof.RefStretchE.lean ====
/-
  The reference's stretches of window row 4: the five window offsets (4, 0) … (4, 4), 24 operations each.

  Each stretch reads the padded image at its offset, subtracts the input image, sums the squared differences over the channels, forms
  the weight, and adds the weighted neighbour and the weight to the two accumulators; read through the line of operations, the two
  buffers it writes hold one step of the pair before, and the padded image and the input image are untouched.
-/
import proofs.«124676_j5042291605780_2_alg».proof.Proof.RefStep
import Idealize.ShloMosaic.Lib.StableHlo.Run
import proofs.«124676_j5042291605780_2_alg».proof.Proof.RefStretchLib

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]
/-- The 24 operations of window offset (4, 0). -/
abbrev s21 : List (HloOp τ sig (Elt F)) :=
  [
    nullary main_c_161 (constantI S_ 32 0#32),
    nullary main_c_162 (constantI S_ 32 4#32),
    nullary main_c_163 (constantI S_ 32 0#32),
    nullary main_c_164 (constantI S_ 32 0#32),
    unaryIndexed main_v0 ![main_c_161, main_c_162, main_c_163, main_c_164] ⟨S_, .i32⟩ main_v323 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v323 main_arg0 main_v324 (subf : (⟨S16x512x512x3, .f32⟩ : BufTy).Contents (Elt F) → (⟨S16x512x512x3, .f32⟩ : BufTy).Contents (Elt F) → (⟨S16x512x512x3, .f32⟩ : BufTy).Contents (Elt F)),
    binary main_v324 main_v324 main_v325 (mulf : (⟨S16x512x512x3, .f32⟩ : BufTy).Contents (Elt F) → (⟨S16x512x512x3, .f32⟩ : BufTy).Contents (Elt F) → (⟨S16x512x512x3, .f32⟩ : BufTy).Contents (Elt F)),
    nullary main_cst_165 (constant S_ .f32 0x00000000#32),
    binary main_v325 main_cst_165 main_v326 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_166 (constant S_ .f32 0x42C80000#32),
    unary main_cst_166 main_v327 (broadcastInDim S16x512x512 ![] bcast_S_S16x512x512 : (⟨S_, .f32⟩ : BufTy).Contents (Elt F) → (⟨S16x512x512, .f32⟩ : BufTy).Contents (Elt F)),
    binary main_v326 main_v327 main_v328 (mulf : (⟨S16x512x512, .f32⟩ : BufTy).Contents (Elt F) → (⟨S16x512x512, .f32⟩ : BufTy).Contents (Elt F) → (⟨S16x512x512, .f32⟩ : BufTy).Contents (Elt F)),
    nullary main_cst_167 (constant S_ .f32 0x41000000#32),
    unary main_cst_167 main_v329 (broadcastInDim S16x512x512 ![] bcast_S_S16x512x512 : (⟨S_, .f32⟩ : BufTy).Contents (Elt F) → (⟨S16x512x512, .f32⟩ : BufTy).Contents (Elt F)),
    binary main_v329 main_v328 main_v330 (addf : (⟨S16x512x512, .f32⟩ : BufTy).Contents (Elt F) → (⟨S16x512x512, .f32⟩ : BufTy).Contents (Elt F) → (⟨S16x512x512, .f32⟩ : BufTy).Contents (Elt F)),
    nullary main_cst_168 (constant S_ .f32 0xBF000000#32),
    unary main_cst_168 main_v331 (broadcastInDim S16x512x512 ![] bcast_S_S16x512x512 : (⟨S_, .f32⟩ : BufTy).Contents (Elt F) → (⟨S16x512x512, .f32⟩ : BufTy).Contents (Elt F)),
    binary main_v331 main_v330 main_v332 (mulf : (⟨S16x512x512, .f32⟩ : BufTy).Contents (Elt F) → (⟨S16x512x512, .f32⟩ : BufTy).Contents (Elt F) → (⟨S16x512x512, .f32⟩ : BufTy).Contents (Elt F)),
    unary main_v332 main_v333 (Host.exp : (⟨S16x512x512, .f32⟩ : BufTy).Contents (Elt F) → (⟨S16x512x512, .f32⟩ : BufTy).Contents (Elt F)),
    unary main_v333 main_v334 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v334 main_v335 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v335 main_v323 main_v336 (mulf : (⟨S16x512x512x3, .f32⟩ : BufTy).Contents (Elt F) → (⟨S16x512x512x3, .f32⟩ : BufTy).Contents (Elt F) → (⟨S16x512x512x3, .f32⟩ : BufTy).Contents (Elt F)),
    binary main_v321 main_v336 main_v337 (addf : (⟨S16x512x512x3, .f32⟩ : BufTy).Contents (Elt F) → (⟨S16x512x512x3, .f32⟩ : BufTy).Contents (Elt F) → (⟨S16x512x512x3, .f32⟩ : BufTy).Contents (Elt F)),
    binary main_v322 main_v333 main_v338 (addf : (⟨S16x512x512, .f32⟩ : BufTy).Contents (Elt F) → (⟨S16x512x512, .f32⟩ : BufTy).Contents (Elt F) → (⟨S16x512x512, .f32⟩ : BufTy).Contents (Elt F)) ]
end

theorem s21_fresh : ∀ op ∈ (s21 (F := Ideal)), op.fresh = ∅ := by
  intro _ h; (repeat (cases h with | head => rfl | tail _ h => ?_)); exact nomatch h

set_option maxHeartbeats 40000000 in
/-- Across the stretch of window offset (4, 0): the padded image and the input image are untouched, and the next pair of
    accumulators is one step of the pair before. -/
theorem stretch21 (V : Valuation τ sig (Elt Ideal)) (X : Img) (a : Img × Pix)
    (h0 : V (Proc.devRef .tc main_v0) = padV X) (hx : V (Proc.devRef .tc main_arg0) = X)
    (hn : V (Proc.devRef .tc main_v321) = a.1) (hd : V (Proc.devRef .tc main_v322) = a.2) :
    after (s21 (F := Ideal)) V (Proc.devRef .tc main_v0) = padV X
    ∧ after (s21 (F := Ideal)) V (Proc.devRef .tc main_arg0) = X
    ∧ after (s21 (F := Ideal)) V (Proc.devRef .tc main_v337) = (stepV X 0x41000000#32 (nbrV X 4 0) a).1
    ∧ after (s21 (F := Ideal)) V (Proc.devRef .tc main_v338) = (stepV X 0x41000000#32 (nbrV X 4 0) a).2 := by
  refine ⟨?_, ?_, ?_, ?_⟩
  · after_results_simp; exact h0
  · after_results_simp; exact hx
  · after_results_simp
    rw [slice_eq_nbrV V X 4 0 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 4 0 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (4, 1). -/
abbrev s22 : List (HloOp τ sig (Elt F)) :=
  [
    nullary main_c_169 (constantI S_ 32 0#32),
    nullary main_c_170 (constantI S_ 32 4#32),
    nullary main_c_171 (constantI S_ 32 1#32),
    nullary main_c_172 (constantI S_ 32 0#32),
    unaryIndexed main_v0 ![main_c_169, main_c_170, main_c_171, main_c_172] ⟨S_, .i32⟩ main_v339 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v339 main_arg0 main_v340 (subf : (⟨S16x512x512x3, .f32⟩ : BufTy).Contents (Elt F) → (⟨S16x512x512x3, .f32⟩ : BufTy).Contents (Elt F) → (⟨S16x512x512x3, .f32⟩ : BufTy).Contents (Elt F)),
    binary main_v340 main_v340 main_v341 (mulf : (⟨S16x512x512x3, .f32⟩ : BufTy).Contents (Elt F) → (⟨S16x512x512x3, .f32⟩ : BufTy).Contents (Elt F) → (⟨S16x512x512x3, .f32⟩ : BufTy).Contents (Elt F)),
    nullary main_cst_173 (constant S_ .f32 0x00000000#32),
    binary main_v341 main_cst_173 main_v342 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_174 (constant S_ .f32 0x42C80000#32),
    unary main_cst_174 main_v343 (broadcastInDim S16x512x512 ![] bcast_S_S16x512x512 : (⟨S_, .f32⟩ : BufTy).Contents (Elt F) → (⟨S16x512x512, .f32⟩ : BufTy).Contents (Elt F)),
    binary main_v342 main_v343 main_v344 (mulf : (⟨S16x512x512, .f32⟩ : BufTy).Contents (Elt F) → (⟨S16x512x512, .f32⟩ : BufTy).Contents (Elt F) → (⟨S16x512x512, .f32⟩ : BufTy).Contents (Elt F)),
    nullary main_cst_175 (constant S_ .f32 0x40A00000#32),
    unary main_cst_175 main_v345 (broadcastInDim S16x512x512 ![] bcast_S_S16x512x512 : (⟨S_, .f32⟩ : BufTy).Contents (Elt F) → (⟨S16x512x512, .f32⟩ : BufTy).Contents (Elt F)),
    binary main_v345 main_v344 main_v346 (addf : (⟨S16x512x512, .f32⟩ : BufTy).Contents (Elt F) → (⟨S16x512x512, .f32⟩ : BufTy).Contents (Elt F) → (⟨S16x512x512, .f32⟩ : BufTy).Contents (Elt F)),
    nullary main_cst_176 (constant S_ .f32 0xBF000000#32),
    unary main_cst_176 main_v347 (broadcastInDim S16x512x512 ![] bcast_S_S16x512x512 : (⟨S_, .f32⟩ : BufTy).Contents (Elt F) → (⟨S16x512x512, .f32⟩ : BufTy).Contents (Elt F)),
    binary main_v347 main_v346 main_v348 (mulf : (⟨S16x512x512, .f32⟩ : BufTy).Contents (Elt F) → (⟨S16x512x512, .f32⟩ : BufTy).Contents (Elt F) → (⟨S16x512x512, .f32⟩ : BufTy).Contents (Elt F)),
    unary main_v348 main_v349 (Host.exp : (⟨S16x512x512, .f32⟩ : BufTy).Contents (Elt F) → (⟨S16x512x512, .f32⟩ : BufTy).Contents (Elt F)),
    unary main_v349 main_v350 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v350 main_v351 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v351 main_v339 main_v352 (mulf : (⟨S16x512x512x3, .f32⟩ : BufTy).Contents (Elt F) → (⟨S16x512x512x3, .f32⟩ : BufTy).Contents (Elt F) → (⟨S16x512x512x3, .f32⟩ : BufTy).Contents (Elt F)),
    binary main_v337 main_v352 main_v353 (addf : (⟨S16x512x512x3, .f32⟩ : BufTy).Contents (Elt F) → (⟨S16x512x512x3, .f32⟩ : BufTy).Contents (Elt F) → (⟨S16x512x512x3, .f32⟩ : BufTy).Contents (Elt F)),
    binary main_v338 main_v349 main_v354 (addf : (⟨S16x512x512, .f32⟩ : BufTy).Contents (Elt F) → (⟨S16x512x512, .f32⟩ : BufTy).Contents (Elt F) → (⟨S16x512x512, .f32⟩ : BufTy).Contents (Elt F)) ]
end

theorem s22_fresh : ∀ op ∈ (s22 (F := Ideal)), op.fresh = ∅ := by
  intro _ h; (repeat (cases h with | head => rfl | tail _ h => ?_)); exact nomatch h

set_option maxHeartbeats 40000000 in
/-- Across the stretch of window offset (4, 1): the padded image and the input image are untouched, and the next pair of
    accumulators is one step of the pair before. -/
theorem stretch22 (V : Valuation τ sig (Elt Ideal)) (X : Img) (a : Img × Pix)
    (h0 : V (Proc.devRef .tc main_v0) = padV X) (hx : V (Proc.devRef .tc main_arg0) = X)
    (hn : V (Proc.devRef .tc main_v337) = a.1) (hd : V (Proc.devRef .tc main_v338) = a.2) :
    after (s22 (F := Ideal)) V (Proc.devRef .tc main_v0) = padV X
    ∧ after (s22 (F := Ideal)) V (Proc.devRef .tc main_arg0) = X
    ∧ after (s22 (F := Ideal)) V (Proc.devRef .tc main_v353) = (stepV X 0x40A00000#32 (nbrV X 4 1) a).1
    ∧ after (s22 (F := Ideal)) V (Proc.devRef .tc main_v354) = (stepV X 0x40A00000#32 (nbrV X 4 1) a).2 := by
  refine ⟨?_, ?_, ?_, ?_⟩
  · after_results_simp; exact h0
  · after_results_simp; exact hx
  · after_results_simp
    rw [slice_eq_nbrV V X 4 1 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 4 1 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (4, 2). -/
abbrev s23 : List (HloOp τ sig (Elt F)) :=
  [
    nullary main_c_177 (constantI S_ 32 0#32),
    nullary main_c_178 (constantI S_ 32 4#32),
    nullary main_c_179 (constantI S_ 32 2#32),
    nullary main_c_180 (constantI S_ 32 0#32),
    unaryIndexed main_v0 ![main_c_177, main_c_178, main_c_179, main_c_180] ⟨S_, .i32⟩ main_v355 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v355 main_arg0 main_v356 (subf : (⟨S16x512x512x3, .f32⟩ : BufTy).Contents (Elt F) → (⟨S16x512x512x3, .f32⟩ : BufTy).Contents (Elt F) → (⟨S16x512x512x3, .f32⟩ : BufTy).Contents (Elt F)),
    binary main_v356 main_v356 main_v357 (mulf : (⟨S16x512x512x3, .f32⟩ : BufTy).Contents (Elt F) → (⟨S16x512x512x3, .f32⟩ : BufTy).Contents (Elt F) → (⟨S16x512x512x3, .f32⟩ : BufTy).Contents (Elt F)),
    nullary main_cst_181 (constant S_ .f32 0x00000000#32),
    binary main_v357 main_cst_181 main_v358 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_182 (constant S_ .f32 0x42C80000#32),
    unary main_cst_182 main_v359 (broadcastInDim S16x512x512 ![] bcast_S_S16x512x512 : (⟨S_, .f32⟩ : BufTy).Contents (Elt F) → (⟨S16x512x512, .f32⟩ : BufTy).Contents (Elt F)),
    binary main_v358 main_v359 main_v360 (mulf : (⟨S16x512x512, .f32⟩ : BufTy).Contents (Elt F) → (⟨S16x512x512, .f32⟩ : BufTy).Contents (Elt F) → (⟨S16x512x512, .f32⟩ : BufTy).Contents (Elt F)),
    nullary main_cst_183 (constant S_ .f32 0x40800000#32),
    unary main_cst_183 main_v361 (broadcastInDim S16x512x512 ![] bcast_S_S16x512x512 : (⟨S_, .f32⟩ : BufTy).Contents (Elt F) → (⟨S16x512x512, .f32⟩ : BufTy).Contents (Elt F)),
    binary main_v361 main_v360 main_v362 (addf : (⟨S16x512x512, .f32⟩ : BufTy).Contents (Elt F) → (⟨S16x512x512, .f32⟩ : BufTy).Contents (Elt F) → (⟨S16x512x512, .f32⟩ : BufTy).Contents (Elt F)),
    nullary main_cst_184 (constant S_ .f32 0xBF000000#32),
    unary main_cst_184 main_v363 (broadcastInDim S16x512x512 ![] bcast_S_S16x512x512 : (⟨S_, .f32⟩ : BufTy).Contents (Elt F) → (⟨S16x512x512, .f32⟩ : BufTy).Contents (Elt F)),
    binary main_v363 main_v362 main_v364 (mulf : (⟨S16x512x512, .f32⟩ : BufTy).Contents (Elt F) → (⟨S16x512x512, .f32⟩ : BufTy).Contents (Elt F) → (⟨S16x512x512, .f32⟩ : BufTy).Contents (Elt F)),
    unary main_v364 main_v365 (Host.exp : (⟨S16x512x512, .f32⟩ : BufTy).Contents (Elt F) → (⟨S16x512x512, .f32⟩ : BufTy).Contents (Elt F)),
    unary main_v365 main_v366 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v366 main_v367 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v367 main_v355 main_v368 (mulf : (⟨S16x512x512x3, .f32⟩ : BufTy).Contents (Elt F) → (⟨S16x512x512x3, .f32⟩ : BufTy).Contents (Elt F) → (⟨S16x512x512x3, .f32⟩ : BufTy).Contents (Elt F)),
    binary main_v353 main_v368 main_v369 (addf : (⟨S16x512x512x3, .f32⟩ : BufTy).Contents (Elt F) → (⟨S16x512x512x3, .f32⟩ : BufTy).Contents (Elt F) → (⟨S16x512x512x3, .f32⟩ : BufTy).Contents (Elt F)),
    binary main_v354 main_v365 main_v370 (addf : (⟨S16x512x512, .f32⟩ : BufTy).Contents (Elt F) → (⟨S16x512x512, .f32⟩ : BufTy).Contents (Elt F) → (⟨S16x512x512, .f32⟩ : BufTy).Contents (Elt F)) ]
end

theorem s23_fresh : ∀ op ∈ (s23 (F := Ideal)), op.fresh = ∅ := by
  intro _ h; (repeat (cases h with | head => rfl | tail _ h => ?_)); exact nomatch h

set_option maxHeartbeats 40000000 in
/-- Across the stretch of window offset (4, 2): the padded image and the input image are untouched, and the next pair of
    accumulators is one step of the pair before. -/
theorem stretch23 (V : Valuation τ sig (Elt Ideal)) (X : Img) (a : Img × Pix)
    (h0 : V (Proc.devRef .tc main_v0) = padV X) (hx : V (Proc.devRef .tc main_arg0) = X)
    (hn : V (Proc.devRef .tc main_v353) = a.1) (hd : V (Proc.devRef .tc main_v354) = a.2) :
    after (s23 (F := Ideal)) V (Proc.devRef .tc main_v0) = padV X
    ∧ after (s23 (F := Ideal)) V (Proc.devRef .tc main_arg0) = X
    ∧ after (s23 (F := Ideal)) V (Proc.devRef .tc main_v369) = (stepV X 0x40800000#32 (nbrV X 4 2) a).1
    ∧ after (s23 (F := Ideal)) V (Proc.devRef .tc main_v370) = (stepV X 0x40800000#32 (nbrV X 4 2) a).2 := by
  refine ⟨?_, ?_, ?_, ?_⟩
  · after_results_simp; exact h0
  · after_results_simp; exact hx
  · after_results_simp
    rw [slice_eq_nbrV V X 4 2 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 4 2 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (4, 3). -/
abbrev s24 : List (HloOp τ sig (Elt F)) :=
  [
    nullary main_c_185 (constantI S_ 32 0#32),
    nullary main_c_186 (constantI S_ 32 4#32),
    nullary main_c_187 (constantI S_ 32 3#32),
    nullary main_c_188 (constantI S_ 32 0#32),
    unaryIndexed main_v0 ![main_c_185, main_c_186, main_c_187, main_c_188] ⟨S_, .i32⟩ main_v371 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v371 main_arg0 main_v372 (subf : (⟨S16x512x512x3, .f32⟩ : BufTy).Contents (Elt F) → (⟨S16x512x512x3, .f32⟩ : BufTy).Contents (Elt F) → (⟨S16x512x512x3, .f32⟩ : BufTy).Contents (Elt F)),
    binary main_v372 main_v372 main_v373 (mulf : (⟨S16x512x512x3, .f32⟩ : BufTy).Contents (Elt F) → (⟨S16x512x512x3, .f32⟩ : BufTy).Contents (Elt F) → (⟨S16x512x512x3, .f32⟩ : BufTy).Contents (Elt F)),
    nullary main_cst_189 (constant S_ .f32 0x00000000#32),
    binary main_v373 main_cst_189 main_v374 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_190 (constant S_ .f32 0x42C80000#32),
    unary main_cst_190 main_v375 (broadcastInDim S16x512x512 ![] bcast_S_S16x512x512 : (⟨S_, .f32⟩ : BufTy).Contents (Elt F) → (⟨S16x512x512, .f32⟩ : BufTy).Contents (Elt F)),
    binary main_v374 main_v375 main_v376 (mulf : (⟨S16x512x512, .f32⟩ : BufTy).Contents (Elt F) → (⟨S16x512x512, .f32⟩ : BufTy).Contents (Elt F) → (⟨S16x512x512, .f32⟩ : BufTy).Contents (Elt F)),
    nullary main_cst_191 (constant S_ .f32 0x40A00000#32),
    unary main_cst_191 main_v377 (broadcastInDim S16x512x512 ![] bcast_S_S16x512x512 : (⟨S_, .f32⟩ : BufTy).Contents (Elt F) → (⟨S16x512x512, .f32⟩ : BufTy).Contents (Elt F)),
    binary main_v377 main_v376 main_v378 (addf : (⟨S16x512x512, .f32⟩ : BufTy).Contents (Elt F) → (⟨S16x512x512, .f32⟩ : BufTy).Contents (Elt F) → (⟨S16x512x512, .f32⟩ : BufTy).Contents (Elt F)),
    nullary main_cst_192 (constant S_ .f32 0xBF000000#32),
    unary main_cst_192 main_v379 (broadcastInDim S16x512x512 ![] bcast_S_S16x512x512 : (⟨S_, .f32⟩ : BufTy).Contents (Elt F) → (⟨S16x512x512, .f32⟩ : BufTy).Contents (Elt F)),
    binary main_v379 main_v378 main_v380 (mulf : (⟨S16x512x512, .f32⟩ : BufTy).Contents (Elt F) → (⟨S16x512x512, .f32⟩ : BufTy).Contents (Elt F) → (⟨S16x512x512, .f32⟩ : BufTy).Contents (Elt F)),
    unary main_v380 main_v381 (Host.exp : (⟨S16x512x512, .f32⟩ : BufTy).Contents (Elt F) → (⟨S16x512x512, .f32⟩ : BufTy).Contents (Elt F)),
    unary main_v381 main_v382 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v382 main_v383 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v383 main_v371 main_v384 (mulf : (⟨S16x512x512x3, .f32⟩ : BufTy).Contents (Elt F) → (⟨S16x512x512x3, .f32⟩ : BufTy).Contents (Elt F) → (⟨S16x512x512x3, .f32⟩ : BufTy).Contents (Elt F)),
    binary main_v369 main_v384 main_v385 (addf : (⟨S16x512x512x3, .f32⟩ : BufTy).Contents (Elt F) → (⟨S16x512x512x3, .f32⟩ : BufTy).Contents (Elt F) → (⟨S16x512x512x3, .f32⟩ : BufTy).Contents (Elt F)),
    binary main_v370 main_v381 main_v386 (addf : (⟨S16x512x512, .f32⟩ : BufTy).Contents (Elt F) → (⟨S16x512x512, .f32⟩ : BufTy).Contents (Elt F) → (⟨S16x512x512, .f32⟩ : BufTy).Contents (Elt F)) ]
end

theorem s24_fresh : ∀ op ∈ (s24 (F := Ideal)), op.fresh = ∅ := by
  intro _ h; (repeat (cases h with | head => rfl | tail _ h => ?_)); exact nomatch h

set_option maxHeartbeats 40000000 in
/-- Across the stretch of window offset (4, 3): the padded image and the input image are untouched, and the next pair of
    accumulators is one step of the pair before. -/
theorem stretch24 (V : Valuation τ sig (Elt Ideal)) (X : Img) (a : Img × Pix)
    (h0 : V (Proc.devRef .tc main_v0) = padV X) (hx : V (Proc.devRef .tc main_arg0) = X)
    (hn : V (Proc.devRef .tc main_v369) = a.1) (hd : V (Proc.devRef .tc main_v370) = a.2) :
    after (s24 (F := Ideal)) V (Proc.devRef .tc main_v0) = padV X
    ∧ after (s24 (F := Ideal)) V (Proc.devRef .tc main_arg0) = X
    ∧ after (s24 (F := Ideal)) V (Proc.devRef .tc main_v385) = (stepV X 0x40A00000#32 (nbrV X 4 3) a).1
    ∧ after (s24 (F := Ideal)) V (Proc.devRef .tc main_v386) = (stepV X 0x40A00000#32 (nbrV X 4 3) a).2 := by
  refine ⟨?_, ?_, ?_, ?_⟩
  · after_results_simp; exact h0
  · after_results_simp; exact hx
  · after_results_simp
    rw [slice_eq_nbrV V X 4 3 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 4 3 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

section
variable {F : FTy → Type} [FloatOps F]
/-- The 24 operations of window offset (4, 4). -/
abbrev s25 : List (HloOp τ sig (Elt F)) :=
  [
    nullary main_c_193 (constantI S_ 32 0#32),
    nullary main_c_194 (constantI S_ 32 4#32),
    nullary main_c_195 (constantI S_ 32 4#32),
    nullary main_c_196 (constantI S_ 32 0#32),
    unaryIndexed main_v0 ![main_c_193, main_c_194, main_c_195, main_c_196] ⟨S_, .i32⟩ main_v387 ((fun x i => Host.dynamicSlice S16x512x512x3 x (fun k => (i k (Shape.Idx.first h_S_)).toInt) sliceFits_S16x516x516x3_S16x512x512x3) : (⟨S16x516x516x3, .f32⟩ : BufTy).Contents (Elt F) → (Fin 4 → (⟨S_, .i32⟩ : BufTy).Contents (Elt F)) → (⟨S16x512x512x3, .f32⟩ : BufTy).Contents (Elt F)),
    binary main_v387 main_arg0 main_v388 (subf : (⟨S16x512x512x3, .f32⟩ : BufTy).Contents (Elt F) → (⟨S16x512x512x3, .f32⟩ : BufTy).Contents (Elt F) → (⟨S16x512x512x3, .f32⟩ : BufTy).Contents (Elt F)),
    binary main_v388 main_v388 main_v389 (mulf : (⟨S16x512x512x3, .f32⟩ : BufTy).Contents (Elt F) → (⟨S16x512x512x3, .f32⟩ : BufTy).Contents (Elt F) → (⟨S16x512x512x3, .f32⟩ : BufTy).Contents (Elt F)),
    nullary main_cst_197 (constant S_ .f32 0x00000000#32),
    binary main_v389 main_cst_197 main_v390 ((fun x v => Host.reduceAdd x v reducesTo_S16x512x512x3_S16x512x512_d3 h_S_) : (⟨S16x512x512x3, .f32⟩ : BufTy).Contents (Elt F) → (⟨S_, .f32⟩ : BufTy).Contents (Elt F) → (⟨S16x512x512, .f32⟩ : BufTy).Contents (Elt F)),
    nullary main_cst_198 (constant S_ .f32 0x42C80000#32),
    unary main_cst_198 main_v391 (broadcastInDim S16x512x512 ![] bcast_S_S16x512x512 : (⟨S_, .f32⟩ : BufTy).Contents (Elt F) → (⟨S16x512x512, .f32⟩ : BufTy).Contents (Elt F)),
    binary main_v390 main_v391 main_v392 (mulf : (⟨S16x512x512, .f32⟩ : BufTy).Contents (Elt F) → (⟨S16x512x512, .f32⟩ : BufTy).Contents (Elt F) → (⟨S16x512x512, .f32⟩ : BufTy).Contents (Elt F)),
    nullary main_cst_199 (constant S_ .f32 0x41000000#32),
    unary main_cst_199 main_v393 (broadcastInDim S16x512x512 ![] bcast_S_S16x512x512 : (⟨S_, .f32⟩ : BufTy).Contents (Elt F) → (⟨S16x512x512, .f32⟩ : BufTy).Contents (Elt F)),
    binary main_v393 main_v392 main_v394 (addf : (⟨S16x512x512, .f32⟩ : BufTy).Contents (Elt F) → (⟨S16x512x512, .f32⟩ : BufTy).Contents (Elt F) → (⟨S16x512x512, .f32⟩ : BufTy).Contents (Elt F)),
    nullary main_cst_200 (constant S_ .f32 0xBF000000#32),
    unary main_cst_200 main_v395 (broadcastInDim S16x512x512 ![] bcast_S_S16x512x512 : (⟨S_, .f32⟩ : BufTy).Contents (Elt F) → (⟨S16x512x512, .f32⟩ : BufTy).Contents (Elt F)),
    binary main_v395 main_v394 main_v396 (mulf : (⟨S16x512x512, .f32⟩ : BufTy).Contents (Elt F) → (⟨S16x512x512, .f32⟩ : BufTy).Contents (Elt F) → (⟨S16x512x512, .f32⟩ : BufTy).Contents (Elt F)),
    unary main_v396 main_v397 (Host.exp : (⟨S16x512x512, .f32⟩ : BufTy).Contents (Elt F) → (⟨S16x512x512, .f32⟩ : BufTy).Contents (Elt F)),
    unary main_v397 main_v398 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v398 main_v399 (broadcastInDim S16x512x512x3 ![0, 1, 2, 3] bcast_S16x512x512x1_S16x512x512x3_0_1_2_3 : (⟨S16x512x512x1, .f32⟩ : BufTy).Contents (Elt F) → (⟨S16x512x512x3, .f32⟩ : BufTy).Contents (Elt F)),
    binary main_v399 main_v387 main_v400 (mulf : (⟨S16x512x512x3, .f32⟩ : BufTy).Contents (Elt F) → (⟨S16x512x512x3, .f32⟩ : BufTy).Contents (Elt F) → (⟨S16x512x512x3, .f32⟩ : BufTy).Contents (Elt F)),
    binary main_v385 main_v400 main_v401 (addf : (⟨S16x512x512x3, .f32⟩ : BufTy).Contents (Elt F) → (⟨S16x512x512x3, .f32⟩ : BufTy).Contents (Elt F) → (⟨S16x512x512x3, .f32⟩ : BufTy).Contents (Elt F)),
    binary main_v386 main_v397 main_v402 (addf : (⟨S16x512x512, .f32⟩ : BufTy).Contents (Elt F) → (⟨S16x512x512, .f32⟩ : BufTy).Contents (Elt F) → (⟨S16x512x512, .f32⟩ : BufTy).Contents (Elt F)) ]
end

theorem s25_fresh : ∀ op ∈ (s25 (F := Ideal)), op.fresh = ∅ := by
  intro _ h; (repeat (cases h with | head => rfl | tail _ h => ?_)); exact nomatch h

set_option maxHeartbeats 40000000 in
/-- Across the stretch of window offset (4, 4): the padded image and the input image are untouched, and the next pair of
    accumulators is one step of the pair before. -/
theorem stretch25 (V : Valuation τ sig (Elt Ideal)) (X : Img) (a : Img × Pix)
    (h0 : V (Proc.devRef .tc main_v0) = padV X) (hx : V (Proc.devRef .tc main_arg0) = X)
    (hn : V (Proc.devRef .tc main_v385) = a.1) (hd : V (Proc.devRef .tc main_v386) = a.2) :
    after (s25 (F := Ideal)) V (Proc.devRef .tc main_v0) = padV X
    ∧ after (s25 (F := Ideal)) V (Proc.devRef .tc main_arg0) = X
    ∧ after (s25 (F := Ideal)) V (Proc.devRef .tc main_v401) = (stepV X 0x41000000#32 (nbrV X 4 4) a).1
    ∧ after (s25 (F := Ideal)) V (Proc.devRef .tc main_v402) = (stepV X 0x41000000#32 (nbrV X 4 4) a).2 := by
  refine ⟨?_, ?_, ?_, ?_⟩
  · after_results_simp; exact h0
  · after_results_simp; exact hx
  · after_results_simp
    rw [slice_eq_nbrV V X 4 4 _ h0 ?hst, hn, hx]
    · simp only [stepV, wV, upV]
    · intro k
      fin_cases k <;> (try simp only [Matrix.cons_val_zero', Matrix.cons_val_succ', Fin.zero_eta, Fin.mk_one, Matrix.cons_val_zero, Matrix.cons_val_one, Matrix.head_cons]) <;> (try after_results_simp) <;> rfl
  · after_results_simp
    rw [slice_eq_nbrV V X 4 4 _ h0 ?hst2, hd, hx]
    · simp only [stepV, wV]
    · intro k
      fin_cases k <;> (try simp only [Matrix.cons_val_zero', Matrix.cons_val_succ', Fin.zero_eta, Fin.mk_one, Matrix.cons_val_zero, Matrix.cons_val_one, Matrix.head_cons]) <;> (try after_results_simp) <;> rfl

end Cert.ReferenceIdeal.RefValue

end
-- ==== Proof.RefStretch.lean ====
/-
  The reference's run: every execution of its @main ends with the filtered image of the specification in the result buffer.

  The 610 operations are the 7 of the prefix, the 25 stretches and the 3 of the tail, in order. Carried across them, the buffers hold:
  after the prefix the zero-padded image, the input image, and the two accumulators at zero; after the stretch of the k-th window offset
  the same two images and the pair of accumulators after k steps; after the tail the quotient of the last pair, which is the
  vector-level result, and that is the specification's filtered image. The input image's buffer is never written.
-/
import proofs.«124676_j5042291605780_2_alg».proof.Proof.RefOpsPatched
import proofs.«124676_j5042291605780_2_alg».proof.Proof.RefMainEq
import proofs.«124676_j5042291605780_2_alg».proof.Proof.RefStretchA
import proofs.«124676_j5042291605780_2_alg».proof.Proof.RefStretchB
import proofs.«124676_j5042291605780_2_alg».proof.Proof.RefStretchC
import proofs.«124676_j5042291605780_2_alg».proof.Proof.RefStretchD
import proofs.«124676_j5042291605780_2_alg».proof.Proof.RefStretchE

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The 610 operations are the prefix, the 25 stretches in window order, and the tail. -/
theorem ops_split : Cert.ReferenceIdeal.ValueS.ops (F := Ideal)
    = opsPre ++ (s01 ++ (s02 ++ (s03 ++ (s04 ++ (s05 ++ (s06 ++ (s07 ++ (s08 ++ (s09 ++ (s10 ++ (s11 ++ (s12 ++ (s13 ++ (s14 ++ (s15 ++ (s16 ++ (s17 ++ (s18 ++ (s19 ++ (s20 ++ (s21 ++ (s22 ++ (s23 ++ (s24 ++ (s25 ++ (opsPost)))))))))))))))))))))))))) := rfl

/-- Two lines whose operations each determine their results, one after the other. -/
theorem fresh_append (l₁ l₂ : List (HloOp τ sig (Elt Ideal))) (h₁ : ∀ op ∈ l₁, op.fresh = ∅) (h₂ : ∀ op ∈ l₂, op.fresh = ∅) :
    ∀ op ∈ l₁ ++ l₂, op.fresh = ∅ := fun op h => (List.mem_append.1 h).elim (h₁ op) (h₂ op)

/-- Every operation of the program determines its results. -/
theorem ops_fresh : ∀ op ∈ Cert.ReferenceIdeal.ValueS.ops (F := Ideal), op.fresh = ∅ := by
  rw [ops_split]
  exact fresh_append _ _ opsPre_fresh (fresh_append _ _ s01_fresh (fresh_append _ _ s02_fresh (fresh_append _ _ s03_fresh (fresh_append _ _ s04_fresh (fresh_append _ _ s05_fresh (fresh_append _ _ s06_fresh (fresh_append _ _ s07_fresh (fresh_append _ _ s08_fresh (fresh_append _ _ s09_fresh (fresh_append _ _ s10_fresh (fresh_append _ _ s11_fresh (fresh_append _ _ s12_fresh (fresh_append _ _ s13_fresh (fresh_append _ _ s14_fresh (fresh_append _ _ s15_fresh (fresh_append _ _ s16_fresh (fresh_append _ _ s17_fresh (fresh_append _ _ s18_fresh (fresh_append _ _ s19_fresh (fresh_append _ _ s20_fresh (fresh_append _ _ s21_fresh (fresh_append _ _ s22_fresh (fresh_append _ _ s23_fresh (fresh_append _ _ s24_fresh (fresh_append _ _ s25_fresh (opsPost_fresh))))))))))))))))))))))))))

/-- The fold over the window, step by step. -/
theorem foldV_window (X : Img) : foldV X Cert.Bilateral.window (num0, den0)
    = stepV X 0x41000000#32 (nbrV X 4 4) (stepV X 0x40A00000#32 (nbrV X 4 3) (stepV X 0x40800000#32 (nbrV X 4 2) (stepV X 0x40A00000#32 (nbrV X 4 1) (stepV X 0x41000000#32 (nbrV X 4 0) (stepV X 0x40A00000#32 (nbrV X 3 4) (stepV X 0x40000000#32 (nbrV X 3 3) (stepV X 0x3F800000#32 (nbrV X 3 2) (stepV X 0x40000000#32 (nbrV X 3 1) (stepV X 0x40A00000#32 (nbrV X 3 0) (stepV X 0x40800000#32 (nbrV X 2 4) (stepV X 0x3F800000#32 (nbrV X 2 3) (stepV X 0x00000000#32 (nbrV X 2 2) (stepV X 0x3F800000#32 (nbrV X 2 1) (stepV X 0x40800000#32 (nbrV X 2 0) (stepV X 0x40A00000#32 (nbrV X 1 4) (stepV X 0x40000000#32 (nbrV X 1 3) (stepV X 0x3F800000#32 (nbrV X 1 2) (stepV X 0x40000000#32 (nbrV X 1 1) (stepV X 0x40A00000#32 (nbrV X 1 0) (stepV X 0x41000000#32 (nbrV X 0 4) (stepV X 0x40A00000#32 (nbrV X 0 3) (stepV X 0x40800000#32 (nbrV X 0 2) (stepV X 0x40A00000#32 (nbrV X 0 1) (stepV X 0x41000000#32 (nbrV X 0 0) ((num0, den0)))))))))))))))))))))))))) := rfl

/-- After the 610 operations the result buffer holds the vector-level result of the input image, and the input image is untouched. -/
theorem after_ops (V : Valuation τ sig (Elt Ideal)) :
    after (Cert.ReferenceIdeal.ValueS.ops (F := Ideal)) V (Proc.devRef .tc main_v405) = resV (V (Proc.devRef .tc main_arg0))
    ∧ after (Cert.ReferenceIdeal.ValueS.ops (F := Ideal)) V (Proc.devRef .tc main_arg0) = V (Proc.devRef .tc main_arg0) := by
  rw [ops_split]
  simp only [after_append]
  obtain ⟨p0, px, pn, pd⟩ := pre_inv V
  obtain ⟨a1, b1, c1, d1⟩ := stretch01 _ _ _ p0 px pn pd
  obtain ⟨a2, b2, c2, d2⟩ := stretch02 _ _ _ a1 b1 c1 d1
  obtain ⟨a3, b3, c3, d3⟩ := stretch03 _ _ _ a2 b2 c2 d2
  obtain ⟨a4, b4, c4, d4⟩ := stretch04 _ _ _ a3 b3 c3 d3
  obtain ⟨a5, b5, c5, d5⟩ := stretch05 _ _ _ a4 b4 c4 d4
  obtain ⟨a6, b6, c6, d6⟩ := stretch06 _ _ _ a5 b5 c5 d5
  obtain ⟨a7, b7, c7, d7⟩ := stretch07 _ _ _ a6 b6 c6 d6
  obtain ⟨a8, b8, c8, d8⟩ := stretch08 _ _ _ a7 b7 c7 d7
  obtain ⟨a9, b9, c9, d9⟩ := stretch09 _ _ _ a8 b8 c8 d8
  obtain ⟨a10, b10, c10, d10⟩ := stretch10 _ _ _ a9 b9 c9 d9
  obtain ⟨a11, b11, c11, d11⟩ := stretch11 _ _ _ a10 b10 c10 d10
  obtain ⟨a12, b12, c12, d12⟩ := stretch12 _ _ _ a11 b11 c11 d11
  obtain ⟨a13, b13, c13, d13⟩ := stretch13 _ _ _ a12 b12 c12 d12
  obtain ⟨a14, b14, c14, d14⟩ := stretch14 _ _ _ a13 b13 c13 d13
  obtain ⟨a15, b15, c15, d15⟩ := stretch15 _ _ _ a14 b14 c14 d14
  obtain ⟨a16, b16, c16, d16⟩ := stretch16 _ _ _ a15 b15 c15 d15
  obtain ⟨a17, b17, c17, d17⟩ := stretch17 _ _ _ a16 b16 c16 d16
  obtain ⟨a18, b18, c18, d18⟩ := stretch18 _ _ _ a17 b17 c17 d17
  obtain ⟨a19, b19, c19, d19⟩ := stretch19 _ _ _ a18 b18 c18 d18
  obtain ⟨a20, b20, c20, d20⟩ := stretch20 _ _ _ a19 b19 c19 d19
  obtain ⟨a21, b21, c21, d21⟩ := stretch21 _ _ _ a20 b20 c20 d20
  obtain ⟨a22, b22, c22, d22⟩ := stretch22 _ _ _ a21 b21 c21 d21
  obtain ⟨a23, b23, c23, d23⟩ := stretch23 _ _ _ a22 b22 c22 d22
  obtain ⟨a24, b24, c24, d24⟩ := stretch24 _ _ _ a23 b23 c23 d23
  obtain ⟨a25, b25, c25, d25⟩ := stretch25 _ _ _ a24 b24 c24 d24
  have hres := post_res _ _ _ b25 c25 d25
  refine ⟨hres.1.trans ?_, hres.2⟩
  unfold resV
  rw [foldV_window]

/-- On every device, from any memory with zero counters: every weakly fair execution of @main terminates with the filtered image of
    the input in the result buffer and the input unchanged. -/
theorem run_stretches (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v405) = Cert.Bilateral.result (m ((c.tc : Thread nD τ).loc main_arg0))
      ∧ r.2.mem ((c.tc : Thread nD τ).loc main_arg0) = m ((c.tc : Thread nD τ).loc main_arg0) :=
  (θ_run defs _ _).mono (fun _ h c =>
      ⟨(h c main_v405).trans (((after_ops (launchContents m c)).1).trans (resV_eq _)),
       (h c main_arg0).trans (after_ops (launchContents m c)).2⟩)
    (run_seq Cert.ReferenceIdeal.ValueS.scopedRefs_eq Cert.ReferenceIdeal.ValueS.scopedSems_eq defs main
      (fun _ => Cert.ReferenceIdeal.ValueS.ops) main_eq (fun _ => Cert.ReferenceIdeal.ValueS.ops_sub) m ρ (fun _ => ops_fresh))

end Cert.ReferenceIdeal.RefValue

end
-- ==== Proof.lean ====
/-
  A 5 × 5 bilateral filter over f32[16, 512, 512, 3] images: the tiled kernel against its plain reference, on the extended reals.

  Both programs pad the image with two zero rows and columns on every side and, for each pixel, fold the 25 neighbours of the
  padded image in row-major order into a weighted sum and a sum of weights, each neighbour's weight
  exp (-1/2 · (s + 100 · ∑ over channels of (neighbour - centre)²)) with s its squared distance in the window, and divide. The
  kernel works channel-major, one batch image per grid point (a [1, 3, 516, 516] block in, a [1, 3, 512, 512] block out), between a
  host transpose before and after; the reference works on the whole [16, 512, 512, 3] array with dynamic slices of the padded
  image. The specification (Proof/Spec.lean) is that filter as ONE function `result` of the launched image; Proof/KStep, KBody,
  KBlock and KRun read the kernel's run as `result` (a neighbour step at a pixel; the body as a fold; a block; the tiled array and
  the last transpose); Proof/RefMainEq, RefStretch and RefStep read the reference's (its @main as one line of operations; the line run
  stretch by stretch, one window offset at a time; a stretch at a pixel). The two sides spell the same arithmetic in the same order with the
  same literals; the only law used is 0 + x = x (the reference's channel sum starts from an explicit zero), so the precondition
  that the input is finite is never opened. The kernel's idealization rewrote nothing, so `preserves` is `True`.
-/
import proofs.«124676_j5042291605780_2_alg».proof.Defs
import proofs.«124676_j5042291605780_2_alg».proof.Proof.Gen.Kernel
import proofs.«124676_j5042291605780_2_alg».proof.Proof.Gen.Kernel.Skeleton
import proofs.«124676_j5042291605780_2_alg».proof.Proof.Gen.Kernel.Launch
import proofs.«124676_j5042291605780_2_alg».proof.Proof.Gen.Kernel.Points
import proofs.«124676_j5042291605780_2_alg».proof.Proof.Gen.Kernel.Frame
import proofs.«124676_j5042291605780_2_alg».proof.Proof.Gen.KernelIdeal
import proofs.«124676_j5042291605780_2_alg».proof.Proof.Gen.KernelIdeal.Skeleton
import proofs.«124676_j5042291605780_2_alg».proof.Proof.Gen.KernelIdeal.Launch
import proofs.«124676_j5042291605780_2_alg».proof.Proof.Gen.KernelIdeal.Points
import proofs.«124676_j5042291605780_2_alg».proof.Proof.Gen.KernelIdeal.Frame
import proofs.«124676_j5042291605780_2_alg».proof.Proof.Gen.ReferenceIdeal
import proofs.«124676_j5042291605780_2_alg».proof.Proof.Gen.Pre_finite_inputs
import proofs.«124676_j5042291605780_2_alg».proof.Proof.KRun
import proofs.«124676_j5042291605780_2_alg».proof.Proof.RefStretch
import Idealize.ShloMosaic.Adequacy
import Idealize.ShloMosaic.Init

noncomputable section

namespace Cert.Proof

open Idealize.ShloMosaic Idealize.SL.Sem

/-- The word-level kernel terminates without a fault and leaves its argument as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.run_stretches m ρ)

/-- The idealization rewrote no operation. -/
theorem preserves : Cert.preserves_Kernel_KernelIdeal := trivial

/-- From memories that agree on the image, both programs end with the filtered image of it, entry by entry. -/
theorem algebraic : Cert.algebraic_KernelIdeal_ReferenceIdeal := by
  intro m ρ m' ρ' _ hagree
  refine ⟨fun c => Cert.Bilateral.result (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefValue.run_stretches m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
